-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x512x1024 : Shape := ⟨3, ![1, 512, 1024]⟩
abbrev S1x512x1 : Shape := ⟨3, ![1, 512, 1]⟩
abbrev S1x512x512 : Shape := ⟨3, ![1, 512, 512]⟩
abbrev S1x512 : Shape := ⟨2, ![1, 512]⟩

abbrev nBuf : Space → Nat
  | .hbm => 15
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S1x3072, .f32⟩
  | .hbm, ⟨11, _⟩ => ⟨S16384x1024, .f32⟩
  | .hbm, ⟨12, _⟩ => ⟨S16384x3072, .bf16⟩
  | .hbm, ⟨13, _⟩ => ⟨S8x2048x3072, .bf16⟩
  | .hbm, ⟨14, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x1, .f32⟩
  | .local _ .vmem, ⟨15, _⟩ => ⟨S1x512x1, .f32⟩
  | .local _ .vmem, ⟨16, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  iota_S1x512x512_d1_w32 : S1x512x512.Iotas .tc 32 [1]
  iota_S1x512x512_d2_w32 : S1x512x512.Iotas .tc 32 [2]
  reduces_S1x512x512_S1x512 : S1x512x512.Reduces [2] S1x512
  shapeCasts_S1x512_S1x512x1 : S1x512.ShapeCasts S1x512x1
  broadcasts_S1x512x1_S1x512x512 : S1x512x1.Broadcasts S1x512x512
  broadcasts_S1x512x1_S1x512x1024 : S1x512x1.Broadcasts S1x512x1024
  dot_S512x1024_S1024x3072_S512x3072_1_0_0_1_n_n_wf : DotDims.WF S512x1024 S1024x3072 S512x3072 [1] [0] [0] [1] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .bf16 = 32 ∨ (Rect.block (s := S16384x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x3072.size a
  hwx1_0 : ∀ i : grid1.Coords, EltTy.bits .bf16 = 32 ∨ (Rect.block (s := S8x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x3072.size a
  hwx1_1 : ∀ i : grid1.Coords, EltTy.bits .bf16 = 32 ∨ (Rect.block (s := S8x2048x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x3072.size a
  hwx1_2 : ∀ i : grid1.Coords, EltTy.bits .bf16 = 32 ∨ (Rect.block (s := S8x2048x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .i1⟩
  | .hbm, ⟨27, _⟩ => ⟨S2048x2048, .i1⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .i1⟩
  | .hbm, ⟨35, _⟩ => ⟨S2048x2048, .i1⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S8x2048x2048, .i1⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v18 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.LibOnlineSoftmax.lean ====
/-
  Streaming softmax over the extended reals: the running maximum, normaliser and weighted sum that a blocked
  attention kernel carries from key block to key block hold, after every block, the softmax sums of the keys
  seen so far; at the end their quotient is the softmax-weighted mean that the unblocked formula computes.

  One query row. A key `k` has a score `s k`, a real number or `-∞` (a masked key; never `+∞`), and a real
  value `v k`. From the state `(m, l, a) = (-∞, 0, 0)` a block `B` of new keys updates

      m' = max m (sup_B s)
      l' = exp (m - m') · l + Σ_{k ∈ B} exp (s k - m')
      a' = exp (m - m') · a + Σ_{k ∈ B} exp (s k - m') · v k

  where `exp (-∞) = 0`. If every new maximum `m'` is a real number (some key seen so far is unmasked), then after the
  keys `K` the state is `m = sup_K s`, `l = Σ_K exp (s k - m)`, `a = Σ_K exp (s k - m) · v k` (`Inv`, `Inv.step`), because
  `exp (m - m') · exp (s k - m) = exp (s k - m')` for real `m`, `m'` and a masked key weighs `0` against every level. At the
  end `a / l = Σ_K (exp (s k - m) / Σ_K exp (s j - m)) · v k` (`Inv.div_eq`): the normaliser is a real number `≥ 1` (the key
  that attains the maximum weighs `exp 0`), so dividing the sum is dividing each term.
-/
import Idealize.ShloMosaic.PureOps.Ideal

noncomputable section

namespace LibOnlineSoftmax

open Idealize.ShloMosaic

variable {κ : Type} [DecidableEq κ]

/-- The weight `exp (x - M)` of a score `x` against a real level `M`, as a real number: `0` for a masked score. -/
def wt (x : EReal) (M : ℝ) : ℝ := if x = ⊥ then 0 else Real.exp (x.toReal - M)

@[simp] theorem wt_bot (M : ℝ) : wt ⊥ M = 0 := by simp [wt]

@[simp] theorem wt_coe (r M : ℝ) : wt (r : EReal) M = Real.exp (r - M) := by
  simp [wt, EReal.coe_ne_bot]

theorem wt_nonneg (x : EReal) (M : ℝ) : 0 ≤ wt x M := by
  unfold wt; split
  · exact le_rfl
  · exact (Real.exp_pos _).le

/-- Changing the level rescales every weight by one factor. -/
theorem wt_shift (x : EReal) (M M' : ℝ) : wt x M' = Real.exp (M - M') * wt x M := by
  unfold wt; split
  · simp
  · rw [← Real.exp_add]; congr 1; ring

/-- A finite sum of reals, read in the extended reals, is the sum of the terms read there. -/
theorem coe_sum (K : Finset κ) (f : κ → ℝ) : ((∑ k ∈ K, f k : ℝ) : EReal) = ∑ k ∈ K, (f k : EReal) := by
  induction K using Finset.induction_on with
  | empty => simp
  | insert a s ha ih => rw [Finset.sum_insert ha, Finset.sum_insert ha, EReal.coe_add, ih]

/-- The exponential of a score minus a real level is the score's weight. -/
theorem exp_sub_coe {x : EReal} (hx : x ≠ ⊤) (M : ℝ) : Ideal.exp (x - (M : EReal)) = ((wt x M : ℝ) : EReal) := by
  induction x using EReal.rec with
  | bot => simp
  | coe r => rw [← EReal.coe_sub, Ideal.exp_coe, wt_coe]
  | top => exact absurd rfl hx

/-- A block's largest score as a kernel's lane reduction and a host reduction both read it — the fold of `max` from `-∞` —
    is the supremum the statements above are written with. -/
theorem fold_max_bot (K : Finset κ) (f : κ → EReal) : K.fold max ⊥ f = K.sup f := by
  induction K using Finset.induction_on with
  | empty => simp
  | insert a s ha ih => rw [Finset.fold_insert ha, Finset.sup_insert, ih]

/-- After the keys `K`: the running maximum is the largest score seen; while it is `-∞` (nothing seen, or only masked
    keys) both sums are `0`; once it is a real number `M` they are the weights' sum and the weighted values' sum
    against `M`. -/
structure Inv (s : κ → EReal) (v : κ → ℝ) (K : Finset κ) (m l a : EReal) : Prop where
  max_eq : m = K.sup s
  sums : (m = ⊥ ∧ l = 0 ∧ a = 0) ∨
    ∃ M : ℝ, m = (M : EReal) ∧ l = ((∑ k ∈ K, wt (s k) M : ℝ) : EReal)
      ∧ a = ((∑ k ∈ K, wt (s k) M * v k : ℝ) : EReal)

/-- Before the first block. -/
theorem Inv.init (s : κ → EReal) (v : κ → ℝ) : Inv s v ∅ ⊥ 0 0 :=
  ⟨Finset.sup_empty.symm, Or.inl ⟨rfl, rfl, rfl⟩⟩

/-- Keys whose scores are all `-∞` weigh nothing, against any level. -/
theorem sum_wt_eq_zero {s : κ → EReal} {K : Finset κ} (h : K.sup s = ⊥) (M : ℝ) (f : κ → ℝ) :
    ∑ k ∈ K, wt (s k) M * f k = 0 :=
  Finset.sum_eq_zero fun k hk => by rw [(Finset.sup_eq_bot_iff _ _).1 h k hk, wt_bot, zero_mul]

/-- One block of new keys, when the new maximum is a real number. -/
theorem Inv.step {s : κ → EReal} {v : κ → ℝ} {K B : Finset κ} {m l a : EReal} (hs : ∀ k, s k ≠ ⊤)
    (h : Inv s v K m l a) (hd : Disjoint K B) {M' : ℝ} (hM' : max m (B.sup s) = (M' : EReal)) :
    Inv s v (K ∪ B) (max m (B.sup s))
      (Ideal.exp (m - max m (B.sup s)) * l + ∑ k ∈ B, Ideal.exp (s k - max m (B.sup s)))
      (Ideal.exp (m - max m (B.sup s)) * a + ∑ k ∈ B, Ideal.exp (s k - max m (B.sup s)) * (v k : EReal)) := by
  have hB1 : ∑ k ∈ B, Ideal.exp (s k - (M' : EReal)) = ((∑ k ∈ B, wt (s k) M' : ℝ) : EReal) := by
    rw [coe_sum]; exact Finset.sum_congr rfl fun k _ => exp_sub_coe (hs k) M'
  have hB2 : ∑ k ∈ B, Ideal.exp (s k - (M' : EReal)) * (v k : EReal) = ((∑ k ∈ B, wt (s k) M' * v k : ℝ) : EReal) := by
    rw [coe_sum]; exact Finset.sum_congr rfl fun k _ => by rw [exp_sub_coe (hs k) M', EReal.coe_mul]
  refine ⟨?_, Or.inr ⟨M', hM', ?_, ?_⟩⟩
  · rw [Finset.sup_union, ← h.max_eq]
  · rw [hM', hB1, Finset.sum_union hd]
    rcases h.sums with ⟨hm, hl, -⟩ | ⟨M, hm, hl, -⟩
    · have h0 := sum_wt_eq_zero (h.max_eq.symm.trans hm) M' (fun _ => (1 : ℝ))
      simp only [mul_one] at h0
      rw [hl, mul_zero, zero_add, h0, zero_add]
    · rw [hm, hl, ← EReal.coe_sub, Ideal.exp_coe, ← EReal.coe_mul, ← EReal.coe_add, Finset.mul_sum]
      congr 2
      exact Finset.sum_congr rfl fun k _ => (wt_shift (s k) M M').symm
  · rw [hM', hB2, Finset.sum_union hd]
    rcases h.sums with ⟨hm, -, ha⟩ | ⟨M, hm, -, ha⟩
    · rw [ha, mul_zero, zero_add, sum_wt_eq_zero (h.max_eq.symm.trans hm) M' v, zero_add]
    · rw [hm, ha, ← EReal.coe_sub, Ideal.exp_coe, ← EReal.coe_mul, ← EReal.coe_add, Finset.mul_sum]
      congr 2
      exact Finset.sum_congr rfl fun k _ => by rw [wt_shift (s k) M M', mul_assoc]

/-- At the end the quotient of the two sums is the mean of the values under the normalised weights: what the unblocked
    formula computes, row maximum subtracted, each exponential divided by their sum. -/
theorem Inv.div_eq {s : κ → EReal} {v : κ → ℝ} {K : Finset κ} {m l a : EReal} (hs : ∀ k, s k ≠ ⊤)
    (h : Inv s v K m l a) {M : ℝ} (hM : m = (M : EReal)) :
    Ideal.div a l
      = ∑ k ∈ K, Ideal.div (Ideal.exp (s k - m)) (∑ j ∈ K, Ideal.exp (s j - m)) * (v k : EReal) := by
  rcases h.sums with ⟨hm, -, -⟩ | ⟨M₀, hm, hl, ha⟩
  · exact absurd (hm.symm.trans hM) (EReal.coe_ne_bot M).symm
  · have hMM : M₀ = M := EReal.coe_eq_coe_iff.1 (hm.symm.trans hM)
    subst hMM
    -- the normaliser is at least the weight of the key that attains the maximum, which is `exp 0`
    have hne : K.Nonempty := by
      rcases K.eq_empty_or_nonempty with rfl | hne
      · have h1 := h.max_eq
        rw [Finset.sup_empty] at h1
        exact absurd (h1.symm.trans hM).symm (EReal.coe_ne_bot _)
      · exact hne
    obtain ⟨k₀, hk₀, hsup⟩ := Finset.exists_mem_eq_sup K hne s
    have hk₀' : s k₀ = (M₀ : EReal) := by rw [← hsup, ← h.max_eq, hM]
    have hL : (0 : ℝ) < ∑ k ∈ K, wt (s k) M₀ :=
      lt_of_lt_of_le (by rw [hk₀', wt_coe, sub_self, Real.exp_zero]; exact one_pos)
        (Finset.single_le_sum (fun k _ => wt_nonneg (s k) M₀) hk₀)
    have hsum : ∑ j ∈ K, Ideal.exp (s j - (M₀ : EReal)) = ((∑ k ∈ K, wt (s k) M₀ : ℝ) : EReal) := by
      rw [coe_sum]; exact Finset.sum_congr rfl fun k _ => exp_sub_coe (hs k) M₀
    rw [hM, hsum, ha, hl, Ideal.div_coe hL.ne', ← EReal.coe_mul, Finset.sum_mul, coe_sum]
    refine Finset.sum_congr rfl fun k _ => ?_
    rw [exp_sub_coe (hs k) M₀, Ideal.div_coe hL.ne', ← EReal.coe_mul, ← EReal.coe_mul]
    congr 1; ring

/-- The blocks one after the other: a sequence of states that starts at `(-∞, 0, 0)` and takes one block per step, every
    new maximum a real number, holds after `n` steps the sums over the first `n` blocks. -/
theorem Inv.blocks {s : κ → EReal} {v : κ → ℝ} (hs : ∀ k, s k ≠ ⊤) (blk : ℕ → Finset κ)
    (hd : ∀ i j, i ≠ j → Disjoint (blk i) (blk j)) (m l a : ℕ → EReal)
    (h0 : m 0 = ⊥ ∧ l 0 = 0 ∧ a 0 = 0)
    (hm : ∀ n, m (n + 1) = max (m n) ((blk n).sup s))
    (hl : ∀ n, l (n + 1) = Ideal.exp (m n - m (n + 1)) * l n + ∑ k ∈ blk n, Ideal.exp (s k - m (n + 1)))
    (ha : ∀ n, a (n + 1) = Ideal.exp (m n - m (n + 1)) * a n + ∑ k ∈ blk n, Ideal.exp (s k - m (n + 1)) * (v k : EReal))
    (hreal : ∀ n, ∃ M : ℝ, m (n + 1) = (M : EReal)) :
    ∀ n, Inv s v ((Finset.range n).biUnion blk) (m n) (l n) (a n) := by
  intro n
  induction n with
  | zero =>
    rw [Finset.range_zero, Finset.biUnion_empty, h0.1, h0.2.1, h0.2.2]
    exact Inv.init s v
  | succ n ih =>
    obtain ⟨M, hM⟩ := hreal n
    have hdis : Disjoint ((Finset.range n).biUnion blk) (blk n) :=
      (Finset.disjoint_biUnion_left _ _ _).2 fun i hi => hd i n (Finset.mem_range.1 hi).ne
    have hstep := ih.step hs hdis (M' := M) ((hm n).symm.trans hM)
    rw [Finset.range_add_one, Finset.biUnion_insert, Finset.union_comm, hl n, ha n, hm n]
    exact hstep

end LibOnlineSoftmax

end
-- ==== Proof.AttSpec.lean ====
/-
  Causal single-head attention over projected inputs, as one function of the seven argument arrays, index by index,
  on the extended reals.

  q, k, v are the projections x·W + bias. The score of query `q` against key `k` is (Σ_h Q[q,h]·K[k,h]) · (1/32); a key
  after the query (k > q) is masked to -∞. The result at (b, q, h) is Σ_k (exp (s_k - M) / Σ_j exp (s_j - M)) · V[k,h] with
  M the row's largest (masked) score: the row-maximum-subtracted softmax, then the weighted mean of the values.
-/
import Idealize.ShloMosaic.PureOps.Ideal
import Idealize.ShloMosaic.Lib.ValueIdx

noncomputable section

namespace Cert.Att

open Idealize.ShloMosaic Idealize.ShloMosaic.ValueIdx

abbrev SX : Shape := ⟨3, ![8, 2048, 1024]⟩
abbrev SW : Shape := ⟨2, ![1024, 1024]⟩
abbrev SB : Shape := ⟨1, ![1024]⟩

/-- One projection `x·W + bias` at batch `b`, position `n`, feature `h`. -/
def proj (x : SX.Idx → EReal) (W : SW.Idx → EReal) (bias : SB.Idx → EReal) (b : Fin 8) (n : Fin 2048) (h : Fin 1024) : EReal :=
  (∑ d : Fin 1024, x (ix3 b n d) * W (ix2 d h)) + bias (ix1 h)

/-- The scaled score of query position `q` against key position `k`. -/
def score (Q K : Fin 8 → Fin 2048 → Fin 1024 → EReal) (b : Fin 8) (q k : Fin 2048) : EReal :=
  (∑ h : Fin 1024, Q b q h * K b k h) * ((1 / 32 : ℝ) : EReal)

/-- The causal mask: a key after the query scores `-∞`. -/
def masked (Q K : Fin 8 → Fin 2048 → Fin 1024 → EReal) (b : Fin 8) (q k : Fin 2048) : EReal :=
  if k.val ≤ q.val then score Q K b q k else ⊥

/-- A query row's largest masked score. -/
def rowMax (Q K : Fin 8 → Fin 2048 → Fin 1024 → EReal) (b : Fin 8) (q : Fin 2048) : EReal :=
  Finset.univ.sup (masked Q K b q)

/-- Softmax over the keys, then the weighted mean of the values. -/
def attn (Q K V : Fin 8 → Fin 2048 → Fin 1024 → EReal) (b : Fin 8) (q : Fin 2048) (h : Fin 1024) : EReal :=
  ∑ k : Fin 2048, Ideal.div (Ideal.exp (masked Q K b q k - rowMax Q K b q))
      (∑ j : Fin 2048, Ideal.exp (masked Q K b q j - rowMax Q K b q)) * V b k h

/-- The result array as one function of the argument arrays. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal :=
  fun i => attn (proj x Wq bq) (proj x Wk bk) (proj x Wv bv) (i 0) (i 1) (i 2)

end Cert.Att

end
-- ==== Proof.RefValue.lean ====
/-
  The reference program, read index by index, is the specification `Cert.Att.G`.

  The reference projects the input three times (a contraction over the feature axis plus a bias broadcast along the
  other two axes), contracts the first two projections over the feature axis and multiplies by 1 / √1024, replaces
  the entries above the diagonal of each 2048 × 2048 score matrix by -∞, subtracts each row's maximum, exponentiates,
  divides by the row's sum, and contracts the result with the third projection over the key axis. Each stage below is
  read at an index built from explicit coordinates (batch b, query q, key k, feature h); the stages compose to the
  formula of the specification with no condition on the inputs.

  Three points are not index bookkeeping: the scale 1 / √1024 is the real number 1 / 32 (1024 = 32²); the mask's
  condition, a signed comparison of two 32-bit counters below 2048, holds exactly when k ≤ q; and the row maximum, a
  fold of `max` from -∞ over the key axis, is the supremum over the keys.
-/
import proofs.«104284_j31817117729495_2_alg».proof.Proof.Gen.ReferenceIdeal.Read
import proofs.«104284_j31817117729495_2_alg».proof.Proof.AttSpec
import proofs.«104284_j31817117729495_2_alg».proof.Proof.LibOnlineSoftmax

noncomputable section

namespace Cert.ReferenceIdeal.RefValue

open Idealize.ShloMosaic Idealize.ShloMosaic.ValueIdx Cert.ReferenceIdeal Cert.ReferenceIdeal.Read Cert.Att

/-! ## The constants -/

/-- The pattern 0xFF800000 denotes -∞. -/
theorem ofBits_neg_inf : Ideal.ofBits .f32 0xFF800000#32 = ⊥ := by simp [Ideal.ofBits, Ideal.ieee]

/-- The pattern 0x44800000 denotes 1024. -/
theorem ofBits_1024 : Ideal.ofBits .f32 0x44800000#32 = ((1024 : ℝ) : EReal) := by
  simp [Ideal.ofBits, Ideal.ieee, -EReal.coe_mul]; norm_num

/-- The pattern 0x3F800000 denotes 1. -/
theorem ofBits_one : Ideal.ofBits .f32 0x3F800000#32 = ((1 : ℝ) : EReal) := by
  simp [Ideal.ofBits, Ideal.ieee, -EReal.coe_mul]; norm_num

theorem sqrt_1024 : Real.sqrt 1024 = 32 := by
  rw [show (1024 : ℝ) = 32 ^ 2 by norm_num]
  exact Real.sqrt_sq (by norm_num)

/-- 1 / √1024 = 1 / 32. -/
theorem scale_val : Ideal.div (Ideal.ofBits .f32 0x3F800000#32) (Ideal.sqrt (Ideal.ofBits .f32 0x44800000#32))
    = ((1 / 32 : ℝ) : EReal) := by
  rw [ofBits_one, ofBits_1024, Ideal.sqrt_coe, if_neg (by norm_num), sqrt_1024,
    Ideal.div_coe (by norm_num : (32 : ℝ) ≠ 0), ← EReal.coe_mul, one_mul]

/-- A counter below 2048, as a signed 32-bit word, is itself. -/
theorem toInt_small (n : Nat) (hn : n < 2048) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The lower-triangle test: row counter (plus the offset 0) ≥ column counter, signed, holds exactly when k ≤ q. -/
theorem causal_bit (q k : Fin 2048) :
    IntOp.cmpi .sge (IntOp.addi (BitVec.ofNat 32 q.val) 0#32) (BitVec.ofNat 32 k.val)
      = if k.val ≤ q.val then 1#1 else 0#1 := by
  have e : IntOp.addi (BitVec.ofNat 32 q.val) 0#32 = BitVec.ofNat 32 q.val := by
    unfold IntOp.addi; exact BitVec.add_zero _
  rw [e]
  by_cases hkq : k.val ≤ q.val
  · rw [if_pos hkq]
    exact IntOp.cmpi_sge.2 (by rw [toInt_small _ q.isLt, toInt_small _ k.isLt]; exact_mod_cast hkq)
  · rw [if_neg hkq]
    refine eq_zero_of_ne_one fun h => hkq ?_
    have := IntOp.cmpi_sge.1 h
    rw [toInt_small _ q.isLt, toInt_small _ k.isLt] at this
    exact_mod_cast this

/-! ## The three projections -/

/-- The query projection at (b, n, h). -/
theorem v3_eq (x : FVec Ideal S8x2048x1024 .f32) (W : FVec Ideal S1024x1024 .f32) (c : FVec Ideal S1024 .f32)
    (b : Fin 8) (n : Fin 2048) (h : Fin 1024) :
    val_main_v3 (F := Ideal) x W c (ix3 b n h) = proj x W c b n h := by
  rw [val_main_v3_apply, val_main_v0_apply, val_main_v2_apply, val_main_v1_apply, Ideal.addf_def]
  unfold proj
  refine congrArg₂ (· + ·) (Finset.sum_congr rfl fun d _ => ?_) ?_
  · exact congrArg₂ (· * ·)
      (congrArg x (funext fun a => Fin.ext (by match a with | ⟨0, _⟩ => rfl | ⟨1, _⟩ => rfl | ⟨2, _⟩ => rfl)))
      (congrArg W (funext fun a => Fin.ext (by match a with | ⟨0, _⟩ => rfl | ⟨1, _⟩ => rfl)))
  · exact congrArg c (funext fun a => Fin.ext (by match a with | ⟨0, _⟩ => rfl))

/-- The key projection at (b, n, h). -/
theorem v7_eq (x : FVec Ideal S8x2048x1024 .f32) (W : FVec Ideal S1024x1024 .f32) (c : FVec Ideal S1024 .f32)
    (b : Fin 8) (n : Fin 2048) (h : Fin 1024) :
    val_main_v7 (F := Ideal) x W c (ix3 b n h) = proj x W c b n h := by
  rw [val_main_v7_apply, val_main_v4_apply, val_main_v6_apply, val_main_v5_apply, Ideal.addf_def]
  unfold proj
  refine congrArg₂ (· + ·) (Finset.sum_congr rfl fun d _ => ?_) ?_
  · exact congrArg₂ (· * ·)
      (congrArg x (funext fun a => Fin.ext (by match a with | ⟨0, _⟩ => rfl | ⟨1, _⟩ => rfl | ⟨2, _⟩ => rfl)))
      (congrArg W (funext fun a => Fin.ext (by match a with | ⟨0, _⟩ => rfl | ⟨1, _⟩ => rfl)))
  · exact congrArg c (funext fun a => Fin.ext (by match a with | ⟨0, _⟩ => rfl))

/-- The value projection at (b, n, h). -/
theorem v11_eq (x : FVec Ideal S8x2048x1024 .f32) (W : FVec Ideal S1024x1024 .f32) (c : FVec Ideal S1024 .f32)
    (b : Fin 8) (n : Fin 2048) (h : Fin 1024) :
    val_main_v11 (F := Ideal) x W c (ix3 b n h) = proj x W c b n h := by
  rw [val_main_v11_apply, val_main_v8_apply, val_main_v10_apply, val_main_v9_apply, Ideal.addf_def]
  unfold proj
  refine congrArg₂ (· + ·) (Finset.sum_congr rfl fun d _ => ?_) ?_
  · exact congrArg₂ (· * ·)
      (congrArg x (funext fun a => Fin.ext (by match a with | ⟨0, _⟩ => rfl | ⟨1, _⟩ => rfl | ⟨2, _⟩ => rfl)))
      (congrArg W (funext fun a => Fin.ext (by match a with | ⟨0, _⟩ => rfl | ⟨1, _⟩ => rfl)))
  · exact congrArg c (funext fun a => Fin.ext (by match a with | ⟨0, _⟩ => rfl))

/-! ## Scores, mask, row maximum -/

variable (x0 : FVec Ideal S8x2048x1024 .f32) (x1 : FVec Ideal S1024x1024 .f32) (x2 : FVec Ideal S1024 .f32)
  (x3 : FVec Ideal S1024x1024 .f32) (x4 : FVec Ideal S1024 .f32) (x5 : FVec Ideal S1024x1024 .f32)
  (x6 : FVec Ideal S1024 .f32)

/-- The scale, broadcast to every score, is 1 / 32. -/
theorem scale_eq (i : S8x2048x2048.Idx) : val_main_v15 (F := Ideal) i = ((1 / 32 : ℝ) : EReal) := by
  rw [val_main_v15_apply, val_main_v13_apply, val_main_cst_0_apply, val_main_v12_apply, val_main_cst_apply]
  simp only [Ideal.hostDivf_def, Ideal.hostUnary_sqrt_def, Ideal.ofBits_def]
  exact scale_val

/-- The scaled score of query q against key k. -/
theorem v16_eq (b : Fin 8) (q k : Fin 2048) :
    val_main_v16 (F := Ideal) x0 x1 x2 x3 x4 (ix3 b q k) = score (proj x0 x1 x2) (proj x0 x3 x4) b q k := by
  rw [val_main_v16_apply, val_main_v14_apply, scale_eq, Ideal.mulf_def]
  unfold score
  refine congrArg (· * _) (Finset.sum_congr rfl fun h _ => ?_)
  have el : lidx_main_v14 (ix3 b q k) h = ix3 b q h := funext fun a => Fin.ext (by match a with | ⟨0, _⟩ => rfl | ⟨1, _⟩ => rfl | ⟨2, _⟩ => rfl)
  have er : ridx_main_v14 (ix3 b q k) h = ix3 b k h := funext fun a => Fin.ext (by match a with | ⟨0, _⟩ => rfl | ⟨1, _⟩ => rfl | ⟨2, _⟩ => rfl)
  rw [el, er, v3_eq, v7_eq]

/-- The mask's condition at (b, q, k): 1 exactly when k ≤ q. -/
theorem mask_bit (b : Fin 8) (q k : Fin 2048) :
    val_main_call1_v1 (F := Ideal) (ix3 b q k) = if k.val ≤ q.val then 1#1 else 0#1 := by
  rw [val_main_call1_v1_apply, val_main_v18_apply, val_main_call0_v4_apply, val_main_call0_v2_apply,
    val_main_call0_v0_apply, val_main_call0_v1_apply, val_main_call0_c_apply, val_main_call0_v3_apply,
    val_main_v17_apply, val_main_c_apply, val_main_call0_v5_apply, val_main_call0_c_0_apply]
  show Scalar.select (IntOp.cmpi .sge (IntOp.addi (BitVec.ofNat 32 q.val) 0#32) (BitVec.ofNat 32 k.val)) 1#1 0#1 = _
  rw [causal_bit]
  by_cases hkq : k.val ≤ q.val
  · rw [if_pos hkq, select_one]
  · rw [if_neg hkq, select_zero]

/-- The masked score. -/
theorem v19_eq (b : Fin 8) (q k : Fin 2048) :
    val_main_v19 (F := Ideal) x0 x1 x2 x3 x4 (ix3 b q k) = masked (proj x0 x1 x2) (proj x0 x3 x4) b q k := by
  rw [val_main_v19_apply, mask_bit, v16_eq, val_main_call1_v2_apply, val_main_call1_v0_apply, val_main_cst_1_apply,
    Ideal.ofBits_def, ofBits_neg_inf]
  unfold masked
  by_cases hkq : k.val ≤ q.val
  · rw [if_pos hkq, if_pos hkq, select_one]
  · rw [if_neg hkq, if_neg hkq, select_zero]

/-- A maximum-reduction over the key axis from -∞, at row (b, q): the supremum over the keys. -/
theorem rowmax_read (y : FVec Ideal S8x2048x2048 .f32) (b : Fin 8) (q : Fin 2048) :
    Host.reduce (FloatOps.maximumf (F := Ideal) (φ := .f32)) y (val_main_cst_2 (F := Ideal))
        Cert.ReferenceIdeal.Gen.reducesTo_S8x2048x2048_S8x2048_d2 Cert.ReferenceIdeal.Gen.h_S_ (ix2 b q)
      = Finset.univ.sup fun k : Fin 2048 => y (ix3 b q k) := by
  have hR : S8x2048x2048.Reduces [2] S8x2048 := by decide
  rw [Host.reduce_eq_fold_single (FloatOps.maximumf (F := Ideal) (φ := .f32)) y _ _ hR,
    val_main_cst_2_apply, Ideal.ofBits_def, ofBits_neg_inf]
  refine (LibOnlineSoftmax.fold_max_bot (Finset.univ : Finset (Fin 2048))
    (fun k : Fin 2048 => y (hR.lift (ix2 b q) k))).trans ?_
  refine Finset.sup_congr rfl fun k _ => congrArg y (funext fun a => Fin.ext ?_)
  match a with
  | ⟨0, _⟩ => rfl
  | ⟨1, _⟩ => rfl
  | ⟨2, _⟩ => rfl

/-- The row's largest masked score. -/
theorem v20_eq (b : Fin 8) (q : Fin 2048) :
    val_main_v20 (F := Ideal) x0 x1 x2 x3 x4 (ix2 b q) = rowMax (proj x0 x1 x2) (proj x0 x3 x4) b q := by
  unfold val_main_v20
  rw [rowmax_read]
  unfold rowMax
  exact Finset.sup_congr rfl fun k _ => v19_eq x0 x1 x2 x3 x4 b q k

/-- The maximum against -∞ changes nothing. -/
theorem v22_eq (b : Fin 8) (q : Fin 2048) :
    val_main_v22 (F := Ideal) x0 x1 x2 x3 x4 (ix2 b q) = rowMax (proj x0 x1 x2) (proj x0 x3 x4) b q := by
  rw [val_main_v22_apply, val_main_v21_apply, val_main_cst_3_apply, Ideal.ofBits_def, ofBits_neg_inf, v20_eq,
    Ideal.maximumf_def]
  exact max_eq_right bot_le

/-- The row maximum, broadcast along the keys. -/
theorem v24_eq (b : Fin 8) (q k : Fin 2048) :
    val_main_v24 (F := Ideal) x0 x1 x2 x3 x4 (ix3 b q k) = rowMax (proj x0 x1 x2) (proj x0 x3 x4) b q := by
  rw [val_main_v24_apply, val_main_v23_apply]
  have e : idx_main_v23 (idx_main_v24 (ix3 b q k)) = ix2 b q := funext fun a => Fin.ext (by match a with | ⟨0, _⟩ => rfl | ⟨1, _⟩ => rfl)
  rw [e, v22_eq]

/-! ## Softmax and the weighted mean -/

/-- The exponential of the masked score minus the row maximum. -/
theorem v26_eq (b : Fin 8) (q k : Fin 2048) :
    val_main_v26 (F := Ideal) x0 x1 x2 x3 x4 (ix3 b q k)
      = Ideal.exp (masked (proj x0 x1 x2) (proj x0 x3 x4) b q k - rowMax (proj x0 x1 x2) (proj x0 x3 x4) b q) := by
  rw [val_main_v26_apply, val_main_v25_apply, v19_eq, v24_eq, Ideal.hostUnary_exp_def, Ideal.subf_def]

/-- The row's normaliser: the sum of the exponentials, from 0. -/
theorem v27_eq (b : Fin 8) (q : Fin 2048) :
    val_main_v27 (F := Ideal) x0 x1 x2 x3 x4 (ix2 b q)
      = ∑ j : Fin 2048,
          Ideal.exp (masked (proj x0 x1 x2) (proj x0 x3 x4) b q j - rowMax (proj x0 x1 x2) (proj x0 x3 x4) b q) := by
  rw [val_main_v27_apply, val_main_cst_4_apply, Ideal.ofBits_def, Ideal.ofBits_zero_f32, zero_add]
  refine Finset.sum_congr rfl fun j _ => ?_
  have e : idx_main_v27 (ix2 b q) j = ix3 b q j := funext fun a => Fin.ext (by match a with | ⟨0, _⟩ => rfl | ⟨1, _⟩ => rfl | ⟨2, _⟩ => rfl)
  rw [e, v26_eq]

/-- The normaliser, broadcast along the keys. -/
theorem v29_eq (b : Fin 8) (q k : Fin 2048) :
    val_main_v29 (F := Ideal) x0 x1 x2 x3 x4 (ix3 b q k)
      = ∑ j : Fin 2048,
          Ideal.exp (masked (proj x0 x1 x2) (proj x0 x3 x4) b q j - rowMax (proj x0 x1 x2) (proj x0 x3 x4) b q) := by
  rw [val_main_v29_apply, val_main_v28_apply]
  have e : idx_main_v28 (idx_main_v29 (ix3 b q k)) = ix2 b q := funext fun a => Fin.ext (by match a with | ⟨0, _⟩ => rfl | ⟨1, _⟩ => rfl)
  rw [e, v27_eq]

/-- The softmax weight of key k in row (b, q). -/
theorem v30_eq (b : Fin 8) (q k : Fin 2048) :
    val_main_v30 (F := Ideal) x0 x1 x2 x3 x4 (ix3 b q k)
      = Ideal.div
          (Ideal.exp (masked (proj x0 x1 x2) (proj x0 x3 x4) b q k - rowMax (proj x0 x1 x2) (proj x0 x3 x4) b q))
          (∑ j : Fin 2048,
            Ideal.exp (masked (proj x0 x1 x2) (proj x0 x3 x4) b q j - rowMax (proj x0 x1 x2) (proj x0 x3 x4) b q)) := by
  rw [val_main_v30_apply, v26_eq, v29_eq, Ideal.hostDivf_def]

/-- The reference's result is the specification, with no condition on the inputs. -/
theorem ref_eq (x0 : FVec Ideal Cert.ReferenceIdeal.S8x2048x1024 .f32) (x1 : FVec Ideal Cert.ReferenceIdeal.S1024x1024 .f32)
    (x2 : FVec Ideal Cert.ReferenceIdeal.S1024 .f32) (x3 : FVec Ideal Cert.ReferenceIdeal.S1024x1024 .f32)
    (x4 : FVec Ideal Cert.ReferenceIdeal.S1024 .f32) (x5 : FVec Ideal Cert.ReferenceIdeal.S1024x1024 .f32)
    (x6 : FVec Ideal Cert.ReferenceIdeal.S1024 .f32) :
    Cert.ReferenceIdeal.Read.val_main_v31 (F := Ideal) x0 x1 x2 x3 x4 x5 x6 = Cert.Att.G x0 x1 x2 x3 x4 x5 x6 := by
  funext i
  obtain ⟨b, q, h, rfl⟩ : ∃ (b : Fin 8) (q : Fin 2048) (h : Fin 1024), i = ix3 b q h := ⟨i 0, i 1, i 2, eq_ix3 i⟩
  rw [val_main_v31_apply]
  show _ = attn (proj x0 x1 x2) (proj x0 x3 x4) (proj x0 x5 x6) b q h
  unfold attn
  refine Finset.sum_congr rfl fun k _ => ?_
  have el : lidx_main_v31 (ix3 b q h) k = ix3 b q k := funext fun a => Fin.ext (by match a with | ⟨0, _⟩ => rfl | ⟨1, _⟩ => rfl | ⟨2, _⟩ => rfl)
  have er : ridx_main_v31 (ix3 b q h) k = ix3 b k h := funext fun a => Fin.ext (by match a with | ⟨0, _⟩ => rfl | ⟨1, _⟩ => rfl | ⟨2, _⟩ => rfl)
  rw [el, er, v30_eq, v11_eq]

end Cert.ReferenceIdeal.RefValue

end
-- ==== Proof.PreFinite.lean ====
/-
  The precondition's finiteness predicate, read back: when the printed predicate answers 1, every entry of each of
  the seven argument arrays is a real number.

  The predicate is the conjunction of seven tests, one per array, each of the form "every entry x has |x| < +∞".
  On the extended reals |x| = max x (-x) is +∞ exactly at the two infinities, so the test leaves the reals.
-/
import proofs.«104284_j31817117729495_2_alg».proof.Pre_finite_inputs
import proofs.«104284_j31817117729495_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs

/-- The rank-0 shape has one index. -/
instance : Subsingleton S_.Idx := ⟨fun _ _ => funext fun d => d.elim0⟩

/-- The pattern 0x7F800000 denotes +∞. -/
theorem ofBits_inf : Ideal.ofBits .f32 0x7F800000#32 = ⊤ := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The predicate answers 1 only on arrays of real numbers. -/
theorem finite_of_pre [Cert.Pre_finite_inputs.Facts]
    (x0 : FVec Ideal S8x2048x1024 .f32) (x1 : FVec Ideal S1024x1024 .f32) (x2 : FVec Ideal S1024 .f32)
    (x3 : FVec Ideal S1024x1024 .f32) (x4 : FVec Ideal S1024 .f32) (x5 : FVec Ideal S1024x1024 .f32)
    (x6 : FVec Ideal S1024 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ValueIdx.ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨fun i => real_of_abs_lt (x0 i) (Host.reduce_andi_all _ _ _ _ _ e0 i),
    fun i => real_of_abs_lt (x1 i) (Host.reduce_andi_all _ _ _ _ _ e1 i),
    fun i => real_of_abs_lt (x2 i) (Host.reduce_andi_all _ _ _ _ _ e2 i),
    fun i => real_of_abs_lt (x3 i) (Host.reduce_andi_all _ _ _ _ _ e3 i),
    fun i => real_of_abs_lt (x4 i) (Host.reduce_andi_all _ _ _ _ _ e4 i),
    fun i => real_of_abs_lt (x5 i) (Host.reduce_andi_all _ _ _ _ _ e5 i),
    fun i => real_of_abs_lt (x6 i) (Host.reduce_andi_all _ _ _ _ _ e6 i)⟩

end Cert.Pre_finite_inputs.Finite

end
-- ==== Proof.KI.Base.lean ====
/-
  What the run of the two kernel regions shares: the type of a region's entry contents.
-/
import proofs.«104284_j31817117729495_2_alg».proof.Proof.Gen.KernelIdeal.Launch
import proofs.«104284_j31817117729495_2_alg».proof.Proof.Gen.KernelIdeal.Skeleton
import proofs.«104284_j31817117729495_2_alg».proof.Proof.Gen.KernelIdeal.Points
import proofs.«104284_j31817117729495_2_alg».proof.Proof.Gen.KernelIdeal.Regions

noncomputable section

namespace Cert.KernelIdeal.Run

open Idealize.ShloMosaic Idealize.ShloMosaic.TcCoe Idealize.SL.Sem Cert.KernelIdeal Cert.KernelIdeal.Gen
open Idealize.SL Idealize.SL.RA Idealize.SL.BI

/-- Every core's TensorCore buffers at a region's entry: the contents of each reference. -/
abbrev VT (F : FTy → Type) : Type := (c : Dev nD) → (b : Ref sig .tc) → Buf (Elt F) ((c : Thread nD τ).loc b)

/-- The share each window of the attention region holds of its array: the three input windows read ONE array (the fused
    q | k | v buffer) and split its full share — left, right-left, right-right —; the output window holds its array whole. -/
def q1 : Fin 4 → PosShare TreeShare := fun
  | 0 => fullShare.left
  | 1 => fullShare.right.left
  | 2 => fullShare.right.right
  | 3 => fullShare
  | ⟨_ + 4, h⟩ => absurd h (Nat.not_lt.2 (Nat.le_add_left _ _))

end Cert.KernelIdeal.Run

end
-- ==== Proof.KI.R0.lean ====
/- The projection kernel's region (custom_call 0): the fused projection x·[Wq|Wk|Wv] + [bq|bk|bv] over 32 row
   blocks of 512 rows. Its proof data over an ARBITRARY entry valuation of the unscoped buffers: each input window's
   staging buffer holds the window's block of its array (the rows block of x; the whole weight; the whole bias), and
   the output window's buffer holds, after the body, the one whole-block store of the body's arithmetic applied to
   those three blocks. -/
import proofs.«104284_j31817117729495_2_alg».proof.Proof.KI.Base
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The windows' blocks -/

/-- Window w's block at point t, read off its array in the entry valuation V. -/
def iblk0 (V : VT F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved (the rows block is fetched at every point; the weight and the bias have a
    constant index and are fetched once). -/
theorem before0_0_of (V : VT F) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (V : VT F) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (V : VT F) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: four whole-buffer rectangles -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output window's staging buffer after the body, from the three input blocks: its one whole-block store of the
    body's arithmetic (the product of the rows block with the weight, plus the bias row) of the loaded blocks. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store is of the whole buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at contents x0, x1, x2 and the output's at anything, runs to
    the continuation holding the inputs' as they were and the output's at out0_3 of them. (The body also loads its
    output buffer before the store; the value read is not used.) -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the projection kernel's pipeline on core c, over the entry valuation V: each window's array is
    V's; after the body at point t each input's buffer holds its block and the output's holds out0_3 of the three
    input blocks; the invariant is that of a body touching only its windows' buffers (the scoped rest and the generator register, untouched); nothing is
    owed; full shares. -/
def dat0 (V : VT F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry valuation's. -/
theorem A_eq0 (V : VT F) (c : Dev nD) (w : Fin cfg0.W) : (dat0 V c).A w = V c (Pipeline.arrRef spec0 w) := by
  dsimp only [dat0]

/-- What the body leaves, window by window. -/
theorem after0_0 (V : VT F) (c : Dev nD) (t : Fin cfg0.N) : (dat0 V c).after 0 t = iblk0 V c 0 t := by dsimp only [dat0]
theorem after0_1 (V : VT F) (c : Dev nD) (t : Fin cfg0.N) : (dat0 V c).after 1 t = iblk0 V c 1 t := by dsimp only [dat0]
theorem after0_2 (V : VT F) (c : Dev nD) (t : Fin cfg0.N) : (dat0 V c).after 2 t = iblk0 V c 2 t := by dsimp only [dat0]
theorem after0_3 (V : VT F) (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (V : VT F) (c : Dev nD) (t : Fin cfg0.N) (d) : (dat0 V c).before 0 t d = iblk0 V c 0 t :=
  before0_0_of V (dat0 V c) (A_eq0 V c 0) (after0_0 V c) t d
theorem before0_1 (V : VT F) (c : Dev nD) (t : Fin cfg0.N) (d) : (dat0 V c).before 1 t d = iblk0 V c 1 t :=
  before0_1_of V (dat0 V c) (A_eq0 V c 1) (after0_1 V c) t d
theorem before0_2 (V : VT F) (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (V : VT F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (V : VT F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (V : VT F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (V : VT F) (c : Dev nD) : BodyObligation (dat0 (F := F) V c) (defs₀ (F := F)) Variants.none () Set.univ := fun t => by
  rw [bigSep_W0, bigSep_W0]
  exact sound_body0 V c t

end Cert.KernelIdeal.Run

end
-- ==== Proof.KI.R1Runs.lean ====
/-
  The attention kernel's grid point by point: which of its three conditional blocks run at a point — the reset (key block
  0), the update (key block at or before the query block), the write of the quotient (last key block) —, decided over the
  128 points (point t is batch t / 16, query block t / 4 % 4, key block t % 4); where the output window rests; the
  staging and scratch buffers by name.
-/
import proofs.«104284_j31817117729495_2_alg».proof.Proof.KI.Base
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : VT F)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data on the region's entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three conditions -/

/-- The reset block runs: key block 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The update block runs: the key block is at or before the query block. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- The quotient is written: last key block. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows rest -/

theorem liveAt1_0 : ∀ i, cfg1.idle 0 i = false := fun _ => rfl
theorem liveAt1_1 : ∀ i, cfg1.idle 1 i = false := fun _ => rfl
theorem liveAt1_2 : ∀ i, cfg1.idle 2 i = false := fun _ => rfl
/-- Away from the last key block the output window rests and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key block it is live. -/
theorem liveAt1_3 : ∀ t : Fin cfg1.N, cond1_2 (grid1.coords t) → cfg1.idle 3 (grid1.coords t) = false := by decide +kernel

/-! ## The buffers by name -/

abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The three scratch buffers: running maximum, normaliser, weighted sum. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev VS1_0 : View sig .tc .vmem S1x512x1 .f32 := scM1_0.view
abbrev VS1_1 : View sig .tc .vmem S1x512x1 .f32 := scM1_1.view
abbrev VS1_2 : View sig .tc .vmem S1x512x1024 .f32 := scM1_2.view

/-- The scoped buffers of the other region's staging, each at some contents: they ride through this region unread. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's resting invariant: the other region's staging buffers, the three scratch buffers as memrefs owned at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Run

end
-- ==== Proof.KI.R1RunB.lean ====
/-
  The attention kernel's body at a point where only the update block runs (a key block after the first, at or before
  the query block, not the last): its run, the pieces each scratch buffer ends with found by the run.
-/
import proofs.«104284_j31817117729495_2_alg».proof.Proof.KI.R1Runs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the update alone runs: on whole memrefs — the three input blocks at their contents, the output's buffer
    handed back untouched, the three scratch buffers at what the point before left — it runs to the continuation with each
    scratch buffer's pieces written. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) :
    Σ' (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Run

end
-- ==== Proof.KI.R1RunA.lean ====
/-
  The attention kernel's body at a query block's first key block: the reset, then the update.
-/
import proofs.«104284_j31817117729495_2_alg».proof.Proof.KI.R1RunB

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at key block 0 (reset, then update): the scratch buffers are taken at anything and end with their pieces written; the output's buffer is handed back untouched. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) :
    Σ' (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%dfs0, %fs0, -, HS0⟩, ⟨%dfs1, %fs1, -, HS1⟩, ⟨%dfs2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Run

end
-- ==== Proof.KI.R1RunC.lean ====
/-
  The attention kernel's body on the diagonal's last block: the update, then the write of the quotient.
-/
import proofs.«104284_j31817117729495_2_alg».proof.Proof.KI.R1RunA

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the update runs and the quotient is written (last key block, last query block): the scratch buffers from what the point before left to their pieces written; the output's buffer from anything to its pieces written. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Run

end
-- ==== Proof.KI.R1RunD.lean ====
/-
  The attention kernel's body at a skipped key block (after the query block, not the last): nothing runs.
-/
import proofs.«104284_j31817117729495_2_alg».proof.Proof.KI.R1RunC

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a skipped key block: every buffer is handed back as found. -/
theorem kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : ¬cond1_2 i)
    (x0 x1 x2 : Vec F S1x512x1024 .bf16) (xs0 xs1 : Vec F S1x512x1 .f32) (xs2 : Vec F S1x512x1024 .f32) :
    ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  intro xi3 E K
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Run

end
-- ==== Proof.KI.R1RunE.lean ====
/-
  The attention kernel's body at the last key block of a query block above it: only the quotient is written.
-/
import proofs.«104284_j31817117729495_2_alg».proof.Proof.KI.R1RunD

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where only the quotient is written: the scratch buffers are read and handed back as found; the output's buffer from anything to its pieces written. -/
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) :
    { L3 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Run

end
-- ==== Proof.KI.R1.lean ====
/-
  The attention region point by point: what its output buffer and its three scratch buffers hold after each grid point,
  by recursion on the point (the case the point is in, over what the point before left); the region's invariant carrying
  the scratch buffers at those contents; the proof data; the body obligation at every point.
-/
import proofs.«104284_j31817117729495_2_alg».proof.Proof.KI.R1RunE

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : VT F)

/-- The pieces the run found for the running-maximum buffer cover it (they tile it). -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) (y : S1x512x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1x512x1.size (by sl_kernel_rfl) y

/-- What the point leaves in the running-maximum buffer: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) : Vec F S1x512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- The pieces the run found for the normaliser buffer cover it (they tile it). -/
theorem scover1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) (y : S1x512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1x512x1.size (by sl_kernel_rfl) y

/-- What the point leaves in the normaliser buffer: its pieces read back. -/
def sout1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) : Vec F S1x512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- The pieces the run found for the weighted-sum buffer cover it (they tile it). -/
theorem scover1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) (y : S1x512x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1x512x1024.size (by sl_kernel_rfl) y

/-- What the point leaves in the weighted-sum buffer: its pieces read back. -/
def sout1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) : Vec F S1x512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- The pieces the run found for the running-maximum buffer cover it (they tile it). -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) (y : S1x512x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1x512x1.size (by sl_kernel_rfl) y

/-- What the point leaves in the running-maximum buffer: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) : Vec F S1x512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- The pieces the run found for the normaliser buffer cover it (they tile it). -/
theorem scover1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) (y : S1x512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1x512x1.size (by sl_kernel_rfl) y

/-- What the point leaves in the normaliser buffer: its pieces read back. -/
def sout1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) : Vec F S1x512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- The pieces the run found for the weighted-sum buffer cover it (they tile it). -/
theorem scover1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) (y : S1x512x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1x512x1024.size (by sl_kernel_rfl) y

/-- What the point leaves in the weighted-sum buffer: its pieces read back. -/
def sout1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) : Vec F S1x512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- The pieces the run found for the output's staging buffer cover it (they tile it). -/
theorem cover1_C_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1024.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x512x1024.size (by sl_kernel_rfl) y

/-- What the point leaves in the output's staging buffer: its pieces read back. -/
def out1_C_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)

/-- The pieces the run found for the running-maximum buffer cover it (they tile it). -/
theorem scover1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S1x512x1.size (by sl_kernel_rfl) y

/-- What the point leaves in the running-maximum buffer: its pieces read back. -/
def sout1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)

/-- The pieces the run found for the normaliser buffer cover it (they tile it). -/
theorem scover1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S1x512x1.size (by sl_kernel_rfl) y

/-- What the point leaves in the normaliser buffer: its pieces read back. -/
def sout1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)

/-- The pieces the run found for the weighted-sum buffer cover it (they tile it). -/
theorem scover1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1024.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S1x512x1024.size (by sl_kernel_rfl) y

/-- What the point leaves in the weighted-sum buffer: its pieces read back. -/
def sout1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1024 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)

/-- The pieces the run found for the output's staging buffer cover it (they tile it). -/
theorem cover1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) (y : S1x512x1024.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x1024.size (by sl_kernel_rfl) y

/-- What the point leaves in the output's staging buffer: its pieces read back. -/
def out1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) : Vec F S1x512x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-! ## What the buffers hold after each point -/

/-- One point: from what the point before left in (output buffer, maximum, normaliser, sum) to what this point leaves — the
    case the point is in (key block 0: reset and update; key block at or before the query block: update, and at the last
    block the quotient too; a skipped key block: nothing, or at the last block the quotient alone). -/
def stepAt1 (c : Dev nD) (t : Fin cfg1.N) (p : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  if h0 : t.val % 4 = 0 then
    (p.1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
  else if h1 : t.val % 4 ≤ t.val / 4 % 4 then
    if h2 : t.val % 4 = 3 then
      (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2)
    else
      (p.1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2)
  else if h2 : t.val % 4 = 3 then
    (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.2.1 p.2.2.1 p.2.2.2, p.2.1, p.2.2.1, p.2.2.2)
  else p

/-- Contents nothing reads: what the recursion starts from (the first point resets every scratch buffer before reading it, and
    the output buffer is written before it is written back). -/
def junk1 : Vec F S1x512x1024 .f32 × Vec F S1x512x1 .f32 × Vec F S1x512x1 .f32 × Vec F S1x512x1024 .f32 := (VO1_3.read (Elt F) VO1_3.junk, VS1_0.read (Elt F) VS1_0.junk, VS1_1.read (Elt F) VS1_1.junk, VS1_2.read (Elt F) VS1_2.junk)

/-- What the four buffers hold after the body at position `n`. -/
def outsAt1 (c : Dev nD) : (n : ℕ) → n < cfg1.N → Vec F S1x512x1024 .f32 × Vec F S1x512x1 .f32 × Vec F S1x512x1 .f32 × Vec F S1x512x1024 .f32
  | 0, hn => stepAt1 V c ⟨0, hn⟩ junk1
  | n + 1, hn => stepAt1 V c ⟨n + 1, hn⟩ (outsAt1 c n (Nat.lt_of_succ_lt hn))

theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)) := by
  obtain ⟨n, hn⟩ := t
  cases n with
  | zero => exact absurd rfl hz
  | succ n => rfl

theorem outsAt1_zero (c : Dev nD) (t : Fin cfg1.N) (hz : t.val = 0) :
    outsAt1 V c t.val t.isLt = stepAt1 V c t junk1 := by
  obtain ⟨n, hn⟩ := t
  cases n with
  | zero => rfl
  | succ n => exact absurd hz (Nat.succ_ne_zero n)

/-! ## The region's invariant, carrying the scratch buffers -/

/-- Before position `n`: before the first point the resting invariant (every scratch buffer at anything); afterwards the other
    region's staging buffers, the three scratch buffers at what the point before left, the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The attention region's proof data on core `c`: its arrays as the region finds them; after the body at point `t` each input
    window's buffer at its block and the output's at `outsAt1`'s first component; the invariant carrying the scratch buffers; the
    three input windows sharing their one array; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input windows' buffers hold their blocks; the point's position among the key blocks says
    which blocks of the body run; the invariant hands the body the scratch buffers at what the point before left (at anything
    at the very first point, which resets them) and takes them back at this point's contents; the output's buffer is handed
    back untouched except at the last key block, where it is written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 _], after1_0]
  rw [show (dat1 V c).leavesExact 1 t = owns (c : Thread nD τ) (ms1_1 t) fullShare ((dat1 V c).after 1 t) from by
    unfold Dat.leavesExact; rw [liveAt1_1 _], after1_1]
  rw [show (dat1 V c).leavesExact 2 t = owns (c : Thread nD τ) (ms1_2 t) fullShare ((dat1 V c).after 2 t) from by
    unfold Dat.leavesExact; rw [liveAt1_2 _], after1_2]
  have hN : t.val < 128 := lt_of_lt_of_eq t.isLt N_1
  by_cases h0 : t.val % 4 = 0
  · rw [Dat.leavesExact_idle (dat1 V c) 3 t (idleAt1_3 t (fun h => by have := (hcond1_2 t).mp h; omega)) (noFlush1_3 t (fun h => by have := (hcond1_2 t).mp h; omega))]
    by_cases hz : t.val = 0
    · rw [outsAt1_zero V c t hz]; unfold stepAt1; rw [dif_pos h0]
      unfold sout1_A_0 sout1_A_1 sout1_A_2; (try dsimp only)
      rw [PhiS1_castSucc V c t, PhiS1_zero V c _ _ hz, PhiA1_eq]
      iintro ⟨⟨⟨HO1, HO2, HO3, HO4, HO5, HO6, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HO1 HO2 HO3 HO4 HO5 HO6 HS0 HS1 HS2 Hg]
      · isplitl [HO1 HO2 HO3 HO4 HO5 HO6 HS0 HS1 HS2]
        · isplitl [HO1]; · iexact HO1
          isplitl [HO2]; · iexact HO2
          isplitl [HO3]; · iexact HO3
          isplitl [HO4]; · iexact HO4
          isplitl [HO5]; · iexact HO5
          isplitl [HO6]; · iexact HO6
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3

    · rw [outsAt1_pos V c t hz]; unfold stepAt1; rw [dif_pos h0]
      unfold sout1_A_0 sout1_A_1 sout1_A_2; (try dsimp only)
      rw [PhiS1_castSucc V c t, PhiS1_pos V c _ _ hz]
      iintro ⟨⟨⟨HO1, HO2, HO3, HO4, HO5, HO6, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO1 HO2 HO3 HO4 HO5 HO6 HS0 HS1 HS2 Hg]
      · isplitl [HO1 HO2 HO3 HO4 HO5 HO6 HS0 HS1 HS2]
        · isplitl [HO1]; · iexact HO1
          isplitl [HO2]; · iexact HO2
          isplitl [HO3]; · iexact HO3
          isplitl [HO4]; · iexact HO4
          isplitl [HO5]; · iexact HO5
          isplitl [HO6]; · iexact HO6
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3

  · have hz : t.val ≠ 0 := by omega
    rw [PhiS1_castSucc V c t, PhiS1_pos V c _ _ hz]
    by_cases h1 : t.val % 4 ≤ t.val / 4 % 4
    · by_cases h2 : t.val % 4 = 3
      · skip
        rw [show (dat1 V c).leavesExact 3 t = owns (c : Thread nD τ) (ms1_3 t) fullShare ((dat1 V c).after 3 t) from by
        unfold Dat.leavesExact; rw [liveAt1_3 t ((hcond1_2 t).mpr h2)], after1_3]
        rw [outsAt1_pos V c t hz]; unfold stepAt1; rw [dif_neg h0, dif_pos h1, dif_pos h2]
        unfold out1_C_3 sout1_C_0 sout1_C_1 sout1_C_2; (try dsimp only)
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)
            isplitl [HS1]
            · unfold owns; iexists _; isplitr
              swap; · iexact HS1
              ipureintro; exact View.read_writes_of_cover _ _ _ _ _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)
            unfold owns; iexists _; isplitr
            swap; · iexact HS2
            ipureintro; exact View.read_writes_of_cover _ _ _ _ _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)

      · rw [Dat.leavesExact_idle (dat1 V c) 3 t (idleAt1_3 t (fun h => h2 ((hcond1_2 t).mp h))) (noFlush1_3 t (fun h => h2 ((hcond1_2 t).mp h)))]
        rw [outsAt1_pos V c t hz]; unfold stepAt1; rw [dif_neg h0, dif_pos h1, dif_neg h2]
        unfold sout1_B_0 sout1_B_1 sout1_B_2; (try dsimp only)
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _)
            unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _)
          iexact Hg
        isplitl [Ho]; · iexact Ho
        isplitl [H0]; · iexact H0
        isplitl [H1]; · iexact H1
        isplitl [H2]; · iexact H2
        iexists _; iexact H3

    · by_cases h2 : t.val % 4 = 3
      · skip
        rw [show (dat1 V c).leavesExact 3 t = owns (c : Thread nD τ) (ms1_3 t) fullShare ((dat1 V c).after 3 t) from by
        unfold Dat.leavesExact; rw [liveAt1_3 t ((hcond1_2 t).mpr h2)], after1_3]
        rw [outsAt1_pos V c t hz]; unfold stepAt1; rw [dif_neg h0, dif_neg h1, dif_pos h2]
        unfold out1_E_3; (try dsimp only)
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) _ _ _).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) _ _ _)

      · rw [Dat.leavesExact_idle (dat1 V c) 3 t (idleAt1_3 t (fun h => h2 ((hcond1_2 t).mp h))) (noFlush1_3 t (fun h => h2 ((hcond1_2 t).mp h)))]
        rw [outsAt1_pos V c t hz]; unfold stepAt1; rw [dif_neg h0, dif_neg h1, dif_neg h2]
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting invariant back: the scratch buffers' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HO1, HO2, HO3, HO4, HO5, HO6, HS0, HS1, HS2⟩, Hg⟩
  isplitl [HO1 HO2 HO3 HO4 HO5 HO6 HS0 HS1 HS2]
  · isplitl [HO1]; · iexact HO1
    isplitl [HO2]; · iexact HO2
    isplitl [HO3]; · iexact HO3
    isplitl [HO4]; · iexact HO4
    isplitl [HO5]; · iexact HO5
    isplitl [HO6]; · iexact HO6
    isplitl [HS0]; · iexists _; iexact HS0
    isplitl [HS1]; · iexists _; iexact HS1
    iexists _; iexact HS2
  iexact Hg

end Cert.KernelIdeal.Run

end
-- ==== Proof.KI.Run.lean ====
/-
  The run of @main: two host stretches and two kernel regions through the library's launch for a program of several
  regions, with the result's buffer named in the postcondition.
-/
import proofs.«104284_j31817117729495_2_alg».proof.Proof.KI.Base
import Idealize.ShloMosaic.Lib.Pipeline.Frame
import Idealize.ShloMosaic.Lib.Pipeline.Regions
import Idealize.ShloMosaic.Lib.Pipeline.RegionsLoop

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F]

local notation "𝕄" => MT nD τ sig Unit (Elt F) ℕ (UR sig nD τ) ℕ

section Share

variable {ℓ : Loc nD τ sig} {I : Finset (Idx ℓ)} {f : Buf (Elt F) ℓ}

/-- A full share of a buffer is three shares of it, for three readers of one array. -/
theorem run_pointsTo_three :
    (ℓ ↦[I]{fullShare} f : sProp 𝕄)
      ⊣⊢ iprop((ℓ ↦[I]{fullShare.left} f) ∗ (ℓ ↦[I]{fullShare.right.left} f) ∗ ℓ ↦[I]{fullShare.right.right} f) := by
  constructor
  · iintro H
    ihave H := (pointsTo_share (PosShare.mem_left_op_right fullShare)).1 $$ H
    icases H with ⟨H0, H12⟩
    ihave H12 := (pointsTo_share (PosShare.mem_left_op_right fullShare.right)).1 $$ H12
    icases H12 with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

end Share

section Arr1

variable {c : Dev nD} (dat : Dat τ (Elt F) Unit ℕ (UR sig nD τ) ℕ cfg1 c) (hq : dat.q = q1)

include hq in
/-- Region 1's arrays, window by window: the three readers of the shared array hold a share each, the output its array whole. -/
theorem run_arrays1_eq (G : (w : Fin cfg1.W) → Buf (Elt F) ((cfg1.win w).arr.view.loc (c.tc : Thread nD τ))) :
    (dat.arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1]
  have h0 : dat.share 0 = fullShare.left := by unfold Dat.share; rw [hq]; rfl
  have h1 : dat.share 1 = fullShare.right.left := by unfold Dat.share; rw [hq]; rfl
  have h2 : dat.share 2 = fullShare.right.right := by unfold Dat.share; rw [hq]; rfl
  have h3 : dat.share 3 = fullShare := by unfold Dat.share; rfl
  rw [h0, h1, h2, h3, (arr_whole1 0).set_eq_univ, (arr_whole1 3).set_eq_univ]

end Arr1

section Split1

variable {c : Dev nD} (dat : Dat τ (Elt F) Unit ℕ (UR sig nD τ) ℕ cfg1 c) (hq : dat.q = q1)
  (V : (b : Ref sig .tc) → Buf (Elt F) ((c : Thread nD τ).loc b))

/-- The distinct buffers behind region 1's windows: the shared input array and the output array. -/
theorem run_arrBufs1_eq :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef spec1) = {main_v6, main_v7} from by decide,
    bigSep_insert (by decide), bigSep_singleton]
  rfl

include hq in
/-- ENTRY, the arrays' part: the core's unscoped buffers at contents `V` are region 1's arrays — the shared input array's
    full share dealt to its three readers — and the unscoped rest. -/
theorem run_arrays1_of_unscopedBufs (G : (w : Fin cfg1.W) → Buf (Elt F) ((cfg1.win w).arr.view.loc (c.tc : Thread nD τ)))
    (hG : ∀ w, G w = V (Pipeline.arrRef spec1 w)) :
    (unscopedBufs c V : sProp 𝕄) ⊢ iprop(dat.arrays G ∗ Pipeline.unscopedRest spec1 c V) := by
  have hs : (unscopedBufs c V : sProp 𝕄) = iprop(Pipeline.arrBufs spec1 c V ∗ Pipeline.unscopedRest spec1 c V) :=
    Pipeline.unscopedBufs_split₀ cfgs 1 winFacts₀1.arr_unscoped c V
  rw [hs, run_arrBufs1_eq, run_arrays1_eq dat hq, hG 0, hG 1, hG 2, hG 3]
  iintro ⟨⟨H6, H7⟩, Hr⟩
  ihave H6 := run_pointsTo_three.1 $$ H6
  icases H6 with ⟨Ha, Hb, Hc⟩
  isplitr [Hr]
  · isplitl [Ha]; · iexact Ha
    isplitl [Hb]; · iexact Hb
    isplitl [Hc]; · iexact Hc
    iexact H7
  iexact Hr

include hq in
/-- EXIT, the arrays' part: region 1's arrays, the three readers' still at the shared array's entry contents, and the
    unscoped rest at `V` are the core's unscoped buffers at any valuation that has the output array at its final contents
    and agrees with `V` elsewhere. -/
theorem run_unscopedBufs_of_arrays1 (G : (w : Fin cfg1.W) → Buf (Elt F) ((cfg1.win w).arr.view.loc (c.tc : Thread nD τ)))
    (V' : (b : Ref sig .tc) → Buf (Elt F) ((c : Thread nD τ).loc b))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  rw [hs, run_arrBufs1_eq, run_arrays1_eq dat hq, hG 0, hG 1, hG 2, hG 3]
  refine sep_mono ?_ (Entails.of_eq ?_)
  · iintro ⟨Ha, Hb, Hc, H7⟩
    isplitr [H7]
    · iapply run_pointsTo_three.2
      isplitl [Ha]; · iexact Ha
      isplitl [Hb]; · iexact Hb
      iexact Hc
    iexact H7
  · unfold Pipeline.unscopedRest
    exact bigSep_congr fun b hb => by rw [hrest b (Finset.mem_sdiff.mp hb).2]

end Split1

section Run

variable (dat0 : VT F → (c : Dev nD) → Dat τ (Elt F) Unit ℕ (UR sig nD τ) ℕ cfg0 c)
  (A_eq0 : ∀ V c w, (dat0 V c).A w = V c (Pipeline.arrRef spec0 w))
  (hq0 : ∀ V c w, (dat0 V c).q w = fullShare)
  (hΦ0 : ∀ V c t, (dat0 V c).Φ t = Pipeline.ΦA spec0 c)
  (howed0 : ∀ V c t, (dat0 V c).owed t = 0)
  (hrec0 : ∀ V c, (dat0 V c).recorded 0 = Set.univ)
  (body0 : ∀ V c, BodyObligation (dat0 V c) (defs₀ (F := F)) Variants.none () Set.univ)
variable (dat1 : VT F → (c : Dev nD) → Dat τ (Elt F) Unit ℕ (UR sig nD τ) ℕ cfg1 c)
  (A_eq1 : ∀ V c w, (dat1 V c).A w = V c (Pipeline.arrRef spec1 w))
  (howed1 : ∀ V c t, (dat1 V c).owed t = 0)
  (hrec1 : ∀ V c, (dat1 V c).recorded 0 = Set.univ)
  (body1 : ∀ V c, BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)
  (hq1 : ∀ V c, (dat1 V c).q = q1)

variable (m : (ℓ : Loc nD τ sig) → Buf (Elt F) ℓ)

/-! ## The buffers' contents at the five boundaries of @main -/

/-- At launch. -/
abbrev U0 : VT F := fun c b => m ((c : Thread nD τ).loc b)
/-- After the first host stretch: region 0's entry. -/
abbrev U1 : VT F := fun c b => V1 m c b
/-- What region 0 leaves in its output array. -/
abbrev runOut0 (c : Dev nD) : Buf (Elt F) ((c : Thread nD τ).loc main_v5) := (dat0 (U1 m) c).arrAt 3 cfg0.N
/-- After region 0, as a valuation of every reference. -/
abbrev runW2 (c : Dev nD) : Valuation τ sig (Elt F) := Function.update (V1 m c) main_v5 (runOut0 dat0 m c)
/-- After region 0. -/
abbrev U2 : VT F := fun c b => runW2 dat0 m c b
/-- After the second host stretch, as a valuation of every reference. -/
abbrev runW3 (c : Dev nD) : Valuation τ sig (Elt F) := StableHlo.after hostOps1 (runW2 dat0 m c)
/-- After the second host stretch: region 1's entry. -/
abbrev U3 : VT F := fun c b => runW3 dat0 m c b
/-- What region 1 leaves in its output array. -/
abbrev runOut1 (c : Dev nD) : Buf (Elt F) ((c : Thread nD τ).loc main_v7) := (dat1 (U3 dat0 m) c).arrAt 3 cfg1.N
/-- After region 1, as a valuation of every reference. -/
abbrev runW4 (c : Dev nD) : Valuation τ sig (Elt F) := Function.update (runW3 dat0 m c) main_v7 (runOut1 dat0 dat1 m c)
/-- After region 1: the end of @main. -/
abbrev U4 : VT F := fun c b => runW4 dat0 dat1 m c b

/-- The two regions' results as the family the generated boundary valuations are written over. -/
def runOuts : Outs (F := F) := fun _ r c =>
  Function.update (Function.update (fun r => m ((c : Thread nD τ).loc r)) main_v5 (runOut0 dat0 m c)) main_v7 (runOut1 dat0 dat1 m c) r

theorem runOuts_v5 (J : ℕ) (c : Dev nD) : runOuts dat0 dat1 m J main_v5 c = runOut0 dat0 m c := by
  unfold runOuts
  rw [Function.update_of_ne (show (main_v5 : Ref sig .tc) ≠ main_v7 by decide), Function.update_self]
theorem runOuts_v7 (J : ℕ) (c : Dev nD) : runOuts dat0 dat1 m J main_v7 c = runOut1 dat0 dat1 m c := by
  unfold runOuts
  rw [Function.update_self]

theorem runV2_eq (c : Dev nD) : V2 m (runOuts dat0 dat1 m) c = runW2 dat0 m c :=
  congrArg (Function.update (V1 m c) (Proc.devRef .tc main_v5)) (runOuts_v5 dat0 dat1 m 2 c)
theorem runV3_eq (c : Dev nD) : V3 m (runOuts dat0 dat1 m) c = runW3 dat0 m c :=
  congrArg (StableHlo.after hostOps1) (runV2_eq dat0 dat1 m c)
theorem runV4_eq (c : Dev nD) : V4 m (runOuts dat0 dat1 m) c = runW4 dat0 dat1 m c := by
  show Function.update (V3 m (runOuts dat0 dat1 m) c) (Proc.devRef .tc main_v7) (runOuts dat0 dat1 m 4 main_v7 c) = _
  rw [runV3_eq, runOuts_v7]

/-! ## The boundary contents at the regions' arrays -/

/-- After region 0 its output array holds what the pipeline wrote back. -/
theorem U2_v5 (c : Dev nD) : U2 dat0 m c main_v5 = (dat0 (U1 m) c).arrAt 3 cfg0.N :=
  Function.update_self _ _ _

/-- Region 1's shared input array is region 0's output array at the second host stretch's shape. -/
theorem U3_v6 (c : Dev nD) :
    U3 dat0 m c main_v6 = fun i => (rfl : (main_v5 : Ref sig .tc).ty.elt = (main_v6 : Ref sig .tc).ty.elt) ▸
      shapeCast (main_v6 : Ref sig .tc).ty.shape ((dat0 (U1 m) c).arrAt 3 cfg0.N) shapeCasts_S16384x3072_S8x2048x3072 i := by
  show StableHlo.after hostOps1 (runW2 dat0 m c) (Proc.devRef .tc main_v6) = _
  rw [StableHlo.after_cons, StableHlo.after_nil, StableHlo.reshape_result,
    show runW2 dat0 m c (Proc.devRef .tc main_v5) = (dat0 (U1 m) c).arrAt 3 cfg0.N from Function.update_self _ _ _]

/-! ## The proof data family and the thread state -/

/-- Both pipelines' proof data, each at its region's entry contents. -/
def runDats : (p : Fin 2) → (c : Dev nD) → Dat τ (Elt F) Unit ℕ (UR sig nD τ) ℕ (cfgs p) c
  | ⟨0, _⟩ => fun c => dat0 (U1 m) c
  | ⟨1, _⟩ => fun c => dat1 (U3 dat0 m) c

abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its dues, none. -/
abbrev runR (c : Dev nD) : sProp 𝕄 := iprop((∃ r, prngReg c r) ∗ ∃ W, owes (c : Thread nD τ) (0 : CellTallies nD τ sig Unit) W)
abbrev runE : Fin 3 → Dev nD → sProp 𝕄 := fun _ c => runR (F := F) c

/-! ## What region 0 leaves: its arrays at the pipeline's final contents, every other buffer as entered -/

include A_eq0 in
theorem run_hF0 (c : Dev nD) (w : Fin cfg0.W) :
    (runDats dat0 dat1 m 0 c).arrAt w cfg0.N = V2 m (runOuts dat0 dat1 m) c (Pipeline.arrRef spec0 w) :=
  match w with
  | 0 => ((dat0 (U1 m) c).arrAt_in 0 rfl _).trans ((A_eq0 (U1 m) c 0).trans (V2_of m (runOuts dat0 dat1 m) c main_v4 (by decide)).symm)
  | 1 => ((dat0 (U1 m) c).arrAt_in 1 rfl _).trans ((A_eq0 (U1 m) c 1).trans (V2_of m (runOuts dat0 dat1 m) c main_v1 (by decide)).symm)
  | 2 => ((dat0 (U1 m) c).arrAt_in 2 rfl _).trans ((A_eq0 (U1 m) c 2).trans (V2_of m (runOuts dat0 dat1 m) c main_v3 (by decide)).symm)
  | 3 => by
    show (dat0 (U1 m) c).arrAt 3 cfg0.N
      = Function.update (V1 m c) (Proc.devRef .tc main_v5) (runOuts dat0 dat1 m 2 main_v5 c) (Proc.devRef .tc main_v5)
    rw [Function.update_self, runOuts_v5]
  | ⟨_ + 4, h⟩ => absurd h (Nat.not_lt.2 (Nat.le_add_left _ _))

theorem run_hrest0 (c : Dev nD) : ∀ b, b ∉ Finset.univ.image (Pipeline.arrRef spec0) →
    V2 m (runOuts dat0 dat1 m) c b = U1 m c b :=
  fun b hb => V2_of m (runOuts dat0 dat1 m) c b fun h =>
    hb (by rw [List.mem_singleton.mp h]; exact Finset.mem_image.mpr ⟨3, Finset.mem_univ _, rfl⟩)

/-! ## What region 1 leaves: its output array at the pipeline's final contents, every other buffer as entered -/

include A_eq1 in
theorem run_hF1 (c : Dev nD) (w : Fin cfg1.W) :
    (dat1 (U3 dat0 m) c).arrAt w cfg1.N = V4 m (runOuts dat0 dat1 m) c (Pipeline.arrRef spec1 w) :=
  match w with
  | 0 => ((dat1 (U3 dat0 m) c).arrAt_in 0 rfl _).trans ((A_eq1 (U3 dat0 m) c 0).trans
      ((V4_of m (runOuts dat0 dat1 m) c main_v6 (by decide)).trans (congrFun (runV3_eq dat0 dat1 m c) (Proc.devRef .tc main_v6))).symm)
  | 1 => ((dat1 (U3 dat0 m) c).arrAt_in 1 rfl _).trans ((A_eq1 (U3 dat0 m) c 1).trans
      ((V4_of m (runOuts dat0 dat1 m) c main_v6 (by decide)).trans (congrFun (runV3_eq dat0 dat1 m c) (Proc.devRef .tc main_v6))).symm)
  | 2 => ((dat1 (U3 dat0 m) c).arrAt_in 2 rfl _).trans ((A_eq1 (U3 dat0 m) c 2).trans
      ((V4_of m (runOuts dat0 dat1 m) c main_v6 (by decide)).trans (congrFun (runV3_eq dat0 dat1 m c) (Proc.devRef .tc main_v6))).symm)
  | 3 => by
    show (dat1 (U3 dat0 m) c).arrAt 3 cfg1.N
      = Function.update (V3 m (runOuts dat0 dat1 m) c) (Proc.devRef .tc main_v7) (runOuts dat0 dat1 m 4 main_v7 c) (Proc.devRef .tc main_v7)
    rw [Function.update_self, runOuts_v7]
  | ⟨_ + 4, h⟩ => absurd h (Nat.not_lt.2 (Nat.le_add_left _ _))

theorem run_hrest1 (c : Dev nD) : ∀ b, b ∉ Finset.univ.image (Pipeline.arrRef spec1) →
    V4 m (runOuts dat0 dat1 m) c b = U3 dat0 m c b :=
  fun b hb => (V4_of m (runOuts dat0 dat1 m) c b fun h =>
    hb (by rw [List.mem_singleton.mp h]; exact Finset.mem_image.mpr ⟨3, Finset.mem_univ _, rfl⟩)).trans
      (congrFun (runV3_eq dat0 dat1 m c) (Proc.devRef .tc b))

/-! ## The regions as segments -/

include A_eq0 hq0 hΦ0 howed0 hrec0 body0 in
set_option backward.isDefEq.respectTransparency.types false in
/-- Region 0: entered from every unscoped buffer at the contents after the first host stretch, left with its output array
    at what the pipeline wrote back and every other buffer as entered. -/
def reg0 : RegionSeg (pcfgs (F := F)) adm (runDats dat0 dat1 m) () defs₀ run𝒱 runL runLv 0 where
  win := launch0.win.to₀
  block_pos := launch0.block_pos
  stage_whole := launch0.stage_whole
  K := PEmpty
  osem k := k.elim
  ho := Pipeline.OwnSemFacts.none _
  hbody c := (body0 (U1 m) c).loose
  hwaits := Pipeline.hwaits_of_owed_zero _ _ _ _ runL runLv 0 fun c t => howed0 (U1 m) c t
  pre c := iprop(StableHlo.held (c : Thread nD τ) (Pipeline.ucRefs τ sig) (V1 m c) ∗ runE (F := F) 0 c)
  post c := iprop(StableHlo.held (c : Thread nD τ) (Pipeline.ucRefs τ sig) (V2 m (runOuts dat0 dat1 m) c) ∗ runE (F := F) 1 c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (runDats dat0 dat1 m) launch0.win launch0.arr_whole c
      ((runDats dat0 dat1 m 0 c).share_full fun w => hq0 (U1 m) c w) (U1 m c) fun w => A_eq0 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (runDats dat0 dat1 m 0 c).owed 0 = 0 from howed0 (U1 m) c 0]
      icases HO with ⟨%W, HO⟩; iexists W; isplitr
      · ipureintro; exact fun x _ => Or.inl (by rw [show (runDats dat0 dat1 m 0 c).recorded 0 = Set.univ from hrec0 (U1 m) c]; trivial)
      iexact HO
    isplitl [Hp]; · iexact Hp
    iexact Hrest
  hin c := by
    rw [show (runDats dat0 dat1 m 0 c).Φ 0 = Pipeline.ΦA spec0 c from hΦ0 (U1 m) c 0]; unfold Pipeline.ΦA
    iintro ⟨Hp, -, Hr⟩
    isplitl [Hr]; · iexact Hr
    iexact Hp
  hout c := by
    rw [Pipeline.ownSems0_none, show (runDats dat0 dat1 m 0 c).Φ (Fin.last _) = Pipeline.ΦA spec0 c from hΦ0 (U1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (runDats dat0 dat1 m) ((runDats dat0 dat1 m 0 c).share_full fun w => hq0 (U1 m) c w)
      (U1 m c) (fun b => V2 m (runOuts dat0 dat1 m) c b) ((runDats dat0 dat1 m 0 c).arrAt · cfg0.N) (run_hF0 dat0 A_eq0 dat1 m c) (run_hrest0 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (runDats dat0 dat1 m 0 c).owed (Fin.last _) = 0 from howed0 (U1 m) c _]
    icases HO with ⟨%W, -, HO⟩; iexists W; iexact HO

include A_eq1 howed1 hrec1 body1 hin1 hout1 hq1 in
set_option backward.isDefEq.respectTransparency.types false in
/-- Region 1: entered from every unscoped buffer at the contents after the second host stretch, left with its output array
    at what the pipeline wrote back and every other buffer as entered. Its three input windows read one array. -/
def reg1 : RegionSeg (pcfgs (F := F)) adm (runDats dat0 dat1 m) () defs₀ run𝒱 runL runLv 1 where
  win := winFacts₀1
  block_pos := block_pos1
  stage_whole := stage_whole1
  K := PEmpty
  osem k := k.elim
  ho := Pipeline.OwnSemFacts.none _
  hbody c := (body1 (U3 dat0 m) c).loose
  hwaits := Pipeline.hwaits_of_owed_zero _ _ _ _ runL runLv 1 fun c t => howed1 (U3 dat0 m) c t
  pre c := iprop(StableHlo.held (c : Thread nD τ) (Pipeline.ucRefs τ sig) (V3 m (runOuts dat0 dat1 m) c) ∗ runE (F := F) 1 c)
  post c := iprop(StableHlo.held (c : Thread nD τ) (Pipeline.ucRefs τ sig) (V4 m (runOuts dat0 dat1 m) c) ∗ runE (F := F) 2 c)
  X c := iprop(∃ r, prngReg c r)
  Y c := iprop(∃ r, prngReg c r)
  Z c := Pipeline.unscopedRest (Ix := Unit) (Name := ℕ) (U := UR sig nD τ) (Lvl := ℕ) spec1 c (U3 dat0 m c)
  hentry c := by
    rw [Pipeline.ownSems0_none]
    have hsplit := run_arrays1_of_unscopedBufs (runDats dat0 dat1 m 1 c) (hq1 (U3 dat0 m) c) (U3 dat0 m c)
      ((runDats dat0 dat1 m 1 c).arrAt · 0) (fun w => A_eq1 (U3 dat0 m) c w)
    rw [show (unscopedBufs c (U3 dat0 m c) : sProp 𝕄) = StableHlo.held (c : Thread nD τ) (Pipeline.ucRefs τ sig) (runW3 dat0 m c)
          from Pipeline.unscopedBufs_held c (runW3 dat0 m c), ← runV3_eq dat0 dat1 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (runDats dat0 dat1 m 1 c).owed 0 = 0 from howed1 (U3 dat0 m) c 0]
      icases HO with ⟨%W, HO⟩; iexists W; isplitr
      · ipureintro; exact fun x _ => Or.inl (by rw [show (runDats dat0 dat1 m 1 c).recorded 0 = Set.univ from hrec1 (U3 dat0 m) c]; trivial)
      iexact HO
    isplitl [Hp]; · iexact Hp
    iexact Hrest
  hin c := by
    refine BIBase.Entails.trans ?_ (hin1 (U3 dat0 m) c)
    unfold Pipeline.ΦA
    iintro ⟨Hp, -, Hr⟩
    isplitl [Hr]; · iexact Hr
    iexact Hp
  hout c := by
    rw [Pipeline.ownSems0_none]
    refine BIBase.Entails.trans (hout1 (U3 dat0 m) c) ?_
    unfold Pipeline.ΦA
    iintro ⟨Hr, Hp⟩
    isplitl [Hp]; · iexact Hp
    isplitr; · iempintro
    iexact Hr
  hexit c := by
    have hjoin := run_unscopedBufs_of_arrays1 (runDats dat0 dat1 m 1 c) (hq1 (U3 dat0 m) c) (U3 dat0 m c)
      ((runDats dat0 dat1 m 1 c).arrAt · cfg1.N) (fun b => V4 m (runOuts dat0 dat1 m) c b) (run_hF1 dat0 dat1 A_eq1 m c) (run_hrest1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (runDats dat0 dat1 m 1 c).owed (Fin.last _) = 0 from howed1 (U3 dat0 m) c _]
    icases HO with ⟨%W, -, HO⟩; iexists W; iexact HO

/-! ## The launch -/

include A_eq0 hq0 hΦ0 howed0 hrec0 body0 A_eq1 howed1 hrec1 body1 hin1 hout1 hq1 in
set_option backward.isDefEq.respectTransparency.types false in
/-- From any memory with zero counters every weakly fair execution of @main terminates, and every final memory holds,
    on every core, the result's buffer at what region 1's pipeline leaves in its output array and every argument as
    launched. -/
theorem run_of (ρ : Dev nD → PrngReg) :
    θ_run defs (onTc (τ := τ) (main (F := F))) ⟨m, fun _ => 0, ρ⟩ (fun r => ∀ c : Dev nD,
      r.2.mem ((c.tc : Thread nD τ).loc main_v7) = (dat1 (U3 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (runDats dat0 dat1 m) () cellOf_inj emb₁ defs₀ run𝒱 runL runLv m ρ main
    (segs m (runOuts dat0 dat1 m) run𝒱 runL runLv (runE (F := F)) () (runDats dat0 dat1 m)
      (reg0 dat0 A_eq0 hq0 hΦ0 howed0 hrec0 body0 dat1 m) (reg1 dat0 dat1 A_eq1 howed1 hrec1 body1 hin1 hout1 hq1 m))
    (fun c Q => by
      rewrite [main_chain c, Seg.run_eq_chain,
        show (segs m (runOuts dat0 dat1 m) run𝒱 runL runLv (runE (F := F)) () (runDats dat0 dat1 m)
            (reg0 dat0 A_eq0 hq0 hΦ0 howed0 hrec0 body0 dat1 m) (reg1 dat0 dat1 A_eq1 howed1 hrec1 body1 hin1 hout1 hq1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ runE (F := F) 0 c))
    (Tₙ := fun c => iprop(StableHlo.held (c : Thread nD τ) (Pipeline.ucRefs τ sig) (V4 m (runOuts dat0 dat1 m) c) ∗ ∃ r, prngReg c r))
    (hch := fun c => ⟨.rfl, .rfl, .rfl, .rfl, by
      show iprop(StableHlo.held (c : Thread nD τ) (Pipeline.ucRefs τ sig) (V4 m (runOuts dat0 dat1 m) c) ∗ runE (F := F) 2 c)
        ⊢ iprop((StableHlo.held (c : Thread nD τ) (Pipeline.ucRefs τ sig) (V4 m (runOuts dat0 dat1 m) c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v7) = (dat1 (U3 dat0 m) c).arrAt 3 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  -- the end: each buffer read off the last valuation
  unfold StableHlo.held
  iintro ⟨⟨Hh, -⟩, HSI⟩
  ihave Hr := (pointsTo_read_all (Pipeline.ucRefs τ sig) (fun b => ((c : Thread nD τ).1, b)) (V4 m (runOuts dat0 dat1 m) c) s') $$ [Hh HSI]
  · isplitl [Hh] <;> iassumption
  icases Hr with ⟨%h, HSI⟩
  imodintro
  isplitr
  · ipureintro
    exact ⟨(h (Proc.devRef .tc main_v7) (Finset.mem_filter.mpr ⟨StableHlo.devRef_mem_tcRefs main_v7, by decide⟩)).trans
        ((Function.update_self _ _ _).trans (runOuts_v7 dat0 dat1 m 4 c)),
      (h (Proc.devRef .tc main_arg0) (Finset.mem_filter.mpr ⟨StableHlo.devRef_mem_tcRefs main_arg0, by decide⟩)).trans (V4_main_arg0 m (runOuts dat0 dat1 m) c),
      (h (Proc.devRef .tc main_arg1) (Finset.mem_filter.mpr ⟨StableHlo.devRef_mem_tcRefs main_arg1, by decide⟩)).trans (V4_main_arg1 m (runOuts dat0 dat1 m) c),
      (h (Proc.devRef .tc main_arg2) (Finset.mem_filter.mpr ⟨StableHlo.devRef_mem_tcRefs main_arg2, by decide⟩)).trans (V4_main_arg2 m (runOuts dat0 dat1 m) c),
      (h (Proc.devRef .tc main_arg3) (Finset.mem_filter.mpr ⟨StableHlo.devRef_mem_tcRefs main_arg3, by decide⟩)).trans (V4_main_arg3 m (runOuts dat0 dat1 m) c),
      (h (Proc.devRef .tc main_arg4) (Finset.mem_filter.mpr ⟨StableHlo.devRef_mem_tcRefs main_arg4, by decide⟩)).trans (V4_main_arg4 m (runOuts dat0 dat1 m) c),
      (h (Proc.devRef .tc main_arg5) (Finset.mem_filter.mpr ⟨StableHlo.devRef_mem_tcRefs main_arg5, by decide⟩)).trans (V4_main_arg5 m (runOuts dat0 dat1 m) c),
      (h (Proc.devRef .tc main_arg6) (Finset.mem_filter.mpr ⟨StableHlo.devRef_mem_tcRefs main_arg6, by decide⟩)).trans (V4_main_arg6 m (runOuts dat0 dat1 m) c)⟩
  · iexact HSI

end Run

end Cert.KernelIdeal.Run

end
-- ==== Proof.KI.RunInst.lean ====
/-
  The run of @main at the two regions' proof data: every weakly fair execution terminates, the result's buffer holds what
  the second region's pipeline leaves in its output array, and every argument is as launched.
-/
import proofs.«104284_j31817117729495_2_alg».proof.Proof.KI.R0
import proofs.«104284_j31817117729495_2_alg».proof.Proof.KI.R1
import proofs.«104284_j31817117729495_2_alg».proof.Proof.KI.Run

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- From any memory with zero counters every weakly fair execution of @main terminates, and every final memory holds,
    on every core, the result's buffer at what region 1's pipeline leaves in its output array — entered from the
    contents `U3 dat0 m`, region 0's output array reshaped — and every argument as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v7) = (dat1 (U3 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of dat0 A_eq0 (fun _ _ _ => rfl) (fun _ _ _ => rfl) (fun _ _ _ => rfl) (fun _ _ => rfl) body_obligation0
    dat1 A_eq1 (fun _ _ _ => rfl) (fun _ _ => rfl) body_obligation1 hin1 hout1 (fun _ _ => rfl) m ρ

end Cert.KernelIdeal.Run

end
-- ==== Proof.K.Base.lean ====
/-
  What the run of the two kernel regions shares: the type of a region's entry contents.
-/
import proofs.«104284_j31817117729495_2_alg».proof.Proof.Gen.Kernel.Launch
import proofs.«104284_j31817117729495_2_alg».proof.Proof.Gen.Kernel.Skeleton
import proofs.«104284_j31817117729495_2_alg».proof.Proof.Gen.Kernel.Points
import proofs.«104284_j31817117729495_2_alg».proof.Proof.Gen.Kernel.Regions

noncomputable section

namespace Cert.Kernel.Run

open Idealize.ShloMosaic Idealize.ShloMosaic.TcCoe Idealize.SL.Sem Cert.Kernel Cert.Kernel.Gen
open Idealize.SL Idealize.SL.RA Idealize.SL.BI

/-- Every core's TensorCore buffers at a region's entry: the contents of each reference. -/
abbrev VT (F : FTy → Type) : Type := (c : Dev nD) → (b : Ref sig .tc) → Buf (Elt F) ((c : Thread nD τ).loc b)

/-- The share each window of the attention region holds of its array: the three input windows read ONE array (the fused
    q | k | v buffer) and split its full share — left, right-left, right-right —; the output window holds its array whole. -/
def q1 : Fin 4 → PosShare TreeShare := fun
  | 0 => fullShare.left
  | 1 => fullShare.right.left
  | 2 => fullShare.right.right
  | 3 => fullShare
  | ⟨_ + 4, h⟩ => absurd h (Nat.not_lt.2 (Nat.le_add_left _ _))

end Cert.Kernel.Run

end
-- ==== Proof.K.R0.lean ====
/- The projection kernel's region (custom_call 0): the fused projection x·[Wq|Wk|Wv] + [bq|bk|bv] over 32 row
   blocks of 512 rows. Its proof data over an ARBITRARY entry valuation of the unscoped buffers: each input window's
   staging buffer holds the window's block of its array (the rows block of x; the whole weight; the whole bias), and
   the output window's buffer holds, after the body, the one whole-block store of the body's arithmetic applied to
   those three blocks. -/
import proofs.«104284_j31817117729495_2_alg».proof.Proof.K.Base
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The windows' blocks -/

/-- Window w's block at point t, read off its array in the entry valuation V. -/
def iblk0 (V : VT F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved (the rows block is fetched at every point; the weight and the bias have a
    constant index and are fetched once). -/
theorem before0_0_of (V : VT F) {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (V : VT F) {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (V : VT F) {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: four whole-buffer rectangles -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- The output window's staging buffer after the body, from the three input blocks: its one whole-block store of the
    body's arithmetic (the product of the rows block with the weight, plus the bias row) of the loaded blocks. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store is of the whole buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at contents x0, x1, x2 and the output's at anything, runs to
    the continuation holding the inputs' as they were and the output's at out0_3 of them. (The body also loads its
    output buffer before the store; the value read is not used.) -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the projection kernel's pipeline on core c, over the entry valuation V: each window's array is
    V's; after the body at point t each input's buffer holds its block and the output's holds out0_3 of the three
    input blocks; the invariant is that of a body touching only its windows' buffers (the scoped rest and the generator register, untouched); nothing is
    owed; full shares. -/
def dat0 (V : VT F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry valuation's. -/
theorem A_eq0 (V : VT F) (c : Dev nD) (w : Fin cfg0.W) : (dat0 V c).A w = V c (Pipeline.arrRef spec0 w) := by
  dsimp only [dat0]

/-- What the body leaves, window by window. -/
theorem after0_0 (V : VT F) (c : Dev nD) (t : Fin cfg0.N) : (dat0 V c).after 0 t = iblk0 V c 0 t := by dsimp only [dat0]
theorem after0_1 (V : VT F) (c : Dev nD) (t : Fin cfg0.N) : (dat0 V c).after 1 t = iblk0 V c 1 t := by dsimp only [dat0]
theorem after0_2 (V : VT F) (c : Dev nD) (t : Fin cfg0.N) : (dat0 V c).after 2 t = iblk0 V c 2 t := by dsimp only [dat0]
theorem after0_3 (V : VT F) (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (V : VT F) (c : Dev nD) (t : Fin cfg0.N) (d) : (dat0 V c).before 0 t d = iblk0 V c 0 t :=
  before0_0_of V (dat0 V c) (A_eq0 V c 0) (after0_0 V c) t d
theorem before0_1 (V : VT F) (c : Dev nD) (t : Fin cfg0.N) (d) : (dat0 V c).before 1 t d = iblk0 V c 1 t :=
  before0_1_of V (dat0 V c) (A_eq0 V c 1) (after0_1 V c) t d
theorem before0_2 (V : VT F) (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t (the windows one by one), -/
def bodyPre0 (V : VT F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (V : VT F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (V : VT F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (V : VT F) (c : Dev nD) : BodyObligation (dat0 (F := F) V c) (defs₀ (F := F)) Variants.none () Set.univ := fun t => by
  rw [bigSep_W0, bigSep_W0]
  exact sound_body0 V c t

end Cert.Kernel.Run

end
-- ==== Proof.K.R1Runs.lean ====
/-
  The attention kernel's grid point by point: which of its three conditional blocks run at a point — the reset (key block
  0), the update (key block at or before the query block), the write of the quotient (last key block) —, decided over the
  128 points (point t is batch t / 16, query block t / 4 % 4, key block t % 4); where the output window rests; the
  staging and scratch buffers by name.
-/
import proofs.«104284_j31817117729495_2_alg».proof.Proof.K.Base
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data on the region's entry contents whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three conditions -/

/-- The reset block runs: key block 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The update block runs: the key block is at or before the query block. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- The quotient is written: last key block. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows rest -/

theorem liveAt1_0 : ∀ i, cfg1.idle 0 i = false := fun _ => rfl
theorem liveAt1_1 : ∀ i, cfg1.idle 1 i = false := fun _ => rfl
theorem liveAt1_2 : ∀ i, cfg1.idle 2 i = false := fun _ => rfl
/-- Away from the last key block the output window rests and is not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At the last key block it is live. -/
theorem liveAt1_3 : ∀ t : Fin cfg1.N, cond1_2 (grid1.coords t) → cfg1.idle 3 (grid1.coords t) = false := by decide +kernel

/-! ## The buffers by name -/

abbrev VO1_3 : View sig .tc .vmem S1x512x1024 .f32 := (Memref.whole cc1_stg3_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The three scratch buffers: running maximum, normaliser, weighted sum. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev VS1_0 : View sig .tc .vmem S1x512x1 .f32 := scM1_0.view
abbrev VS1_1 : View sig .tc .vmem S1x512x1 .f32 := scM1_1.view
abbrev VS1_2 : View sig .tc .vmem S1x512x1024 .f32 := scM1_2.view

/-- The scoped buffers of the other region's staging, each at some contents: they ride through this region unread. -/
def others1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's resting invariant: the other region's staging buffers, the three scratch buffers as memrefs owned at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Run

end
-- ==== Proof.K.R1RunB.lean ====
/-
  The attention kernel's body at a point where only the update block runs (a key block after the first, at or before
  the query block, not the last): its run, the pieces each scratch buffer ends with found by the run.
-/
import proofs.«104284_j31817117729495_2_alg».proof.Proof.K.R1Runs

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the update alone runs: on whole memrefs — the three input blocks at their contents, the output's buffer
    handed back untouched, the three scratch buffers at what the point before left — it runs to the continuation with each
    scratch buffer's pieces written. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) :
    Σ' (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Run

end
-- ==== Proof.K.R1RunA.lean ====
/-
  The attention kernel's body at a query block's first key block: the reset, then the update.
-/
import proofs.«104284_j31817117729495_2_alg».proof.Proof.K.R1RunB

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at key block 0 (reset, then update): the scratch buffers are taken at anything and end with their pieces written; the output's buffer is handed back untouched. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) :
    Σ' (LS0 : List (View.Piece (Elt F) S1x512x1 .f32)) (LS1 : List (View.Piece (Elt F) S1x512x1 .f32)), { LS2 : List (View.Piece (Elt F) S1x512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%dfs0, %fs0, -, HS0⟩, ⟨%dfs1, %fs1, -, HS1⟩, ⟨%dfs2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Run

end
-- ==== Proof.K.R1RunC.lean ====
/-
  The attention kernel's body on the diagonal's last block: the update, then the write of the quotient.
-/
import proofs.«104284_j31817117729495_2_alg».proof.Proof.K.R1RunA

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the update runs and the quotient is written (last key block, last query block): the scratch buffers from what the point before left to their pieces written; the output's buffer from anything to its pieces written. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) :
    Σ' (L3 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Run

end
-- ==== Proof.K.R1RunD.lean ====
/-
  The attention kernel's body at a skipped key block (after the query block, not the last): nothing runs.
-/
import proofs.«104284_j31817117729495_2_alg».proof.Proof.K.R1RunC

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a skipped key block: every buffer is handed back as found. -/
theorem kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : ¬cond1_2 i)
    (x0 x1 x2 : Vec F S1x512x1024 .bf16) (xs0 xs1 : Vec F S1x512x1 .f32) (xs2 : Vec F S1x512x1024 .f32) :
    ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K := by
  intro xi3 E K
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.Kernel.Run

end
-- ==== Proof.K.R1RunE.lean ====
/-
  The attention kernel's body at the last key block of a query block above it: only the quotient is written.
-/
import proofs.«104284_j31817117729495_2_alg».proof.Proof.K.R1RunD

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where only the quotient is written: the scratch buffers are read and handed back as found; the output's buffer from anything to its pieces written. -/
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) :
    { L3 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%df3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Run

end
-- ==== Proof.K.R1.lean ====
/-
  The attention region point by point: what its output buffer and its three scratch buffers hold after each grid point,
  by recursion on the point (the case the point is in, over what the point before left); the region's invariant carrying
  the scratch buffers at those contents; the proof data; the body obligation at every point.
-/
import proofs.«104284_j31817117729495_2_alg».proof.Proof.K.R1RunE

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F)

/-- The pieces the run found for the running-maximum buffer cover it (they tile it). -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) (y : S1x512x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL (kernelRun1_A c i arg3 harg3 arg4 harg4 arg5 harg5 arg6 harg6 arg7 harg7 arg8 harg8 arg9 harg9 hc0 hc1 hc2 x0 x1 x2).1 S1x512x1.size (by sl_kernel_rfl) y

/-- What the point leaves in the running-maximum buffer: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) : Vec F S1x512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)

/-- The pieces the run found for the normaliser buffer cover it (they tile it). -/
theorem scover1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) (y : S1x512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S1x512x1.size (by sl_kernel_rfl) y

/-- What the point leaves in the normaliser buffer: its pieces read back. -/
def sout1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) : Vec F S1x512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)

/-- The pieces the run found for the weighted-sum buffer cover it (they tile it). -/
theorem scover1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) (y : S1x512x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S1x512x1024.size (by sl_kernel_rfl) y

/-- What the point leaves in the weighted-sum buffer: its pieces read back. -/
def sout1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) : Vec F S1x512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)

/-- The pieces the run found for the running-maximum buffer cover it (they tile it). -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) (y : S1x512x1.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).1 S1x512x1.size (by sl_kernel_rfl) y

/-- What the point leaves in the running-maximum buffer: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) : Vec F S1x512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).1)

/-- The pieces the run found for the normaliser buffer cover it (they tile it). -/
theorem scover1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) (y : S1x512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S1x512x1.size (by sl_kernel_rfl) y

/-- What the point leaves in the normaliser buffer: its pieces read back. -/
def sout1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) : Vec F S1x512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.1)

/-- The pieces the run found for the weighted-sum buffer cover it (they tile it). -/
theorem scover1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) (y : S1x512x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S1x512x1024.size (by sl_kernel_rfl) y

/-- What the point leaves in the weighted-sum buffer: its pieces read back. -/
def sout1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) : Vec F S1x512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.1)

/-- The pieces the run found for the output's staging buffer cover it (they tile it). -/
theorem cover1_C_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1024.Idx) :
    ∃ pc ∈ (kernelRun1_C c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).1 S1x512x1024.size (by sl_kernel_rfl) y

/-- What the point leaves in the output's staging buffer: its pieces read back. -/
def out1_C_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1024 .f32 :=
  VO1_3.read (Elt F) (VO1_3.writes (Elt F) VO1_3.junk (kernelRun1_C c i arg3 harg3 arg4 harg4 arg5 harg5 arg6 harg6 arg7 harg7 arg8 harg8 arg9 harg9 hc0 hc1 hc2 x0 x1 x2 xs0 xs1 xs2).1)

/-- The pieces the run found for the running-maximum buffer cover it (they tile it). -/
theorem scover1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1.Idx) :
    ∃ pc ∈ (kernelRun1_C c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.1 S1x512x1.size (by sl_kernel_rfl) y

/-- What the point leaves in the running-maximum buffer: its pieces read back. -/
def sout1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1 .f32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 xs0 xs1 xs2).2.1)

/-- The pieces the run found for the normaliser buffer cover it (they tile it). -/
theorem scover1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1.Idx) :
    ∃ pc ∈ (kernelRun1_C c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.1 S1x512x1.size (by sl_kernel_rfl) y

/-- What the point leaves in the normaliser buffer: its pieces read back. -/
def sout1_C_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1 .f32 :=
  VS1_1.read (Elt F) (VS1_1.writes (Elt F) VS1_1.junk (kernelRun1_C c i arg3 harg3 arg4 harg4 arg5 harg5 arg6 harg6 arg7 harg7 arg8 harg8 arg9 harg9 hc0 hc1 hc2 x0 x1 x2 xs0 xs1 xs2).2.2.1)

/-- The pieces the run found for the weighted-sum buffer cover it (they tile it). -/
theorem scover1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) (y : S1x512x1024.Idx) :
    ∃ pc ∈ (kernelRun1_C c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 hc2 x0 x1 x2 xs0 xs1 xs2).2.2.2.1 S1x512x1024.size (by sl_kernel_rfl) y

/-- What the point leaves in the weighted-sum buffer: its pieces read back. -/
def sout1_C_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) : Vec F S1x512x1024 .f32 :=
  VS1_2.read (Elt F) (VS1_2.writes (Elt F) VS1_2.junk (kernelRun1_C c i arg3 harg3 arg4 harg4 arg5 harg5 arg6 harg6 arg7 harg7 arg8 harg8 arg9 harg9 hc0 hc1 hc2 x0 x1 x2 xs0 xs1 xs2).2.2.2.1)

/-- The pieces the run found for the output's staging buffer cover it (they tile it). -/
theorem cover1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) (y : S1x512x1024.Idx) :
    ∃ pc ∈ (kernelRun1_E c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_E c i arg3 harg3 arg4 harg4 arg5 harg5 arg6 harg6 arg7 harg7 arg8 harg8 arg9 harg9 hc0 hc1 hc2 x0 x1 x2 xs0 xs1 xs2).1 S1x512x1024.size (by sl_kernel_rfl) y

/-- What the point leaves in the output's staging buffer: its pieces read back. -/
def out1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) : Vec F S1x512x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 x0 x1 x2 xs0 xs1 xs2).1)

/-! ## What the buffers hold after each point -/

/-- One point: from what the point before left in (output buffer, maximum, normaliser, sum) to what this point leaves — the
    case the point is in (key block 0: reset and update; key block at or before the query block: update, and at the last
    block the quotient too; a skipped key block: nothing, or at the last block the quotient alone). -/
def stepAt1 (c : Dev nD) (t : Fin cfg1.N) (p : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  if h0 : t.val % 4 = 0 then
    (p.1, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
  else if h1 : t.val % 4 ≤ t.val / 4 % 4 then
    if h2 : t.val % 4 = 3 then
      (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.2.1 p.2.2.1 p.2.2.2)
    else
      (p.1, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.2.1 p.2.2.1 p.2.2.2)
  else if h2 : t.val % 4 = 3 then
    (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.2.1 p.2.2.1 p.2.2.2, p.2.1, p.2.2.1, p.2.2.2)
  else p

/-- Contents nothing reads: what the recursion starts from (the first point resets every scratch buffer before reading it, and
    the output buffer is written before it is written back). -/
def junk1 : Vec F S1x512x1024 .f32 × Vec F S1x512x1 .f32 × Vec F S1x512x1 .f32 × Vec F S1x512x1024 .f32 := (VO1_3.read (Elt F) VO1_3.junk, VS1_0.read (Elt F) VS1_0.junk, VS1_1.read (Elt F) VS1_1.junk, VS1_2.read (Elt F) VS1_2.junk)

/-- What the four buffers hold after the body at position `n`. -/
def outsAt1 (c : Dev nD) : (n : ℕ) → n < cfg1.N → Vec F S1x512x1024 .f32 × Vec F S1x512x1 .f32 × Vec F S1x512x1 .f32 × Vec F S1x512x1024 .f32
  | 0, hn => stepAt1 V c ⟨0, hn⟩ junk1
  | n + 1, hn => stepAt1 V c ⟨n + 1, hn⟩ (outsAt1 c n (Nat.lt_of_succ_lt hn))

theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)) := by
  obtain ⟨n, hn⟩ := t
  cases n with
  | zero => exact absurd rfl hz
  | succ n => rfl

theorem outsAt1_zero (c : Dev nD) (t : Fin cfg1.N) (hz : t.val = 0) :
    outsAt1 V c t.val t.isLt = stepAt1 V c t junk1 := by
  obtain ⟨n, hn⟩ := t
  cases n with
  | zero => rfl
  | succ n => exact absurd hz (Nat.succ_ne_zero n)

/-! ## The region's invariant, carrying the scratch buffers -/

/-- Before position `n`: before the first point the resting invariant (every scratch buffer at anything); afterwards the other
    region's staging buffers, the three scratch buffers at what the point before left, the generator register. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The attention region's proof data on core `c`: its arrays as the region finds them; after the body at point `t` each input
    window's buffer at its block and the output's at `outsAt1`'s first component; the invariant carrying the scratch buffers; the
    three input windows sharing their one array; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the input windows' buffers hold their blocks; the point's position among the key blocks says
    which blocks of the body run; the invariant hands the body the scratch buffers at what the point before left (at anything
    at the very first point, which resets them) and takes them back at this point's contents; the output's buffer is handed
    back untouched except at the last key block, where it is written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 _], after1_0]
  rw [show (dat1 V c).leavesExact 1 t = owns (c : Thread nD τ) (ms1_1 t) fullShare ((dat1 V c).after 1 t) from by
    unfold Dat.leavesExact; rw [liveAt1_1 _], after1_1]
  rw [show (dat1 V c).leavesExact 2 t = owns (c : Thread nD τ) (ms1_2 t) fullShare ((dat1 V c).after 2 t) from by
    unfold Dat.leavesExact; rw [liveAt1_2 _], after1_2]
  have hN : t.val < 128 := lt_of_lt_of_eq t.isLt N_1
  by_cases h0 : t.val % 4 = 0
  · rw [Dat.leavesExact_idle (dat1 V c) 3 t (idleAt1_3 t (fun h => by have := (hcond1_2 t).mp h; omega)) (noFlush1_3 t (fun h => by have := (hcond1_2 t).mp h; omega))]
    by_cases hz : t.val = 0
    · rw [outsAt1_zero V c t hz]; unfold stepAt1; rw [dif_pos h0]
      unfold sout1_A_0 sout1_A_1 sout1_A_2; (try dsimp only)
      rw [PhiS1_castSucc V c t, PhiS1_zero V c _ _ hz, PhiA1_eq]
      iintro ⟨⟨⟨HO1, HO2, HO3, HO4, HO5, HO6, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HO1 HO2 HO3 HO4 HO5 HO6 HS0 HS1 HS2 Hg]
      · isplitl [HO1 HO2 HO3 HO4 HO5 HO6 HS0 HS1 HS2]
        · isplitl [HO1]; · iexact HO1
          isplitl [HO2]; · iexact HO2
          isplitl [HO3]; · iexact HO3
          isplitl [HO4]; · iexact HO4
          isplitl [HO5]; · iexact HO5
          isplitl [HO6]; · iexact HO6
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3

    · rw [outsAt1_pos V c t hz]; unfold stepAt1; rw [dif_pos h0]
      unfold sout1_A_0 sout1_A_1 sout1_A_2; (try dsimp only)
      rw [PhiS1_castSucc V c t, PhiS1_pos V c _ _ hz]
      iintro ⟨⟨⟨HO1, HO2, HO3, HO4, HO5, HO6, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO1 HO2 HO3 HO4 HO5 HO6 HS0 HS1 HS2 Hg]
      · isplitl [HO1 HO2 HO3 HO4 HO5 HO6 HS0 HS1 HS2]
        · isplitl [HO1]; · iexact HO1
          isplitl [HO2]; · iexact HO2
          isplitl [HO3]; · iexact HO3
          isplitl [HO4]; · iexact HO4
          isplitl [HO5]; · iexact HO5
          isplitl [HO6]; · iexact HO6
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
          unfold owns; iexists _; isplitr
          swap; · iexact HS2
          ipureintro; exact View.read_writes_of_cover _ _ _ _ _ (scover1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t))
        iexact Hg
      isplitl [Ho]; · iexact Ho
      isplitl [H0]; · iexact H0
      isplitl [H1]; · iexact H1
      isplitl [H2]; · iexact H2
      iexists _; iexact H3

  · have hz : t.val ≠ 0 := by omega
    rw [PhiS1_castSucc V c t, PhiS1_pos V c _ _ hz]
    by_cases h1 : t.val % 4 ≤ t.val / 4 % 4
    · by_cases h2 : t.val % 4 = 3
      · skip
        rw [show (dat1 V c).leavesExact 3 t = owns (c : Thread nD τ) (ms1_3 t) fullShare ((dat1 V c).after 3 t) from by
        unfold Dat.leavesExact; rw [liveAt1_3 t ((hcond1_2 t).mpr h2)], after1_3]
        rw [outsAt1_pos V c t hz]; unfold stepAt1; rw [dif_neg h0, dif_pos h1, dif_pos h2]
        unfold out1_C_3 sout1_C_0 sout1_C_1 sout1_C_2; (try dsimp only)
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]
            · unfold owns; iexists _; isplitr
              swap; · iexact HS0
              ipureintro; exact View.read_writes_of_cover _ _ _ _ _ (scover1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)
            isplitl [HS1]
            · unfold owns; iexists _; isplitr
              swap; · iexact HS1
              ipureintro; exact View.read_writes_of_cover _ _ _ _ _ (scover1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)
            unfold owns; iexists _; isplitr
            swap; · iexact HS2
            ipureintro; exact View.read_writes_of_cover _ _ _ _ _ (scover1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) _ _ _)

      · rw [Dat.leavesExact_idle (dat1 V c) 3 t (idleAt1_3 t (fun h => h2 ((hcond1_2 t).mp h))) (noFlush1_3 t (fun h => h2 ((hcond1_2 t).mp h)))]
        rw [outsAt1_pos V c t hz]; unfold stepAt1; rw [dif_neg h0, dif_pos h1, dif_neg h2]
        unfold sout1_B_0 sout1_B_1 sout1_B_2; (try dsimp only)
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]
            · unfold owns; iexists _; isplitr
              swap; · iexact HS0
              ipureintro; exact View.read_writes_of_cover _ _ _ _ _ (scover1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _)
            isplitl [HS1]
            · unfold owns; iexists _; isplitr
              swap; · iexact HS1
              ipureintro; exact View.read_writes_of_cover _ _ _ _ _ (scover1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _)
            unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) _ _ _)
          iexact Hg
        isplitl [Ho]; · iexact Ho
        isplitl [H0]; · iexact H0
        isplitl [H1]; · iexact H1
        isplitl [H2]; · iexact H2
        iexists _; iexact H3

    · by_cases h2 : t.val % 4 = 3
      · skip
        rw [show (dat1 V c).leavesExact 3 t = owns (c : Thread nD τ) (ms1_3 t) fullShare ((dat1 V c).after 3 t) from by
        unfold Dat.leavesExact; rw [liveAt1_3 t ((hcond1_2 t).mpr h2)], after1_3]
        rw [outsAt1_pos V c t hz]; unfold stepAt1; rw [dif_neg h0, dif_neg h1, dif_pos h2]
        unfold out1_E_3; (try dsimp only)
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) _ _ _).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) _ _ _)

      · rw [Dat.leavesExact_idle (dat1 V c) 3 t (idleAt1_3 t (fun h => h2 ((hcond1_2 t).mp h))) (noFlush1_3 t (fun h => h2 ((hcond1_2 t).mp h)))]
        rw [outsAt1_pos V c t hz]; unfold stepAt1; rw [dif_neg h0, dif_neg h1, dif_neg h2]
        iintro ⟨⟨⟨HO1, HO2, HO3, HO4, HO5, HO6, HS0, HS1, HS2⟩, Hg⟩, Ho, ⟨%d0, H0⟩, ⟨%d1, H1⟩, ⟨%d2, H2⟩, ⟨%d3, H3⟩⟩
        iapply (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HO1 HO2 HO3 HO4 HO5 HO6 HS0 HS1 HS2 Hg]
        · isplitl [HO1 HO2 HO3 HO4 HO5 HO6 HS0 HS1 HS2]
          · isplitl [HO1]; · iexact HO1
            isplitl [HO2]; · iexact HO2
            isplitl [HO3]; · iexact HO3
            isplitl [HO4]; · iexact HO4
            isplitl [HO5]; · iexact HO5
            isplitl [HO6]; · iexact HO6
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting invariant back: the scratch buffers' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HO1, HO2, HO3, HO4, HO5, HO6, HS0, HS1, HS2⟩, Hg⟩
  isplitl [HO1 HO2 HO3 HO4 HO5 HO6 HS0 HS1 HS2]
  · isplitl [HO1]; · iexact HO1
    isplitl [HO2]; · iexact HO2
    isplitl [HO3]; · iexact HO3
    isplitl [HO4]; · iexact HO4
    isplitl [HO5]; · iexact HO5
    isplitl [HO6]; · iexact HO6
    isplitl [HS0]; · iexists _; iexact HS0
    isplitl [HS1]; · iexists _; iexact HS1
    iexists _; iexact HS2
  iexact Hg

end Cert.Kernel.Run

end
-- ==== Proof.K.Run.lean ====
/-
  The run of @main: two host stretches and two kernel regions through the library's launch for a program of several
  regions, with the result's buffer named in the postcondition.
-/
import proofs.«104284_j31817117729495_2_alg».proof.Proof.K.Base
import Idealize.ShloMosaic.Lib.Pipeline.Frame
import Idealize.ShloMosaic.Lib.Pipeline.Regions
import Idealize.ShloMosaic.Lib.Pipeline.RegionsLoop

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

section Share

variable {ℓ : Loc nD τ sig} {I : Finset (Idx ℓ)} {f : Buf (Elt F) ℓ}

/-- A full share of a buffer is three shares of it, for three readers of one array. -/
theorem run_pointsTo_three :
    (ℓ ↦[I]{fullShare} f : sProp 𝕄)
      ⊣⊢ iprop((ℓ ↦[I]{fullShare.left} f) ∗ (ℓ ↦[I]{fullShare.right.left} f) ∗ ℓ ↦[I]{fullShare.right.right} f) := by
  constructor
  · iintro H
    ihave H := (pointsTo_share (PosShare.mem_left_op_right fullShare)).1 $$ H
    icases H with ⟨H0, H12⟩
    ihave H12 := (pointsTo_share (PosShare.mem_left_op_right fullShare.right)).1 $$ H12
    icases H12 with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

end Share

section Arr1

variable {c : Dev nD} (dat : Dat τ (Elt F) Unit ℕ (UR sig nD τ) ℕ cfg1 c) (hq : dat.q = q1)

include hq in
/-- Region 1's arrays, window by window: the three readers of the shared array hold a share each, the output its array whole. -/
theorem run_arrays1_eq (G : (w : Fin cfg1.W) → Buf (Elt F) ((cfg1.win w).arr.view.loc (c.tc : Thread nD τ))) :
    (dat.arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1]
  have h0 : dat.share 0 = fullShare.left := by unfold Dat.share; rw [hq]; rfl
  have h1 : dat.share 1 = fullShare.right.left := by unfold Dat.share; rw [hq]; rfl
  have h2 : dat.share 2 = fullShare.right.right := by unfold Dat.share; rw [hq]; rfl
  have h3 : dat.share 3 = fullShare := by unfold Dat.share; rfl
  rw [h0, h1, h2, h3, (arr_whole1 0).set_eq_univ, (arr_whole1 3).set_eq_univ]

end Arr1

section Split1

variable {c : Dev nD} (dat : Dat τ (Elt F) Unit ℕ (UR sig nD τ) ℕ cfg1 c) (hq : dat.q = q1)
  (V : (b : Ref sig .tc) → Buf (Elt F) ((c : Thread nD τ).loc b))

/-- The distinct buffers behind region 1's windows: the shared input array and the output array. -/
theorem run_arrBufs1_eq :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef spec1) = {main_v6, main_v7} from by decide,
    bigSep_insert (by decide), bigSep_singleton]
  rfl

include hq in
/-- ENTRY, the arrays' part: the core's unscoped buffers at contents `V` are region 1's arrays — the shared input array's
    full share dealt to its three readers — and the unscoped rest. -/
theorem run_arrays1_of_unscopedBufs (G : (w : Fin cfg1.W) → Buf (Elt F) ((cfg1.win w).arr.view.loc (c.tc : Thread nD τ)))
    (hG : ∀ w, G w = V (Pipeline.arrRef spec1 w)) :
    (unscopedBufs c V : sProp 𝕄) ⊢ iprop(dat.arrays G ∗ Pipeline.unscopedRest spec1 c V) := by
  have hs : (unscopedBufs c V : sProp 𝕄) = iprop(Pipeline.arrBufs spec1 c V ∗ Pipeline.unscopedRest spec1 c V) :=
    Pipeline.unscopedBufs_split₀ cfgs 1 winFacts₀1.arr_unscoped c V
  rw [hs, run_arrBufs1_eq, run_arrays1_eq dat hq, hG 0, hG 1, hG 2, hG 3]
  iintro ⟨⟨H6, H7⟩, Hr⟩
  ihave H6 := run_pointsTo_three.1 $$ H6
  icases H6 with ⟨Ha, Hb, Hc⟩
  isplitr [Hr]
  · isplitl [Ha]; · iexact Ha
    isplitl [Hb]; · iexact Hb
    isplitl [Hc]; · iexact Hc
    iexact H7
  iexact Hr

include hq in
/-- EXIT, the arrays' part: region 1's arrays, the three readers' still at the shared array's entry contents, and the
    unscoped rest at `V` are the core's unscoped buffers at any valuation that has the output array at its final contents
    and agrees with `V` elsewhere. -/
theorem run_unscopedBufs_of_arrays1 (G : (w : Fin cfg1.W) → Buf (Elt F) ((cfg1.win w).arr.view.loc (c.tc : Thread nD τ)))
    (V' : (b : Ref sig .tc) → Buf (Elt F) ((c : Thread nD τ).loc b))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  rw [hs, run_arrBufs1_eq, run_arrays1_eq dat hq, hG 0, hG 1, hG 2, hG 3]
  refine sep_mono ?_ (Entails.of_eq ?_)
  · iintro ⟨Ha, Hb, Hc, H7⟩
    isplitr [H7]
    · iapply run_pointsTo_three.2
      isplitl [Ha]; · iexact Ha
      isplitl [Hb]; · iexact Hb
      iexact Hc
    iexact H7
  · unfold Pipeline.unscopedRest
    exact bigSep_congr fun b hb => by rw [hrest b (Finset.mem_sdiff.mp hb).2]

end Split1

section Run

variable (dat0 : VT F → (c : Dev nD) → Dat τ (Elt F) Unit ℕ (UR sig nD τ) ℕ cfg0 c)
  (A_eq0 : ∀ V c w, (dat0 V c).A w = V c (Pipeline.arrRef spec0 w))
  (hq0 : ∀ V c w, (dat0 V c).q w = fullShare)
  (hΦ0 : ∀ V c t, (dat0 V c).Φ t = Pipeline.ΦA spec0 c)
  (howed0 : ∀ V c t, (dat0 V c).owed t = 0)
  (hrec0 : ∀ V c, (dat0 V c).recorded 0 = Set.univ)
  (body0 : ∀ V c, BodyObligation (dat0 V c) (defs₀ (F := F)) Variants.none () Set.univ)
variable (dat1 : VT F → (c : Dev nD) → Dat τ (Elt F) Unit ℕ (UR sig nD τ) ℕ cfg1 c)
  (A_eq1 : ∀ V c w, (dat1 V c).A w = V c (Pipeline.arrRef spec1 w))
  (howed1 : ∀ V c t, (dat1 V c).owed t = 0)
  (hrec1 : ∀ V c, (dat1 V c).recorded 0 = Set.univ)
  (body1 : ∀ V c, BodyObligation (dat1 V c) (defs₀ (F := F)) Variants.none () Set.univ)
  (hin1 : ∀ V c, Pipeline.ΦA spec1 c ⊢ (dat1 V c).Φ 0)
  (hout1 : ∀ V c, (dat1 V c).Φ (Fin.last cfg1.N) ⊢ Pipeline.ΦA spec1 c)
  (hq1 : ∀ V c, (dat1 V c).q = q1)

variable (m : (ℓ : Loc nD τ sig) → Buf (Elt F) ℓ)

/-! ## The buffers' contents at the five boundaries of @main -/

/-- At launch. -/
abbrev U0 : VT F := fun c b => m ((c : Thread nD τ).loc b)
/-- After the first host stretch: region 0's entry. -/
abbrev U1 : VT F := fun c b => V1 m c b
/-- What region 0 leaves in its output array. -/
abbrev runOut0 (c : Dev nD) : Buf (Elt F) ((c : Thread nD τ).loc main_v5) := (dat0 (U1 m) c).arrAt 3 cfg0.N
/-- After region 0, as a valuation of every reference. -/
abbrev runW2 (c : Dev nD) : Valuation τ sig (Elt F) := Function.update (V1 m c) main_v5 (runOut0 dat0 m c)
/-- After region 0. -/
abbrev U2 : VT F := fun c b => runW2 dat0 m c b
/-- After the second host stretch, as a valuation of every reference. -/
abbrev runW3 (c : Dev nD) : Valuation τ sig (Elt F) := StableHlo.after hostOps1 (runW2 dat0 m c)
/-- After the second host stretch: region 1's entry. -/
abbrev U3 : VT F := fun c b => runW3 dat0 m c b
/-- What region 1 leaves in its output array. -/
abbrev runOut1 (c : Dev nD) : Buf (Elt F) ((c : Thread nD τ).loc main_v7) := (dat1 (U3 dat0 m) c).arrAt 3 cfg1.N
/-- After region 1, as a valuation of every reference. -/
abbrev runW4 (c : Dev nD) : Valuation τ sig (Elt F) := Function.update (runW3 dat0 m c) main_v7 (runOut1 dat0 dat1 m c)
/-- After region 1: the end of @main. -/
abbrev U4 : VT F := fun c b => runW4 dat0 dat1 m c b

/-- The two regions' results as the family the generated boundary valuations are written over. -/
def runOuts : Outs (F := F) := fun _ r c =>
  Function.update (Function.update (fun r => m ((c : Thread nD τ).loc r)) main_v5 (runOut0 dat0 m c)) main_v7 (runOut1 dat0 dat1 m c) r

theorem runOuts_v5 (J : ℕ) (c : Dev nD) : runOuts dat0 dat1 m J main_v5 c = runOut0 dat0 m c := by
  unfold runOuts
  rw [Function.update_of_ne (show (main_v5 : Ref sig .tc) ≠ main_v7 by decide), Function.update_self]
theorem runOuts_v7 (J : ℕ) (c : Dev nD) : runOuts dat0 dat1 m J main_v7 c = runOut1 dat0 dat1 m c := by
  unfold runOuts
  rw [Function.update_self]

theorem runV2_eq (c : Dev nD) : V2 m (runOuts dat0 dat1 m) c = runW2 dat0 m c :=
  congrArg (Function.update (V1 m c) (Proc.devRef .tc main_v5)) (runOuts_v5 dat0 dat1 m 2 c)
theorem runV3_eq (c : Dev nD) : V3 m (runOuts dat0 dat1 m) c = runW3 dat0 m c :=
  congrArg (StableHlo.after hostOps1) (runV2_eq dat0 dat1 m c)
theorem runV4_eq (c : Dev nD) : V4 m (runOuts dat0 dat1 m) c = runW4 dat0 dat1 m c := by
  show Function.update (V3 m (runOuts dat0 dat1 m) c) (Proc.devRef .tc main_v7) (runOuts dat0 dat1 m 4 main_v7 c) = _
  rw [runV3_eq, runOuts_v7]

/-! ## The boundary contents at the regions' arrays -/

/-- After region 0 its output array holds what the pipeline wrote back. -/
theorem U2_v5 (c : Dev nD) : U2 dat0 m c main_v5 = (dat0 (U1 m) c).arrAt 3 cfg0.N :=
  Function.update_self _ _ _

/-- Region 1's shared input array is region 0's output array at the second host stretch's shape. -/
theorem U3_v6 (c : Dev nD) :
    U3 dat0 m c main_v6 = fun i => (rfl : (main_v5 : Ref sig .tc).ty.elt = (main_v6 : Ref sig .tc).ty.elt) ▸
      shapeCast (main_v6 : Ref sig .tc).ty.shape ((dat0 (U1 m) c).arrAt 3 cfg0.N) shapeCasts_S16384x3072_S8x2048x3072 i := by
  show StableHlo.after hostOps1 (runW2 dat0 m c) (Proc.devRef .tc main_v6) = _
  rw [StableHlo.after_cons, StableHlo.after_nil, StableHlo.reshape_result,
    show runW2 dat0 m c (Proc.devRef .tc main_v5) = (dat0 (U1 m) c).arrAt 3 cfg0.N from Function.update_self _ _ _]

/-! ## The proof data family and the thread state -/

/-- Both pipelines' proof data, each at its region's entry contents. -/
def runDats : (p : Fin 2) → (c : Dev nD) → Dat τ (Elt F) Unit ℕ (UR sig nD τ) ℕ (cfgs p) c
  | ⟨0, _⟩ => fun c => dat0 (U1 m) c
  | ⟨1, _⟩ => fun c => dat1 (U3 dat0 m) c

abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its dues, none. -/
abbrev runR (c : Dev nD) : sProp 𝕄 := iprop((∃ r, prngReg c r) ∗ ∃ W, owes (c : Thread nD τ) (0 : CellTallies nD τ sig Unit) W)
abbrev runE : Fin 3 → Dev nD → sProp 𝕄 := fun _ c => runR (F := F) c

/-! ## What region 0 leaves: its arrays at the pipeline's final contents, every other buffer as entered -/

include A_eq0 in
theorem run_hF0 (c : Dev nD) (w : Fin cfg0.W) :
    (runDats dat0 dat1 m 0 c).arrAt w cfg0.N = V2 m (runOuts dat0 dat1 m) c (Pipeline.arrRef spec0 w) :=
  match w with
  | 0 => ((dat0 (U1 m) c).arrAt_in 0 rfl _).trans ((A_eq0 (U1 m) c 0).trans (V2_of m (runOuts dat0 dat1 m) c main_v4 (by decide)).symm)
  | 1 => ((dat0 (U1 m) c).arrAt_in 1 rfl _).trans ((A_eq0 (U1 m) c 1).trans (V2_of m (runOuts dat0 dat1 m) c main_v1 (by decide)).symm)
  | 2 => ((dat0 (U1 m) c).arrAt_in 2 rfl _).trans ((A_eq0 (U1 m) c 2).trans (V2_of m (runOuts dat0 dat1 m) c main_v3 (by decide)).symm)
  | 3 => by
    show (dat0 (U1 m) c).arrAt 3 cfg0.N
      = Function.update (V1 m c) (Proc.devRef .tc main_v5) (runOuts dat0 dat1 m 2 main_v5 c) (Proc.devRef .tc main_v5)
    rw [Function.update_self, runOuts_v5]
  | ⟨_ + 4, h⟩ => absurd h (Nat.not_lt.2 (Nat.le_add_left _ _))

theorem run_hrest0 (c : Dev nD) : ∀ b, b ∉ Finset.univ.image (Pipeline.arrRef spec0) →
    V2 m (runOuts dat0 dat1 m) c b = U1 m c b :=
  fun b hb => V2_of m (runOuts dat0 dat1 m) c b fun h =>
    hb (by rw [List.mem_singleton.mp h]; exact Finset.mem_image.mpr ⟨3, Finset.mem_univ _, rfl⟩)

/-! ## What region 1 leaves: its output array at the pipeline's final contents, every other buffer as entered -/

include A_eq1 in
theorem run_hF1 (c : Dev nD) (w : Fin cfg1.W) :
    (dat1 (U3 dat0 m) c).arrAt w cfg1.N = V4 m (runOuts dat0 dat1 m) c (Pipeline.arrRef spec1 w) :=
  match w with
  | 0 => ((dat1 (U3 dat0 m) c).arrAt_in 0 rfl _).trans ((A_eq1 (U3 dat0 m) c 0).trans
      ((V4_of m (runOuts dat0 dat1 m) c main_v6 (by decide)).trans (congrFun (runV3_eq dat0 dat1 m c) (Proc.devRef .tc main_v6))).symm)
  | 1 => ((dat1 (U3 dat0 m) c).arrAt_in 1 rfl _).trans ((A_eq1 (U3 dat0 m) c 1).trans
      ((V4_of m (runOuts dat0 dat1 m) c main_v6 (by decide)).trans (congrFun (runV3_eq dat0 dat1 m c) (Proc.devRef .tc main_v6))).symm)
  | 2 => ((dat1 (U3 dat0 m) c).arrAt_in 2 rfl _).trans ((A_eq1 (U3 dat0 m) c 2).trans
      ((V4_of m (runOuts dat0 dat1 m) c main_v6 (by decide)).trans (congrFun (runV3_eq dat0 dat1 m c) (Proc.devRef .tc main_v6))).symm)
  | 3 => by
    show (dat1 (U3 dat0 m) c).arrAt 3 cfg1.N
      = Function.update (V3 m (runOuts dat0 dat1 m) c) (Proc.devRef .tc main_v7) (runOuts dat0 dat1 m 4 main_v7 c) (Proc.devRef .tc main_v7)
    rw [Function.update_self, runOuts_v7]
  | ⟨_ + 4, h⟩ => absurd h (Nat.not_lt.2 (Nat.le_add_left _ _))

theorem run_hrest1 (c : Dev nD) : ∀ b, b ∉ Finset.univ.image (Pipeline.arrRef spec1) →
    V4 m (runOuts dat0 dat1 m) c b = U3 dat0 m c b :=
  fun b hb => (V4_of m (runOuts dat0 dat1 m) c b fun h =>
    hb (by rw [List.mem_singleton.mp h]; exact Finset.mem_image.mpr ⟨3, Finset.mem_univ _, rfl⟩)).trans
      (congrFun (runV3_eq dat0 dat1 m c) (Proc.devRef .tc b))

/-! ## The regions as segments -/

include A_eq0 hq0 hΦ0 howed0 hrec0 body0 in
set_option backward.isDefEq.respectTransparency.types false in
/-- Region 0: entered from every unscoped buffer at the contents after the first host stretch, left with its output array
    at what the pipeline wrote back and every other buffer as entered. -/
def reg0 : RegionSeg (pcfgs (F := F)) adm (runDats dat0 dat1 m) () defs₀ run𝒱 runL runLv 0 where
  win := launch0.win.to₀
  block_pos := launch0.block_pos
  stage_whole := launch0.stage_whole
  K := PEmpty
  osem k := k.elim
  ho := Pipeline.OwnSemFacts.none _
  hbody c := (body0 (U1 m) c).loose
  hwaits := Pipeline.hwaits_of_owed_zero _ _ _ _ runL runLv 0 fun c t => howed0 (U1 m) c t
  pre c := iprop(StableHlo.held (c : Thread nD τ) (Pipeline.ucRefs τ sig) (V1 m c) ∗ runE (F := F) 0 c)
  post c := iprop(StableHlo.held (c : Thread nD τ) (Pipeline.ucRefs τ sig) (V2 m (runOuts dat0 dat1 m) c) ∗ runE (F := F) 1 c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (runDats dat0 dat1 m) launch0.win launch0.arr_whole c
      ((runDats dat0 dat1 m 0 c).share_full fun w => hq0 (U1 m) c w) (U1 m c) fun w => A_eq0 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (runDats dat0 dat1 m 0 c).owed 0 = 0 from howed0 (U1 m) c 0]
      icases HO with ⟨%W, HO⟩; iexists W; isplitr
      · ipureintro; exact fun x _ => Or.inl (by rw [show (runDats dat0 dat1 m 0 c).recorded 0 = Set.univ from hrec0 (U1 m) c]; trivial)
      iexact HO
    isplitl [Hp]; · iexact Hp
    iexact Hrest
  hin c := by
    rw [show (runDats dat0 dat1 m 0 c).Φ 0 = Pipeline.ΦA spec0 c from hΦ0 (U1 m) c 0]; unfold Pipeline.ΦA
    iintro ⟨Hp, -, Hr⟩
    isplitl [Hr]; · iexact Hr
    iexact Hp
  hout c := by
    rw [Pipeline.ownSems0_none, show (runDats dat0 dat1 m 0 c).Φ (Fin.last _) = Pipeline.ΦA spec0 c from hΦ0 (U1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (runDats dat0 dat1 m) ((runDats dat0 dat1 m 0 c).share_full fun w => hq0 (U1 m) c w)
      (U1 m c) (fun b => V2 m (runOuts dat0 dat1 m) c b) ((runDats dat0 dat1 m 0 c).arrAt · cfg0.N) (run_hF0 dat0 A_eq0 dat1 m c) (run_hrest0 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (runDats dat0 dat1 m 0 c).owed (Fin.last _) = 0 from howed0 (U1 m) c _]
    icases HO with ⟨%W, -, HO⟩; iexists W; iexact HO

include A_eq1 howed1 hrec1 body1 hin1 hout1 hq1 in
set_option backward.isDefEq.respectTransparency.types false in
/-- Region 1: entered from every unscoped buffer at the contents after the second host stretch, left with its output array
    at what the pipeline wrote back and every other buffer as entered. Its three input windows read one array. -/
def reg1 : RegionSeg (pcfgs (F := F)) adm (runDats dat0 dat1 m) () defs₀ run𝒱 runL runLv 1 where
  win := winFacts₀1
  block_pos := block_pos1
  stage_whole := stage_whole1
  K := PEmpty
  osem k := k.elim
  ho := Pipeline.OwnSemFacts.none _
  hbody c := (body1 (U3 dat0 m) c).loose
  hwaits := Pipeline.hwaits_of_owed_zero _ _ _ _ runL runLv 1 fun c t => howed1 (U3 dat0 m) c t
  pre c := iprop(StableHlo.held (c : Thread nD τ) (Pipeline.ucRefs τ sig) (V3 m (runOuts dat0 dat1 m) c) ∗ runE (F := F) 1 c)
  post c := iprop(StableHlo.held (c : Thread nD τ) (Pipeline.ucRefs τ sig) (V4 m (runOuts dat0 dat1 m) c) ∗ runE (F := F) 2 c)
  X c := iprop(∃ r, prngReg c r)
  Y c := iprop(∃ r, prngReg c r)
  Z c := Pipeline.unscopedRest (Ix := Unit) (Name := ℕ) (U := UR sig nD τ) (Lvl := ℕ) spec1 c (U3 dat0 m c)
  hentry c := by
    rw [Pipeline.ownSems0_none]
    have hsplit := run_arrays1_of_unscopedBufs (runDats dat0 dat1 m 1 c) (hq1 (U3 dat0 m) c) (U3 dat0 m c)
      ((runDats dat0 dat1 m 1 c).arrAt · 0) (fun w => A_eq1 (U3 dat0 m) c w)
    rw [show (unscopedBufs c (U3 dat0 m c) : sProp 𝕄) = StableHlo.held (c : Thread nD τ) (Pipeline.ucRefs τ sig) (runW3 dat0 m c)
          from Pipeline.unscopedBufs_held c (runW3 dat0 m c), ← runV3_eq dat0 dat1 m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (runDats dat0 dat1 m 1 c).owed 0 = 0 from howed1 (U3 dat0 m) c 0]
      icases HO with ⟨%W, HO⟩; iexists W; isplitr
      · ipureintro; exact fun x _ => Or.inl (by rw [show (runDats dat0 dat1 m 1 c).recorded 0 = Set.univ from hrec1 (U3 dat0 m) c]; trivial)
      iexact HO
    isplitl [Hp]; · iexact Hp
    iexact Hrest
  hin c := by
    refine BIBase.Entails.trans ?_ (hin1 (U3 dat0 m) c)
    unfold Pipeline.ΦA
    iintro ⟨Hp, -, Hr⟩
    isplitl [Hr]; · iexact Hr
    iexact Hp
  hout c := by
    rw [Pipeline.ownSems0_none]
    refine BIBase.Entails.trans (hout1 (U3 dat0 m) c) ?_
    unfold Pipeline.ΦA
    iintro ⟨Hr, Hp⟩
    isplitl [Hp]; · iexact Hp
    isplitr; · iempintro
    iexact Hr
  hexit c := by
    have hjoin := run_unscopedBufs_of_arrays1 (runDats dat0 dat1 m 1 c) (hq1 (U3 dat0 m) c) (U3 dat0 m c)
      ((runDats dat0 dat1 m 1 c).arrAt · cfg1.N) (fun b => V4 m (runOuts dat0 dat1 m) c b) (run_hF1 dat0 dat1 A_eq1 m c) (run_hrest1 dat0 dat1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (runDats dat0 dat1 m 1 c).owed (Fin.last _) = 0 from howed1 (U3 dat0 m) c _]
    icases HO with ⟨%W, -, HO⟩; iexists W; iexact HO

/-! ## The launch -/

include A_eq0 hq0 hΦ0 howed0 hrec0 body0 A_eq1 howed1 hrec1 body1 hin1 hout1 hq1 in
set_option backward.isDefEq.respectTransparency.types false in
/-- From any memory with zero counters every weakly fair execution of @main terminates, and every final memory holds,
    on every core, the result's buffer at what region 1's pipeline leaves in its output array and every argument as
    launched. -/
theorem run_of (ρ : Dev nD → PrngReg) :
    θ_run defs (onTc (τ := τ) (main (F := F))) ⟨m, fun _ => 0, ρ⟩ (fun r => ∀ c : Dev nD,
      r.2.mem ((c.tc : Thread nD τ).loc main_v7) = (dat1 (U3 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (runDats dat0 dat1 m) () cellOf_inj emb₁ defs₀ run𝒱 runL runLv m ρ main
    (segs m (runOuts dat0 dat1 m) run𝒱 runL runLv (runE (F := F)) () (runDats dat0 dat1 m)
      (reg0 dat0 A_eq0 hq0 hΦ0 howed0 hrec0 body0 dat1 m) (reg1 dat0 dat1 A_eq1 howed1 hrec1 body1 hin1 hout1 hq1 m))
    (fun c Q => by
      rewrite [main_chain c, Seg.run_eq_chain,
        show (segs m (runOuts dat0 dat1 m) run𝒱 runL runLv (runE (F := F)) () (runDats dat0 dat1 m)
            (reg0 dat0 A_eq0 hq0 hΦ0 howed0 hrec0 body0 dat1 m) (reg1 dat0 dat1 A_eq1 howed1 hrec1 body1 hin1 hout1 hq1 m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ runE (F := F) 0 c))
    (Tₙ := fun c => iprop(StableHlo.held (c : Thread nD τ) (Pipeline.ucRefs τ sig) (V4 m (runOuts dat0 dat1 m) c) ∗ ∃ r, prngReg c r))
    (hch := fun c => ⟨.rfl, .rfl, .rfl, .rfl, by
      show iprop(StableHlo.held (c : Thread nD τ) (Pipeline.ucRefs τ sig) (V4 m (runOuts dat0 dat1 m) c) ∗ runE (F := F) 2 c)
        ⊢ iprop((StableHlo.held (c : Thread nD τ) (Pipeline.ucRefs τ sig) (V4 m (runOuts dat0 dat1 m) c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach runL runLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v7) = (dat1 (U3 dat0 m) c).arrAt 3 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_) (hQ := fun _ h => h)
  -- the end: each buffer read off the last valuation
  unfold StableHlo.held
  iintro ⟨⟨Hh, -⟩, HSI⟩
  ihave Hr := (pointsTo_read_all (Pipeline.ucRefs τ sig) (fun b => ((c : Thread nD τ).1, b)) (V4 m (runOuts dat0 dat1 m) c) s') $$ [Hh HSI]
  · isplitl [Hh] <;> iassumption
  icases Hr with ⟨%h, HSI⟩
  imodintro
  isplitr
  · ipureintro
    exact ⟨(h (Proc.devRef .tc main_v7) (Finset.mem_filter.mpr ⟨StableHlo.devRef_mem_tcRefs main_v7, by decide⟩)).trans
        ((Function.update_self _ _ _).trans (runOuts_v7 dat0 dat1 m 4 c)),
      (h (Proc.devRef .tc main_arg0) (Finset.mem_filter.mpr ⟨StableHlo.devRef_mem_tcRefs main_arg0, by decide⟩)).trans (V4_main_arg0 m (runOuts dat0 dat1 m) c),
      (h (Proc.devRef .tc main_arg1) (Finset.mem_filter.mpr ⟨StableHlo.devRef_mem_tcRefs main_arg1, by decide⟩)).trans (V4_main_arg1 m (runOuts dat0 dat1 m) c),
      (h (Proc.devRef .tc main_arg2) (Finset.mem_filter.mpr ⟨StableHlo.devRef_mem_tcRefs main_arg2, by decide⟩)).trans (V4_main_arg2 m (runOuts dat0 dat1 m) c),
      (h (Proc.devRef .tc main_arg3) (Finset.mem_filter.mpr ⟨StableHlo.devRef_mem_tcRefs main_arg3, by decide⟩)).trans (V4_main_arg3 m (runOuts dat0 dat1 m) c),
      (h (Proc.devRef .tc main_arg4) (Finset.mem_filter.mpr ⟨StableHlo.devRef_mem_tcRefs main_arg4, by decide⟩)).trans (V4_main_arg4 m (runOuts dat0 dat1 m) c),
      (h (Proc.devRef .tc main_arg5) (Finset.mem_filter.mpr ⟨StableHlo.devRef_mem_tcRefs main_arg5, by decide⟩)).trans (V4_main_arg5 m (runOuts dat0 dat1 m) c),
      (h (Proc.devRef .tc main_arg6) (Finset.mem_filter.mpr ⟨StableHlo.devRef_mem_tcRefs main_arg6, by decide⟩)).trans (V4_main_arg6 m (runOuts dat0 dat1 m) c)⟩
  · iexact HSI

end Run

end Cert.Kernel.Run

end
-- ==== Proof.K.RunInst.lean ====
/-
  The run of @main at the two regions' proof data: every weakly fair execution terminates, the result's buffer holds what
  the second region's pipeline leaves in its output array, and every argument is as launched.
-/
import proofs.«104284_j31817117729495_2_alg».proof.Proof.K.R0
import proofs.«104284_j31817117729495_2_alg».proof.Proof.K.R1
import proofs.«104284_j31817117729495_2_alg».proof.Proof.K.Run

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- From any memory with zero counters every weakly fair execution of @main terminates, and every final memory holds,
    on every core, the result's buffer at what region 1's pipeline leaves in its output array — entered from the
    contents `U3 dat0 m`, region 0's output array reshaped — and every argument as launched. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v7) = (dat1 (U3 dat0 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of dat0 A_eq0 (fun _ _ _ => rfl) (fun _ _ _ => rfl) (fun _ _ _ => rfl) (fun _ _ => rfl) body_obligation0
    dat1 A_eq1 (fun _ _ _ => rfl) (fun _ _ => rfl) body_obligation1 hin1 hout1 (fun _ _ => rfl) m ρ

end Cert.Kernel.Run

end
-- ==== Proof.KI.R0Value.lean ====
/- The projection kernel's output array as ONE function of the arrays it is entered with, on the extended reals:
   entry (r, j) of the [16384, 3072] result is Σ_d X[r, d] · Wc[d, j] + Bc[0, j] — the rows block times the whole
   weight plus the bias row, the format changes being the identity. Row r is written by grid point r / 512, whose
   block is rows 512·(r / 512) … + 511; the 32 blocks tile the array. Then the arrays the host operations before
   the region write are read at an index: x reshaped [8, 2048, 1024] → [16384, 1024] (row b·2048 + n is (b, n)), the
   three weights laid side by side along the columns (column sel·1024 + h of the whole weight is column h of weight
   sel), the three biases end to end, so that the result's entry (b·2048 + n, sel·1024 + h) is projection sel of x at
   (b, n, h). -/
import proofs.«104284_j31817117729495_2_alg».proof.Proof.KI.R0
import proofs.«104284_j31817117729495_2_alg».proof.Proof.AttSpec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

/-! ## The body's arithmetic at an index -/

theorem lhs0_0 (i : S512x3072.Idx) (k : dot_S512x1024_S1024x3072_S512x3072_1_0_0_1_n_n.contr.Idx) :
    (dot_S512x1024_S1024x3072_S512x3072_1_0_0_1_n_n.lhsIdx i k 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs0_1 (i : S512x3072.Idx) (k : dot_S512x1024_S1024x3072_S512x3072_1_0_0_1_n_n.contr.Idx) :
    (dot_S512x1024_S1024x3072_S512x3072_1_0_0_1_n_n.lhsIdx i k 1).val = (k ⟨0, by decide⟩).val :=
  dot_S512x1024_S1024x3072_S512x3072_1_0_0_1_n_n.lhsIdx_val_of_single rfl i k
theorem rhs0_0 (i : S512x3072.Idx) (k : dot_S512x1024_S1024x3072_S512x3072_1_0_0_1_n_n.contr.Idx) :
    (dot_S512x1024_S1024x3072_S512x3072_1_0_0_1_n_n.rhsIdx i k 0).val = (k ⟨0, by decide⟩).val :=
  dot_S512x1024_S1024x3072_S512x3072_1_0_0_1_n_n.rhsIdx_val_of_single rfl i k
theorem rhs0_1 (i : S512x3072.Idx) (k : dot_S512x1024_S1024x3072_S512x3072_1_0_0_1_n_n.contr.Idx) :
    (dot_S512x1024_S1024x3072_S512x3072_1_0_0_1_n_n.rhsIdx i k 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The projection's matrix product into a zero accumulator, read at row p and column q: the sum over the 1024
    contracted features of the products. -/
theorem matmul0_apply (lhs : FVec Ideal S512x1024 .bf16) (rhs : FVec Ideal S1024x3072 .bf16) (p : Fin 512) (q : Fin 3072) :
    matmul (F := Ideal) dot_S512x1024_S1024x3072_S512x3072_1_0_0_1_n_n none lhs rhs (constant S512x3072 .f32 0x00000000#32) (ix2 p q)
      = ∑ d : Fin 1024, lhs (ix2 p d) * rhs (ix2 d q) := by
  refine (Ideal.matmul_constant_zero_apply dot_S512x1024_S1024x3072_S512x3072_1_0_0_1_n_n none lhs rhs (ix2 p q)).trans ?_
  rw [← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p q) ((ValueIdx.contrEquiv1 dot_S512x1024_S1024x3072_S512x3072_1_0_0_1_n_n 1024 rfl rfl).symm k) = ix2 p k := funext fun a => Fin.ext (by
    match a with
    | ⟨0, _⟩ => exact lhs0_0 _ _
    | ⟨1, _⟩ => exact (lhs0_1 _ _).trans hk)
  have er : dot_S512x1024_S1024x3072_S512x3072_1_0_0_1_n_n.rhsIdx (ix2 p q) ((ValueIdx.contrEquiv1 dot_S512x1024_S1024x3072_S512x3072_1_0_0_1_n_n 1024 rfl rfl).symm k) = ix2 k q := funext fun a => Fin.ext (by
    match a with
    | ⟨0, _⟩ => exact (rhs0_0 _ _).trans hk
    | ⟨1, _⟩ => exact rhs0_1 _ _)
  rw [el, er]

/-- The bias row broadcast over the 512 rows, read at (p, q): the bias at column q. -/
theorem bias0_apply (v : FVec Ideal S1x3072 .f32) (p : Fin 512) (q : Fin 3072) :
    broadcastTo S512x3072 v broadcasts_S1x3072_S512x3072 (ix2 p q) = v (ix2 0 q) :=
  broadcastTo_apply v broadcasts_S1x3072_S512x3072 (ix2 p q) (ix2 0 q) (fun a => match a with
    | ⟨0, _⟩ => by show (0 : Nat) = if (1 : Nat) = 1 then 0 else p.val; rw [if_pos rfl]
    | ⟨1, _⟩ => by show q.val = if (3072 : Nat) = 1 then 0 else q.val; rw [if_neg (by decide)])

/-- The body's arithmetic at (p, q): the rows block times the weight, plus the bias row; the format changes are the
    identity on the extended reals. -/
theorem pay0_apply (x0 : Vec Ideal S512x1024 .f32) (x1 : Vec Ideal S1024x3072 .bf16) (x2 : Vec Ideal S1x3072 .f32) (p : Fin 512) (q : Fin 3072) :
    k0_pay1 (F := Ideal) x0 x1 x2 (ix2 p q) = (∑ d : Fin 1024, x0 (ix2 p d) * x1 (ix2 d q)) + x2 (ix2 0 q) := by
  unfold k0_pay1
  rw [shapeCast_self, shapeCast_self, shapeCast_self]
  show matmul (F := Ideal) dot_S512x1024_S1024x3072_S512x3072_1_0_0_1_n_n none (fun i => x0 i) x1 (constant S512x3072 .f32 0x00000000#32) (ix2 p q) + broadcastTo S512x3072 x2 broadcasts_S1x3072_S512x3072 (ix2 p q) = _
  rw [matmul0_apply, bias0_apply]

/-! ## The result as one function of the entry arrays -/

theorem hz0 : (![0, 0] : Fin 2 → Nat) = fun _ => 0 := funext fun a => by fin_cases a <;> rfl

/-- The projection of every row: entry (r, j) is Σ_d X[r, d] · Wc[d, j] + Bc[0, j]. -/
def G0 (X : S16384x1024.Idx → EReal) (Wc : S1024x3072.Idx → EReal) (Bc : S1x3072.Idx → EReal) : S16384x3072.Idx → EReal :=
  fun i => (∑ d : Fin 1024, X (ix2 (i 0) d) * Wc (ix2 d (i 1))) + Bc (ix2 0 (i 1))

theorem G0_ix2 (X : S16384x1024.Idx → EReal) (Wc : S1024x3072.Idx → EReal) (Bc : S1x3072.Idx → EReal) (r : Fin 16384) (q : Fin 3072) :
    G0 X Wc Bc (ix2 r q) = (∑ d : Fin 1024, X (ix2 r d) * Wc (ix2 d q)) + Bc (ix2 0 q) := rfl

/-- One point's block of the body's arithmetic is the same block of G0: if the rows block x0 is rows 512·r … of X and
    the other two blocks are the whole weight and the whole bias, the payload at j is G0 at the index 512·r rows below. -/
theorem blk0_point (x0 : Vec Ideal S512x1024 .f32) (x1 : Vec Ideal S1024x3072 .bf16) (x2 : Vec Ideal S1x3072 .f32)
    (X : S16384x1024.Idx → EReal) (Wc : S1024x3072.Idx → EReal) (Bc : S1x3072.Idx → EReal) (r : ℕ)
    (h0 : ∀ (x : S512x1024.Idx) (k : S16384x1024.Idx), (k 0).val = 512 * r + (x 0).val → (k 1).val = (x 1).val → x0 x = X k)
    (h1 : ∀ k, x1 k = Wc k) (h2 : ∀ k, x2 k = Bc k)
    (j : S512x3072.Idx) (i : S16384x3072.Idx) (hi0 : (i 0).val = 512 * r + (j 0).val) (hi1 : (i 1).val = (j 1).val) :
    k0_pay1 (F := Ideal) x0 x1 x2 j = G0 X Wc Bc i := by
  obtain ⟨p, q, rfl⟩ : ∃ (p : Fin 512) (q : Fin 3072), j = ix2 p q := ⟨j 0, j 1, eq_ix2 j⟩
  obtain ⟨r', q', rfl⟩ : ∃ (r' : Fin 16384) (q' : Fin 3072), i = ix2 r' q' := ⟨i 0, i 1, eq_ix2 i⟩
  have hq : q' = q := Fin.ext hi1
  subst hq
  rw [pay0_apply, G0_ix2, h2]
  congr 1
  refine Finset.sum_congr rfl fun d _ => ?_
  rw [h0 (ix2 p d) (ix2 r' d) hi0 rfl, h1]

/-! ## The printed index maps over the grid -/

/-- The rows block and the output block move with the point; the weight and the bias stay at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows block at point t is rows 512·t … 512·t + 511 of the x array. -/
theorem iblk0_0_apply (V : VT Ideal) (c : Dev nD) (t : Fin cfg0.N) (x : S512x1024.Idx) (k : S16384x1024.Idx)
    (hk0 : (k 0).val = 512 * t.val + (x 0).val) (hk1 : (k 1).val = (x 1).val) :
    (iblk0 V c 0 t : Vec Ideal S512x1024 .f32) x = (V c main_v4 : S16384x1024.Idx → EReal) k := by
  obtain ⟨e0, e1, -⟩ := idx_facts0 t
  unfold iblk0
  rw [View.read_apply]
  show V c main_v4 _ = V c main_v4 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The weight's block at every point is the whole weight. -/
theorem iblk0_1_apply (V : VT Ideal) (c : Dev nD) (t : Fin cfg0.N) (x : S1024x3072.Idx) :
    (iblk0 V c 1 t : Vec Ideal S1024x3072 .bf16) x = (V c main_v1 : S1024x3072.Idx → EReal) x := by
  obtain ⟨-, -, e2, e3, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; rw [e2]; omega
  | ⟨1, _⟩ => show win0_1.index t (1 : Fin 2) * 3072 + 1 * (x 1).val = (x 1).val; rw [e3]; omega

/-- The bias's block at every point is the whole bias row. -/
theorem iblk0_2_apply (V : VT Ideal) (c : Dev nD) (t : Fin cfg0.N) (x : S1x3072.Idx) :
    (iblk0 V c 2 t : Vec Ideal S1x3072 .f32) x = (V c main_v3 : S1x3072.Idx → EReal) x := by
  obtain ⟨-, -, -, -, e4, e5, -⟩ := idx_facts0 t
  unfold iblk0
  rw [View.read_apply]
  show V c main_v3 _ = V c main_v3 _
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 3072 + 1 * (x 1).val = (x 1).val; rw [e5]; omega

/-! ## From blocks to the array -/

/-- What point t writes back is block t of G0 of the entry arrays. -/
theorem flushed0_eq (V : VT Ideal) (c : Dev nD) (t : Fin cfg0.N) :
    (dat0 V c).flushed 3 t = ((cfg0.win 3).blk t).view.read (Elt Ideal) (G0 (V c main_v4) (V c main_v1) (V c main_v3)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x3072) hz0, View.ld_unit_zero (S := S1x3072) hz0]
  obtain ⟨-, -, -, -, -, -, e6, e7⟩ := idx_facts0 t
  funext j
  show k0_pay1 (F := Ideal) (iblk0 V c 0 t) (iblk0 V c 1 t) (iblk0 V c 2 t) j = G0 (V c main_v4) (V c main_v1) (V c main_v3) (((cfg0.win 3).blk t).view.emb j)
  refine blk0_point (iblk0 V c 0 t) (iblk0 V c 1 t) (iblk0 V c 2 t) (V c main_v4) (V c main_v1) (V c main_v3) t.val
    (fun x k hk0 hk1 => iblk0_0_apply V c t x k hk0 hk1) (fun k => iblk0_1_apply V c t k) (fun k => iblk0_2_apply V c t k) j _ ?_ ?_
  · show win0_3.index t (0 : Fin 2) * 512 + 1 * (j 0).val = 512 * t.val + (j 0).val; rw [e6]; omega
  · show win0_3.index t (1 : Fin 2) * 3072 + 1 * (j 1).val = (j 1).val; rw [e7]; omega

/-- An index of the array is in point t's block iff each coordinate is in the block's range on its axis. -/
theorem mem_blk0 (t : Fin cfg0.N) (i : S16384x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Row r of the array is in the block of point r / 512, which writes it back. -/
theorem cover0 (i : S16384x3072.Idx) : ∃ t : Fin cfg0.N, (cfg0.win 3).flush t = true ∧ i ∈ ((cfg0.win 3).blk t).view.set := by
  have hi0 : (i 0).val < 16384 := (i 0).isLt
  have hi1 : (i 1).val < 3072 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 3072 ≤ (i 1).val ∧ (i 1).val < win0_3.index t (1 : Fin 2) * 3072 + 3072; rw [e7]; omega

/-- THE ARRAY after the region: the projection of every row of the entry arrays. -/
theorem final0 (V : VT Ideal) (c : Dev nD) :
    (dat0 (F := Ideal) V c).arrAt 3 cfg0.N = G0 (V c main_v4) (V c main_v1) (V c main_v3) :=
  (dat0 V c).arrAt_eq_of_cover 3 (G0 (V c main_v4) (V c main_v1) (V c main_v3)) (fun t _ => flushed0_eq V c t) cover0

/-! ## The arrays the host operations before the region write, read at an index -/

section Host

variable (m : (ℓ : Loc nD τ sig) → Buf (Elt Ideal) ℓ)

/-- The x array at the region's entry: the argument reshaped [8, 2048, 1024] → [16384, 1024]. -/
theorem V1_v4 (c : Dev nD) : (V1 (F := Ideal) m c main_v4 : S16384x1024.Idx → EReal)
    = shapeCast S16384x1024 (m ((c : Thread nD τ).loc main_arg0) : S8x2048x1024.Idx → EReal) shapeCasts_S8x2048x1024_S16384x1024 := by
  dsimp only [V1, V0, hostOps0]
  after_results
  rfl

/-- The weight at the region's entry: the three weights side by side along the columns (the conversion is the identity). -/
theorem V1_v1 (c : Dev nD) : (V1 (F := Ideal) m c main_v1 : S1024x3072.Idx → EReal)
    = concatenate S1024x3072 1 [⟨S1024x1024, (m ((c : Thread nD τ).loc main_arg1) : S1024x1024.Idx → EReal)⟩, ⟨S1024x1024, (m ((c : Thread nD τ).loc main_arg3) : S1024x1024.Idx → EReal)⟩, ⟨S1024x1024, (m ((c : Thread nD τ).loc main_arg5) : S1024x1024.Idx → EReal)⟩] concatenates_S1024x1024_S1024x1024_S1024x1024_S1024x3072_d1 := by
  dsimp only [V1, V0, hostOps0]
  after_results
  rfl

/-- The bias at the region's entry: the three biases end to end, as one row. -/
theorem V1_v3 (c : Dev nD) : (V1 (F := Ideal) m c main_v3 : S1x3072.Idx → EReal)
    = shapeCast S1x3072 (concatenate S3072 0 [⟨S1024, (m ((c : Thread nD τ).loc main_arg2) : S1024.Idx → EReal)⟩, ⟨S1024, (m ((c : Thread nD τ).loc main_arg4) : S1024.Idx → EReal)⟩, ⟨S1024, (m ((c : Thread nD τ).loc main_arg6) : S1024.Idx → EReal)⟩] concatenates_S1024_S1024_S1024_S3072_d0) shapeCasts_S3072_S1x3072 := by
  dsimp only [V1, V0, hostOps0]
  after_results
  rfl

/-- Row b·2048 + n of the reshaped x is position (b, n). -/
theorem x0_read (x : S8x2048x1024.Idx → EReal) (b : Fin 8) (n : Fin 2048) (d : Fin 1024) (hr : b.val * 2048 + n.val < 16384) :
    shapeCast S16384x1024 x shapeCasts_S8x2048x1024_S16384x1024 (ix2 ⟨b.val * 2048 + n.val, hr⟩ d) = x (ix3 b n d) := by
  refine shapeCast_apply x _ _ (ix3 b n d) ?_
  rw [Shape.rowMajor_val_three, Shape.rowMajor_val_two]
  rfl

/-- Column k·1024 + h of the three weights side by side is column h of weight k. -/
theorem w0_read (W0 W1 W2 Wk : S1024x1024.Idx → EReal) (k : ℕ) (hk : k < 3)
    (hxk : ([⟨S1024x1024, W0⟩, ⟨S1024x1024, W1⟩, ⟨S1024x1024, W2⟩] : List ((s : Shape) × (s.Idx → EReal)))[k]'hk = ⟨S1024x1024, Wk⟩)
    (d h : Fin 1024) (hc : k * 1024 + h.val < 3072) :
    concatenate S1024x3072 1 [⟨S1024x1024, W0⟩, ⟨S1024x1024, W1⟩, ⟨S1024x1024, W2⟩] concatenates_S1024x1024_S1024x1024_S1024x1024_S1024x3072_d1 (ix2 d ⟨k * 1024 + h.val, hc⟩) = Wk (ix2 d h) := by
  refine concatenate_apply_piece (1 : Fin S1024x3072.rank) [⟨S1024x1024, W0⟩, ⟨S1024x1024, W1⟩, ⟨S1024x1024, W2⟩] concatenates_S1024x1024_S1024x1024_S1024x1024_S1024x3072_d1 _ k hk S1024x1024 Wk hxk rfl (k * 1024) ?_ (ix2 d h) (fun b hb => ?_) rfl
  · rcases k with _ | _ | _ | k
    · rfl
    · rfl
    · rfl
    · omega
  · match b, hb with
    | ⟨0, _⟩, _ => rfl
    | ⟨1, _⟩, hb => exact absurd rfl hb

/-- Entry k·1024 + h of the three biases end to end, as a row, is entry h of bias k. -/
theorem b0_read (B0 B1 B2 Bk : S1024.Idx → EReal) (k : ℕ) (hk : k < 3)
    (hxk : ([⟨S1024, B0⟩, ⟨S1024, B1⟩, ⟨S1024, B2⟩] : List ((s : Shape) × (s.Idx → EReal)))[k]'hk = ⟨S1024, Bk⟩)
    (h : Fin 1024) (hc : k * 1024 + h.val < 3072) :
    shapeCast S1x3072 (concatenate S3072 0 [⟨S1024, B0⟩, ⟨S1024, B1⟩, ⟨S1024, B2⟩] concatenates_S1024_S1024_S1024_S3072_d0) shapeCasts_S3072_S1x3072 (ix2 0 ⟨k * 1024 + h.val, hc⟩) = Bk (ix1 h) := by
  refine (shapeCast_apply _ shapeCasts_S3072_S1x3072 _ (ix1 ⟨k * 1024 + h.val, hc⟩) ?_).trans ?_
  · rw [Shape.rowMajor_val_one, Shape.rowMajor_val_two]
    show k * 1024 + h.val = 0 * 3072 + (k * 1024 + h.val)
    omega
  refine concatenate_apply_piece (0 : Fin S3072.rank) [⟨S1024, B0⟩, ⟨S1024, B1⟩, ⟨S1024, B2⟩] concatenates_S1024_S1024_S1024_S3072_d0 _ k hk S1024 Bk hxk rfl (k * 1024) ?_ (ix1 h) (fun b hb => ?_) rfl
  · rcases k with _ | _ | _ | k
    · rfl
    · rfl
    · rfl
    · omega
  · match b, hb with
    | ⟨0, _⟩, hb => exact absurd rfl hb

/-- The result's entry (b·2048 + n, k·1024 + h) is the projection by weight k and bias k of x at (b, n, h), for the
    entry arrays the host operations make of the arguments. -/
theorem qkv0_of (c : Dev nD) (k : ℕ) (hk : k < 3) (Wk : S1024x1024.Idx → EReal) (Bk : S1024.Idx → EReal)
    (hW : ([⟨S1024x1024, (m ((c : Thread nD τ).loc main_arg1) : S1024x1024.Idx → EReal)⟩, ⟨S1024x1024, (m ((c : Thread nD τ).loc main_arg3) : S1024x1024.Idx → EReal)⟩, ⟨S1024x1024, (m ((c : Thread nD τ).loc main_arg5) : S1024x1024.Idx → EReal)⟩] : List ((s : Shape) × (s.Idx → EReal)))[k]'hk = ⟨S1024x1024, Wk⟩)
    (hB : ([⟨S1024, (m ((c : Thread nD τ).loc main_arg2) : S1024.Idx → EReal)⟩, ⟨S1024, (m ((c : Thread nD τ).loc main_arg4) : S1024.Idx → EReal)⟩, ⟨S1024, (m ((c : Thread nD τ).loc main_arg6) : S1024.Idx → EReal)⟩] : List ((s : Shape) × (s.Idx → EReal)))[k]'hk = ⟨S1024, Bk⟩)
    (b : Fin 8) (n : Fin 2048) (h : Fin 1024) (hr : b.val * 2048 + n.val < 16384) (hc : k * 1024 + h.val < 3072) :
    (dat0 (F := Ideal) (fun c r => V1 m c r) c).arrAt 3 cfg0.N (ix2 ⟨b.val * 2048 + n.val, hr⟩ ⟨k * 1024 + h.val, hc⟩)
      = Cert.Att.proj (m ((c : Thread nD τ).loc main_arg0)) Wk Bk b n h := by
  rw [final0, G0_ix2]
  unfold Cert.Att.proj
  beta_reduce
  rw [V1_v4, V1_v1, V1_v3, b0_read _ _ _ Bk k hk hB h hc]
  congr 1
  refine Finset.sum_congr rfl fun d _ => ?_
  rw [x0_read, w0_read _ _ _ Wk k hk hW d h hc]

/-- Columns 0 … 1023: the query projection. -/
theorem qkv_eq_q (c : Dev nD) (b : Fin 8) (n : Fin 2048) (h : Fin 1024) (hr : b.val * 2048 + n.val < 16384) (hc : 0 * 1024 + h.val < 3072) :
    (dat0 (F := Ideal) (fun c r => V1 m c r) c).arrAt 3 cfg0.N (ix2 ⟨b.val * 2048 + n.val, hr⟩ ⟨0 * 1024 + h.val, hc⟩)
      = Cert.Att.proj (m ((c : Thread nD τ).loc main_arg0)) (m ((c : Thread nD τ).loc main_arg1)) (m ((c : Thread nD τ).loc main_arg2)) b n h :=
  qkv0_of m c 0 (by decide) _ _ rfl rfl b n h hr hc
/-- Columns 1024 … 2047: the key projection. -/
theorem qkv_eq_k (c : Dev nD) (b : Fin 8) (n : Fin 2048) (h : Fin 1024) (hr : b.val * 2048 + n.val < 16384) (hc : 1 * 1024 + h.val < 3072) :
    (dat0 (F := Ideal) (fun c r => V1 m c r) c).arrAt 3 cfg0.N (ix2 ⟨b.val * 2048 + n.val, hr⟩ ⟨1 * 1024 + h.val, hc⟩)
      = Cert.Att.proj (m ((c : Thread nD τ).loc main_arg0)) (m ((c : Thread nD τ).loc main_arg3)) (m ((c : Thread nD τ).loc main_arg4)) b n h :=
  qkv0_of m c 1 (by decide) _ _ rfl rfl b n h hr hc
/-- Columns 2048 … 3071: the value projection. -/
theorem qkv_eq_v (c : Dev nD) (b : Fin 8) (n : Fin 2048) (h : Fin 1024) (hr : b.val * 2048 + n.val < 16384) (hc : 2 * 1024 + h.val < 3072) :
    (dat0 (F := Ideal) (fun c r => V1 m c r) c).arrAt 3 cfg0.N (ix2 ⟨b.val * 2048 + n.val, hr⟩ ⟨2 * 1024 + h.val, hc⟩)
      = Cert.Att.proj (m ((c : Thread nD τ).loc main_arg0)) (m ((c : Thread nD τ).loc main_arg5)) (m ((c : Thread nD τ).loc main_arg6)) b n h :=
  qkv0_of m c 2 (by decide) _ _ rfl rfl b n h hr hc

end Host

end Cert.KernelIdeal.Run

end
-- ==== Proof.AttFinite.lean ====
/-
  The projections of finite arrays are finite: a sum of products of real numbers plus a real number, read in the extended
  reals, is a real number.
-/
import proofs.«104284_j31817117729495_2_alg».proof.Proof.AttSpec
import proofs.«104284_j31817117729495_2_alg».proof.Proof.LibOnlineSoftmax

noncomputable section

namespace Cert.Att

open Idealize.ShloMosaic Idealize.ShloMosaic.ValueIdx

theorem proj_real {x : SX.Idx → EReal} {W : SW.Idx → EReal} {bias : SB.Idx → EReal}
    (hx : ∀ i, ∃ r : ℝ, x i = (r : EReal)) (hW : ∀ i, ∃ r : ℝ, W i = (r : EReal)) (hb : ∀ i, ∃ r : ℝ, bias i = (r : EReal))
    (b : Fin 8) (n : Fin 2048) (h : Fin 1024) : ∃ r : ℝ, proj x W bias b n h = (r : EReal) := by
  choose fx hfx using hx
  choose fW hfW using hW
  choose fb hfb using hb
  refine ⟨(∑ d : Fin 1024, fx (ix3 b n d) * fW (ix2 d h)) + fb (ix1 h), ?_⟩
  unfold proj
  rw [EReal.coe_add, LibOnlineSoftmax.coe_sum]
  congr 1
  · exact Finset.sum_congr rfl fun d _ => by rw [hfx, hfW, EReal.coe_mul]
  · exact hfb _

end Cert.Att

end
-- ==== Proof.KI.R1Blocks.lean ====
/-
  The attention region's blocks as pieces of its arrays.

  The region's grid has 128 points; point t is batch t / 16, query block t / 4 % 4, key block t % 4. Every window's block
  is 1 × 512 × 1024. The three input windows read one array of shape 8 × 2048 × 3072 whose last axis holds the query,
  key and value features side by side: window 0 reads the query rows of the point's query block (column block 0),
  windows 1 and 2 the key and value rows of key block min(key block, query block) (column blocks 1 and 2). The output
  window writes the rows of the point's query block of an 8 × 2048 × 1024 array. An element of a block sits in its array,
  on each axis, at block index × block size + its coordinate inside the block.

  Also here: the reshape between the two regions read at an index (row b · 2048 + n of the 16384-row result is row n of
  batch b), and the output array assembled from its blocks: the 32 points of key block 3 write back, their blocks tile
  the 8 × 2048 × 1024 array, so the array ends holding any function whose rows each of those points leaves in its block.
-/
import proofs.«104284_j31817117729495_2_alg».proof.Proof.KI.R1Runs
import Idealize.ShloMosaic.Lib.Pipeline.Value
import Idealize.ShloMosaic.Lib.ValueIdx

noncomputable section

namespace Cert.KernelIdeal.Run

open Cert.KernelIdeal Cert.KernelIdeal.Gen
open Idealize.ShloMosaic Idealize.ShloMosaic.TcCoe Idealize.ShloMosaic.ValueIdx Idealize.SL.Sem
open Idealize.SL Idealize.SL.RA Idealize.SL.BI
open Idealize.ShloMosaic.Rounds
open Idealize.ShloMosaic.Pipeline (Dat)

variable {F : FTy → Type} [FloatOps F] [Named F]

/-- The grid has 128 points. -/
theorem lt128 (t : Fin cfg1.N) : t.val < 128 := lt_of_lt_of_eq t.isLt N_1

/-- The four index maps, decided once over the grid: batch, row block, column block of each window's block at point t. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4)
      ∧ win1_1.index t (2 : Fin 3) = 1
    ∧ win1_2.index t (0 : Fin 3) = t.val / 16 ∧ win1_2.index t (1 : Fin 3) = min (t.val % 4) (t.val / 4 % 4)
      ∧ win1_2.index t (2 : Fin 3) = 2
    ∧ win1_3.index t (0 : Fin 3) = t.val / 16 ∧ win1_3.index t (1 : Fin 3) = t.val / 4 % 4 ∧ win1_3.index t (2 : Fin 3) = 0 :=
  (by decide +kernel : ∀ t : Fin grid1.N, _)

/-! ## The input blocks at explicit coordinates -/

/-- The query block at point t: rows of query block t / 4 % 4 of batch t / 16, columns 0 … 1023. -/
theorem iblk1_0_apply (V : VT F) (c : Dev nD) (t : Fin cfg1.N) (r : Fin 512) (h : Fin 1024) :
    iblk1 V c 0 t (ix3 (0 : Fin 1) r h)
      = (V c main_v6 : S8x2048x3072.Idx → Elt F .bf16)
          (ix3 ⟨t.val / 16, by have := lt128 t; omega⟩
            ⟨(t.val / 4 % 4) * 512 + r.val, by have := r.isLt; omega⟩ ⟨h.val, by have := h.isLt; omega⟩) := by
  obtain ⟨e0, e1, e2, -⟩ := idx_facts1 t
  unfold iblk1
  rw [View.read_apply]
  show V c main_v6 _ = V c main_v6 _
  refine congrArg (V c main_v6) (funext fun a => Fin.ext ?_)
  match a with
  | ⟨0, _⟩ => show win1_0.index t (0 : Fin 3) * 1 + 1 * 0 = t.val / 16; omega
  | ⟨1, _⟩ => show win1_0.index t (1 : Fin 3) * 512 + 1 * r.val = t.val / 4 % 4 * 512 + r.val; omega
  | ⟨2, _⟩ => show win1_0.index t (2 : Fin 3) * 1024 + 1 * h.val = h.val; omega

/-- The key block at point t: rows of key block min (t % 4) (t / 4 % 4) of batch t / 16, columns 1024 … 2047. -/
theorem iblk1_1_apply (V : VT F) (c : Dev nD) (t : Fin cfg1.N) (r : Fin 512) (h : Fin 1024) :
    iblk1 V c 1 t (ix3 (0 : Fin 1) r h)
      = (V c main_v6 : S8x2048x3072.Idx → Elt F .bf16)
          (ix3 ⟨t.val / 16, by have := lt128 t; omega⟩
            ⟨(min (t.val % 4) (t.val / 4 % 4)) * 512 + r.val, by have := r.isLt; omega⟩
            ⟨1024 + h.val, by have := h.isLt; omega⟩) := by
  obtain ⟨-, -, -, e0, e1, e2, -⟩ := idx_facts1 t
  unfold iblk1
  rw [View.read_apply]
  show V c main_v6 _ = V c main_v6 _
  refine congrArg (V c main_v6) (funext fun a => Fin.ext ?_)
  match a with
  | ⟨0, _⟩ => show win1_1.index t (0 : Fin 3) * 1 + 1 * 0 = t.val / 16; omega
  | ⟨1, _⟩ => show win1_1.index t (1 : Fin 3) * 512 + 1 * r.val = min (t.val % 4) (t.val / 4 % 4) * 512 + r.val; rw [e1, Nat.one_mul]
  | ⟨2, _⟩ => show win1_1.index t (2 : Fin 3) * 1024 + 1 * h.val = 1024 + h.val; omega

/-- The value block at point t: the same rows, columns 2048 … 3071. -/
theorem iblk1_2_apply (V : VT F) (c : Dev nD) (t : Fin cfg1.N) (r : Fin 512) (h : Fin 1024) :
    iblk1 V c 2 t (ix3 (0 : Fin 1) r h)
      = (V c main_v6 : S8x2048x3072.Idx → Elt F .bf16)
          (ix3 ⟨t.val / 16, by have := lt128 t; omega⟩
            ⟨(min (t.val % 4) (t.val / 4 % 4)) * 512 + r.val, by have := r.isLt; omega⟩
            ⟨2048 + h.val, by have := h.isLt; omega⟩) := by
  obtain ⟨-, -, -, -, -, -, e0, e1, e2, -⟩ := idx_facts1 t
  unfold iblk1
  rw [View.read_apply]
  show V c main_v6 _ = V c main_v6 _
  refine congrArg (V c main_v6) (funext fun a => Fin.ext ?_)
  match a with
  | ⟨0, _⟩ => show win1_2.index t (0 : Fin 3) * 1 + 1 * 0 = t.val / 16; omega
  | ⟨1, _⟩ => show win1_2.index t (1 : Fin 3) * 512 + 1 * r.val = min (t.val % 4) (t.val / 4 % 4) * 512 + r.val; rw [e1, Nat.one_mul]
  | ⟨2, _⟩ => show win1_2.index t (2 : Fin 3) * 1024 + 1 * h.val = 2048 + h.val; omega

/-! ## The reshape between the two regions, read at an index -/

/-- The array the attention region reads is the projection region's result with its 16384 rows regrouped as 8 batches of
    2048: entry (b, n, col) is row b · 2048 + n, column col. -/
theorem v6_apply (W : Valuation τ sig (Elt F)) (b : Fin 8) (n : Fin 2048) (col : Fin 3072) :
    (StableHlo.after (hostOps1 (F := F)) W main_v6 : S8x2048x3072.Idx → Elt F .bf16) (ix3 b n col)
      = (W main_v5 : S16384x3072.Idx → Elt F .bf16)
          (ix2 ⟨b.val * 2048 + n.val, by have := b.isLt; have := n.isLt; omega⟩ col) := by
  show StableHlo.after (hostOps1 (F := F)) W (Proc.devRef .tc main_v6) _ = _
  after_results
  refine shapeCast_apply _ _ _ _ ?_
  show ((⟨2, ![16384, 3072]⟩ : Shape).rowMajor (ix2 (⟨b.val * 2048 + n.val, _⟩ : Fin 16384) col)).val
    = ((⟨3, ![8, 2048, 3072]⟩ : Shape).rowMajor (ix3 b n col)).val
  rw [Shape.rowMajor_val_two, Shape.rowMajor_val_three]
  rfl

/-! ## The output array from its blocks -/

/-- An index of the output array is in point t's block iff each coordinate is in the block's range on its axis. -/
theorem mem_blk1_3 (t : Fin cfg1.N) (i : S8x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v7).slice (win1_3.rect t)).set ↔ _
  rw [View.set_slice_whole, Rect.mem_set_unit]
  exact Iff.rfl

/-- The output array after the region, for any proof data of the region and any target function: if what the body leaves
    in the output's staging buffer at each last-key-block point is the target's rows of that point's query block, the
    array ends holding the target. The rows (b, n, ·) are written back by the point of batch b, query block n / 512, key
    block 3, and the blocks of those 32 points tile the array. -/
theorem final1_of {c : Dev nD} (dat : Dat τ (Elt F) Unit ℕ (UR sig nD τ) ℕ cfg1 c) (G1 : S8x2048x1024.Idx → Elt F .f32)
    (hfl : ∀ t : Fin cfg1.N, t.val % 4 = 3 → ∀ (r : Fin 512) (h : Fin 1024),
      (dat.after 3 t : S1x512x1024.Idx → Elt F .f32) (ix3 (0 : Fin 1) r h)
        = G1 (ix3 ⟨t.val / 16, by have := lt128 t; omega⟩ ⟨(t.val / 4 % 4) * 512 + r.val, by have := r.isLt; omega⟩ h)) :
    dat.arrAt 3 cfg1.N = G1 := by
  refine dat.arrAt_eq_of_cover 3 G1 (fun t hf => ?_) (fun i => ?_)
  · have ht : t.val % 4 = 3 := (flush1_3 t).1 hf
    obtain ⟨-, -, -, -, -, -, -, -, -, e0, e1, e2⟩ := idx_facts1 t
    show (cfg1.win 3).cut (grid1.coords t) (dat.after 3 t) = _
    funext y
    obtain ⟨z, r, h, rfl⟩ : ∃ (z : Fin 1) (r : Fin 512) (h : Fin 1024), y = ix3 z r h :=
      ⟨y 0, y 1, y 2, @eq_ix3 1 512 1024 y⟩
    obtain rfl : z = 0 := Subsingleton.elim _ _
    rw [View.read_apply]
    show (dat.after 3 t : S1x512x1024.Idx → Elt F .f32) (ix3 (0 : Fin 1) r h) = G1 _
    rw [hfl t ht r h]
    refine congrArg G1 (funext fun a => Fin.ext ?_)
    match a with
    | ⟨0, _⟩ => show t.val / 16 = win1_3.index t (0 : Fin 3) * 1 + 1 * 0; omega
    | ⟨1, _⟩ => show t.val / 4 % 4 * 512 + r.val = win1_3.index t (1 : Fin 3) * 512 + 1 * r.val; omega
    | ⟨2, _⟩ => show h.val = win1_3.index t (2 : Fin 3) * 1024 + 1 * h.val; omega
  · have h0 : (i 0).val < 8 := (i 0).isLt
    have h1 : (i 1).val < 2048 := (i 1).isLt
    have h2 : (i 2).val < 1024 := (i 2).isLt
    have hN : (i 0).val * 16 + (i 1).val / 512 * 4 + 3 < cfg1.N := by rw [show cfg1.N = 128 from N_1]; omega
    refine ⟨⟨(i 0).val * 16 + (i 1).val / 512 * 4 + 3, hN⟩, (flush1_3 _).2 (by show ((i 0).val * 16 + (i 1).val / 512 * 4 + 3) % 4 = 3; omega), ?_⟩
    obtain ⟨-, -, -, -, -, -, -, -, -, e0, e1, e2⟩ := idx_facts1 ⟨(i 0).val * 16 + (i 1).val / 512 * 4 + 3, hN⟩
    have ev : (⟨(i 0).val * 16 + (i 1).val / 512 * 4 + 3, hN⟩ : Fin cfg1.N).val = (i 0).val * 16 + (i 1).val / 512 * 4 + 3 := rfl
    rw [ev] at e0 e1
    rw [mem_blk1_3]
    intro a
    match a with
    | ⟨0, _⟩ =>
      show win1_3.index ⟨(i 0).val * 16 + (i 1).val / 512 * 4 + 3, hN⟩ (0 : Fin 3) * 1 ≤ (i 0).val
        ∧ (i 0).val < win1_3.index ⟨(i 0).val * 16 + (i 1).val / 512 * 4 + 3, hN⟩ (0 : Fin 3) * 1 + 1
      omega
    | ⟨1, _⟩ =>
      show win1_3.index ⟨(i 0).val * 16 + (i 1).val / 512 * 4 + 3, hN⟩ (1 : Fin 3) * 512 ≤ (i 1).val
        ∧ (i 1).val < win1_3.index ⟨(i 0).val * 16 + (i 1).val / 512 * 4 + 3, hN⟩ (1 : Fin 3) * 512 + 512
      omega
    | ⟨2, _⟩ =>
      show win1_3.index ⟨(i 0).val * 16 + (i 1).val / 512 * 4 + 3, hN⟩ (2 : Fin 3) * 1024 ≤ (i 2).val
        ∧ (i 2).val < win1_3.index ⟨(i 0).val * 16 + (i 1).val / 512 * 4 + 3, hN⟩ (2 : Fin 3) * 1024 + 1024
      omega

end Cert.KernelIdeal.Run

end
-- ==== Proof.KI.Step.lean ====
/-
  One query block of the streaming attention kernel as pure functions of what the body loads: the three running
  buffers (row maximum, normaliser, weighted sum) after the reset, after one key block, and the block written at the end.
-/
import proofs.«104284_j31817117729495_2_alg».proof.Proof.Gen.KernelIdeal.Skeleton

noncomputable section

namespace Cert.KernelIdeal.Att

open Idealize.ShloMosaic Cert.KernelIdeal Cert.KernelIdeal.Gen

variable {F : FTy → Type} [FloatOps F] [Named F]

/-- The three buffers the kernel carries from key block to key block. -/
structure St (F : FTy → Type) where
  m : Vec F S1x512x1 .f32
  l : Vec F S1x512x1 .f32
  acc : Vec F S1x512x1024 .f32

/-- At the first key block: maximum -∞ (the named stand-in), normaliser 0, sum 0. -/
def St.init : St F := ⟨k1_pay1, k1_pay2, k1_pay3⟩

/-- One key block: `qi`, `ki` the query and key block numbers as the body reads them, `q`, `k`, `v` the three loaded blocks. -/
def St.upd (qi ki : BitVec 32) (q k v : Vec F S1x512x1024 .bf16) (s : St F) : St F :=
  ⟨k1_pay6 (k1_pay10 qi ki q k s.m), k1_pay4 (k1_pay13 qi ki q k s.m s.l),
   k1_pay5 (k1_pay8 v) (k1_pay11 qi ki q k s.m) (k1_pay12 qi ki q k s.m) s.acc⟩

/-- The block written at the last key block: the sum divided by the normaliser. -/
def St.out (s : St F) : Vec F S1x512x1024 .f32 := k1_pay7 s.acc s.l

end Cert.KernelIdeal.Att

end
-- ==== Proof.KI.AttValueA.lean ====
/-
  One query block of the streaming attention kernel, the pieces its arithmetic is read with, on the extended reals:
  the two literals (the mask fill -∞, the scale 1/32), the causal mask's comparison of a row index with a column
  index in 32-bit words, the two contractions (scores: queries against keys over the features; weighted sum: weights
  against values over a block's keys) read at an index as finite sums, the trailing-unit-axis shape cast and
  broadcasts, and a row's maximum and sum over a block's 512 lanes.
-/
import proofs.«104284_j31817117729495_2_alg».proof.Proof.KI.Step
import proofs.«104284_j31817117729495_2_alg».proof.Proof.AttSpec
import proofs.«104284_j31817117729495_2_alg».proof.Proof.LibOnlineSoftmax
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.AttValue

open Idealize.ShloMosaic Idealize.ShloMosaic.ValueIdx Cert.KernelIdeal Cert.KernelIdeal.Gen Cert.KernelIdeal.Att

/-- The mask fill and the initial maximum: the named constant is -∞. -/
theorem negBig_eq : Named.named (F := Ideal) κ "neg_big" (φ := .f32) 0xF149F2CA#32 = (⊥ : EReal) :=
  IdealRules.named_const.ideal_named_scalar _ _ _ _ rfl

/-- The scale literal is 1/32. -/
theorem scale_eq : Ideal.ofBits .f32 0x3D000000#32 = ((1 / 32 : ℝ) : EReal) := by
  simp [Ideal.ofBits, Ideal.ieee, -EReal.coe_mul]; norm_num

/-- Row index against column index, as the body compares them in 32-bit words: no overflow below 2048. -/
theorem mask_bit (qi ki : ℕ) (hqi : qi < 4) (hki : ki < 4) (r c : Fin 512) :
    IntOp.cmpi .sge (IntOp.addi (Scalar.muli (BitVec.ofNat 32 qi) 512#32) (BitVec.ofNat 32 r.val))
        (IntOp.addi (Scalar.muli (BitVec.ofNat 32 ki) 512#32) (BitVec.ofNat 32 c.val)) = 1#1
      ↔ ki * 512 + c.val ≤ qi * 512 + r.val := by
  have e : ∀ a b : ℕ, IntOp.addi (Scalar.muli (BitVec.ofNat 32 a) 512#32) (BitVec.ofNat 32 b) = BitVec.ofNat 32 (a * 512 + b) := by
    intro a b
    show BitVec.ofNat 32 a * BitVec.ofNat 32 512 + BitVec.ofNat 32 b = _
    rw [BitVec.ofNat_add, BitVec.ofNat_mul]
  have hr := r.isLt
  have hc := c.isLt
  rw [e, e, IntOp.cmpi_sge, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- The contraction of the scores: queries against keys over the 1024 features. -/
abbrev Dqk : DotDims S1x512x1024 S1x512x1024 S1x512x512 := dot_S1x512x1024_S1x512x1024_S1x512x512_2_2_1_1_0_0
/-- The contraction of the weighted sum: weights against values over a block's 512 keys. -/
abbrev Dpv : DotDims S1x512x512 S1x512x1024 S1x512x1024 := dot_S1x512x512_S1x512x1024_S1x512x1024_2_1_1_2_0_0

/-! The operand indices of the two contractions, coordinate by coordinate. -/
theorem qk_lhs_0 (i : S1x512x512.Idx) (q : Dqk.contr.Idx) :
    (Dqk.lhsIdx i q 0).val = (i 0).val := by
  unfold DotDims.lhsIdx
  rw [dif_pos (show (0 : Fin S1x512x1024.rank) ∈ Dqk.lhsBatch by decide)]
  rfl
theorem qk_lhs_1 (i : S1x512x512.Idx) (q : Dqk.contr.Idx) :
    (Dqk.lhsIdx i q 1).val = (i 1).val := by
  unfold DotDims.lhsIdx
  rw [dif_neg (show ¬(1 : Fin S1x512x1024.rank) ∈ Dqk.lhsBatch by decide), dif_pos (show (1 : Fin S1x512x1024.rank) ∈ Dqk.lhsNonContracting by decide)]
  rfl
theorem qk_lhs_2 (i : S1x512x512.Idx) (q : Dqk.contr.Idx) :
    (Dqk.lhsIdx i q 2).val = (q ⟨0, by decide⟩).val :=
  Dqk.lhsIdx_val_of_single rfl i q
theorem qk_rhs_0 (i : S1x512x512.Idx) (q : Dqk.contr.Idx) :
    (Dqk.rhsIdx i q 0).val = (i 0).val := by
  unfold DotDims.rhsIdx
  rw [dif_pos (show (0 : Fin S1x512x1024.rank) ∈ Dqk.rhsBatch by decide)]
  rfl
theorem qk_rhs_1 (i : S1x512x512.Idx) (q : Dqk.contr.Idx) :
    (Dqk.rhsIdx i q 1).val = (i 2).val := by
  unfold DotDims.rhsIdx
  rw [dif_neg (show ¬(1 : Fin S1x512x1024.rank) ∈ Dqk.rhsBatch by decide), dif_pos (show (1 : Fin S1x512x1024.rank) ∈ Dqk.rhsNonContracting by decide)]
  rfl
theorem qk_rhs_2 (i : S1x512x512.Idx) (q : Dqk.contr.Idx) :
    (Dqk.rhsIdx i q 2).val = (q ⟨0, by decide⟩).val :=
  Dqk.rhsIdx_val_of_single rfl i q

theorem pv_lhs_0 (i : S1x512x1024.Idx) (q : Dpv.contr.Idx) :
    (Dpv.lhsIdx i q 0).val = (i 0).val := by
  unfold DotDims.lhsIdx
  rw [dif_pos (show (0 : Fin S1x512x512.rank) ∈ Dpv.lhsBatch by decide)]
  rfl
theorem pv_lhs_1 (i : S1x512x1024.Idx) (q : Dpv.contr.Idx) :
    (Dpv.lhsIdx i q 1).val = (i 1).val := by
  unfold DotDims.lhsIdx
  rw [dif_neg (show ¬(1 : Fin S1x512x512.rank) ∈ Dpv.lhsBatch by decide), dif_pos (show (1 : Fin S1x512x512.rank) ∈ Dpv.lhsNonContracting by decide)]
  rfl
theorem pv_lhs_2 (i : S1x512x1024.Idx) (q : Dpv.contr.Idx) :
    (Dpv.lhsIdx i q 2).val = (q ⟨0, by decide⟩).val :=
  Dpv.lhsIdx_val_of_single rfl i q
theorem pv_rhs_0 (i : S1x512x1024.Idx) (q : Dpv.contr.Idx) :
    (Dpv.rhsIdx i q 0).val = (i 0).val := by
  unfold DotDims.rhsIdx
  rw [dif_pos (show (0 : Fin S1x512x1024.rank) ∈ Dpv.rhsBatch by decide)]
  rfl
theorem pv_rhs_1 (i : S1x512x1024.Idx) (q : Dpv.contr.Idx) :
    (Dpv.rhsIdx i q 1).val = (q ⟨0, by decide⟩).val :=
  Dpv.rhsIdx_val_of_single rfl i q
theorem pv_rhs_2 (i : S1x512x1024.Idx) (q : Dpv.contr.Idx) :
    (Dpv.rhsIdx i q 2).val = (i 2).val := by
  unfold DotDims.rhsIdx
  rw [dif_neg (show ¬(2 : Fin S1x512x1024.rank) ∈ Dpv.rhsBatch by decide), dif_pos (show (2 : Fin S1x512x1024.rank) ∈ Dpv.rhsNonContracting by decide)]
  rfl

/-- The score product into a zero accumulator at (r, c): the sum over the features of query row r times key row c. -/
theorem qk_apply (x y : FVec Ideal S1x512x1024 .bf16) (r c : Fin 512) :
    matmul Dqk none x y (constant S1x512x512 .f32 0x00000000#32) (ix3 (0 : Fin 1) r c)
      = ∑ h : Fin 1024, x (ix3 (0 : Fin 1) r h) * y (ix3 (0 : Fin 1) c h) := by
  refine (Ideal.matmul_constant_zero_apply Dqk none x y _).trans ?_
  rw [← Equiv.sum_comp (contrEquiv1 Dqk 1024 rfl rfl).symm]
  refine Finset.sum_congr rfl fun k _ => ?_
  have hk := contrEquiv1_symm_val Dqk 1024 rfl rfl k
  have el : Dqk.lhsIdx (ix3 (0 : Fin 1) r c) ((contrEquiv1 Dqk 1024 rfl rfl).symm k) = ix3 (0 : Fin 1) r k :=
    funext fun a => Fin.ext (by
      match a with
      | ⟨0, _⟩ => exact qk_lhs_0 _ _
      | ⟨1, _⟩ => exact qk_lhs_1 _ _
      | ⟨2, _⟩ => exact (qk_lhs_2 _ _).trans hk)
  have er : Dqk.rhsIdx (ix3 (0 : Fin 1) r c) ((contrEquiv1 Dqk 1024 rfl rfl).symm k) = ix3 (0 : Fin 1) c k :=
    funext fun a => Fin.ext (by
      match a with
      | ⟨0, _⟩ => exact qk_rhs_0 _ _
      | ⟨1, _⟩ => exact qk_rhs_1 _ _
      | ⟨2, _⟩ => exact (qk_rhs_2 _ _).trans hk)
  rw [el, er]

/-- The weights-times-values product into a zero accumulator at (r, h): the sum over the block's keys. -/
theorem pv_apply (p : FVec Ideal S1x512x512 .bf16) (v : FVec Ideal S1x512x1024 .bf16) (r : Fin 512) (h : Fin 1024) :
    matmul Dpv none p v (constant S1x512x1024 .f32 0x00000000#32) (ix3 (0 : Fin 1) r h)
      = ∑ c : Fin 512, p (ix3 (0 : Fin 1) r c) * v (ix3 (0 : Fin 1) c h) := by
  refine (Ideal.matmul_constant_zero_apply Dpv none p v _).trans ?_
  rw [← Equiv.sum_comp (contrEquiv1 Dpv 512 rfl rfl).symm]
  refine Finset.sum_congr rfl fun k _ => ?_
  have hk := contrEquiv1_symm_val Dpv 512 rfl rfl k
  have el : Dpv.lhsIdx (ix3 (0 : Fin 1) r h) ((contrEquiv1 Dpv 512 rfl rfl).symm k) = ix3 (0 : Fin 1) r k :=
    funext fun a => Fin.ext (by
      match a with
      | ⟨0, _⟩ => exact pv_lhs_0 _ _
      | ⟨1, _⟩ => exact pv_lhs_1 _ _
      | ⟨2, _⟩ => exact (pv_lhs_2 _ _).trans hk)
  have er : Dpv.rhsIdx (ix3 (0 : Fin 1) r h) ((contrEquiv1 Dpv 512 rfl rfl).symm k) = ix3 (0 : Fin 1) k h :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-! Layout operations at an index given by coordinates: the trailing-unit-axis forms. -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (p, q, t), the operand's one column at (p, q). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (t : Fin c) :
    broadcastTo ⟨3, ![a, b, c]⟩ v h (ix3 p q t) = v (ix3 p q (0 : Fin 1)) := by
  refine broadcastTo_apply v h (ix3 p q t) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The index a reduction over the last axis of [1, 512, 512] inserts: (0, r) with the coordinate c put back. -/
theorem lift_eq (h : S1x512x512.Reduces [2] S1x512) (r c : Fin 512) :
    h.lift (ix2 (0 : Fin 1) r) c = ix3 (0 : Fin 1) r c :=
  funext fun a => Fin.ext (by
    match a with
    | ⟨0, _⟩ => rfl
    | ⟨1, _⟩ => rfl
    | ⟨2, _⟩ => rfl)

/-- The bit pattern the row maximum starts from is -∞. -/
theorem ofBits_neg_inf : Ideal.ofBits .f32 0xFF800000#32 = (⊥ : EReal) := by simp [Ideal.ofBits, Ideal.ieee]

/-- A row's maximum over the 512 lanes, from -∞: the supremum of the row. -/
theorem rowmax_apply (src : FVec Ideal S1x512x512 .f32) (hφ : FKind.Formats .f32)
    (hacc : (0xFF800000#32 : BitVec 32) = FKind.maximumf.neutral .f32 hφ) (r : Fin 512) :
    multiReduction .maximumf [2] S1x512 src 0xFF800000#32 reduces_S1x512x512_S1x512 hφ hacc (ix2 (0 : Fin 1) r)
      = Finset.univ.sup fun c : Fin 512 => src (ix3 (0 : Fin 1) r c) := by
  have key : (Finset.univ : Finset (Fin 512)).fold max (Ideal.ofBits .f32 0xFF800000#32) (fun c => src (ix3 (0 : Fin 1) r c))
      = Finset.univ.sup fun c : Fin 512 => src (ix3 (0 : Fin 1) r c) := by
    rw [ofBits_neg_inf]; exact LibOnlineSoftmax.fold_max_bot _ _
  refine Eq.trans ?_ key
  refine (Ideal.multiReduction_maximumf_single src _ reduces_S1x512x512_S1x512 hφ hacc _).trans ?_
  exact congrArg (fun f => (Finset.univ : Finset (Fin 512)).fold max (Ideal.ofBits .f32 0xFF800000#32) f)
    (funext fun c => congrArg src (lift_eq _ r c))

/-- A row's sum over the 512 lanes. -/
theorem rowsum_apply (src : FVec Ideal S1x512x512 .f32) (hφ : FKind.Formats .f32)
    (hacc : (0x00000000#32 : BitVec 32) = FKind.add.neutral .f32 hφ) (r : Fin 512) :
    multiReduction .add [2] S1x512 src 0x00000000#32 reduces_S1x512x512_S1x512 hφ hacc (ix2 (0 : Fin 1) r)
      = ∑ c : Fin 512, src (ix3 (0 : Fin 1) r c) := by
  refine (Ideal.multiReduction_add_single src _ reduces_S1x512x512_S1x512 hφ hacc _).trans ?_
  show ∑ c : Fin 512, src (reduces_S1x512x512_S1x512.lift (ix2 (0 : Fin 1) r) c) = _
  exact Finset.sum_congr rfl fun c _ => congrArg src (lift_eq _ r c)

end Cert.KernelIdeal.AttValue

end
-- ==== Proof.KI.AttValueB.lean ====
/-
  The payloads of one key block of the streaming attention kernel read at an index, on the extended reals: the masked
  scaled scores, the new row maximum, the two exponentials, the new normaliser, the new weighted sum, the final
  quotient, and the three constants the first key block resets to; then the three running buffers after one key block,
  row by row.
-/
import proofs.«104284_j31817117729495_2_alg».proof.Proof.KI.Step
import proofs.«104284_j31817117729495_2_alg».proof.Proof.AttSpec
import proofs.«104284_j31817117729495_2_alg».proof.Proof.LibOnlineSoftmax
import proofs.«104284_j31817117729495_2_alg».proof.Proof.KI.AttValueA
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.AttValue

open Idealize.ShloMosaic Idealize.ShloMosaic.ValueIdx Cert.KernelIdeal Cert.KernelIdeal.Gen Cert.KernelIdeal.Att

/-- The masked scaled score of query row `r` of block `qi` against key row `c` of block `ki`, from the loaded blocks. -/
def sc (qi ki : ℕ) (q k : Vec Ideal S1x512x1024 .bf16) (r c : Fin 512) : EReal :=
  if ki * 512 + c.val ≤ qi * 512 + r.val then
    (∑ h : Fin 1024, q (ix3 (0 : Fin 1) r h) * k (ix3 (0 : Fin 1) c h)) * ((1 / 32 : ℝ) : EReal)
  else ⊥

/-- The masked scaled scores of one key block at (r, c). -/
theorem pay9_apply (qi ki : ℕ) (hqi : qi < 4) (hki : ki < 4) (q k : Vec Ideal S1x512x1024 .bf16) (r c : Fin 512) :
    k1_pay9 (F := Ideal) (BitVec.ofNat 32 qi) (BitVec.ofNat 32 ki) q k (ix3 (0 : Fin 1) r c) = sc qi ki q k r c := by
  unfold k1_pay9 sc
  show Scalar.select
      (IntOp.cmpi .sge
        (IntOp.addi (Scalar.muli (BitVec.ofNat 32 qi) 512#32) (iota .tc S1x512x512 32 [1] iota_S1x512x512_d1_w32 (ix3 (0 : Fin 1) r c)))
        (IntOp.addi (Scalar.muli (BitVec.ofNat 32 ki) 512#32) (iota .tc S1x512x512 32 [2] iota_S1x512x512_d2_w32 (ix3 (0 : Fin 1) r c))))
      (matmul Dqk none (shapeCast S1x512x1024 q shapeCasts_S1x512x1024_S1x512x1024)
          (shapeCast S1x512x1024 k shapeCasts_S1x512x1024_S1x512x1024) (constant S1x512x512 .f32 0x00000000#32) (ix3 (0 : Fin 1) r c)
        * Ideal.ofBits .f32 0x3D000000#32)
      (Named.named (F := Ideal) κ "neg_big" (φ := .f32) 0xF149F2CA#32) = _
  rw [shapeCast_self, shapeCast_self, qk_apply, iota_single_apply, iota_single_apply, scale_eq, negBig_eq]
  show Scalar.select
      (IntOp.cmpi .sge (IntOp.addi (Scalar.muli (BitVec.ofNat 32 qi) 512#32) (BitVec.ofNat 32 r.val))
        (IntOp.addi (Scalar.muli (BitVec.ofNat 32 ki) 512#32) (BitVec.ofNat 32 c.val))) _ _ = _
  by_cases hle : ki * 512 + c.val ≤ qi * 512 + r.val
  · rw [if_pos hle, (mask_bit qi ki hqi hki r c).mpr hle, select_one]
  · rw [if_neg hle, eq_zero_of_ne_one (mt (mask_bit qi ki hqi hki r c).mp hle), select_zero]

/-- The new row maximum: the old one against the block's largest masked score. -/
theorem pay10_apply (a1 a2 : BitVec 32) (q k : Vec Ideal S1x512x1024 .bf16) (m : Vec Ideal S1x512x1 .f32) (r : Fin 512) :
    k1_pay10 (F := Ideal) a1 a2 q k m (ix3 (0 : Fin 1) r (0 : Fin 1))
      = max (m (ix3 (0 : Fin 1) r (0 : Fin 1)))
          (Finset.univ.sup fun c : Fin 512 => k1_pay9 (F := Ideal) a1 a2 q k (ix3 (0 : Fin 1) r c)) := by
  unfold k1_pay10
  exact congrArg (max (m (ix3 (0 : Fin 1) r (0 : Fin 1))))
    ((shapeCast_ab_ab1_apply _ _ (0 : Fin 1) r (0 : Fin 1)).trans (rowmax_apply _ _ _ r))

/-- The rescaling factor: the exponential of the old maximum minus the new. -/
theorem pay11_apply (a1 a2 : BitVec 32) (q k : Vec Ideal S1x512x1024 .bf16) (m : Vec Ideal S1x512x1 .f32) (i : S1x512x1.Idx) :
    k1_pay11 (F := Ideal) a1 a2 q k m i = Ideal.exp (m i - k1_pay10 (F := Ideal) a1 a2 q k m i) := rfl

/-- The block's weights: the exponential of each masked score minus the new row maximum. -/
theorem pay12_apply (a1 a2 : BitVec 32) (q k : Vec Ideal S1x512x1024 .bf16) (m : Vec Ideal S1x512x1 .f32) (r c : Fin 512) :
    k1_pay12 (F := Ideal) a1 a2 q k m (ix3 (0 : Fin 1) r c)
      = Ideal.exp (k1_pay9 (F := Ideal) a1 a2 q k (ix3 (0 : Fin 1) r c)
          - k1_pay10 (F := Ideal) a1 a2 q k m (ix3 (0 : Fin 1) r (0 : Fin 1))) := by
  unfold k1_pay12
  show Ideal.exp (k1_pay9 (F := Ideal) a1 a2 q k (ix3 (0 : Fin 1) r c)
    - broadcastTo S1x512x512 (k1_pay10 (F := Ideal) a1 a2 q k m) broadcasts_S1x512x1_S1x512x512 (ix3 (0 : Fin 1) r c)) = _
  rw [broadcastTo_ab1_abc_apply]

/-- The new normaliser: the old one rescaled plus the block's weights summed. -/
theorem pay13_apply (a1 a2 : BitVec 32) (q k : Vec Ideal S1x512x1024 .bf16) (m l : Vec Ideal S1x512x1 .f32) (r : Fin 512) :
    k1_pay13 (F := Ideal) a1 a2 q k m l (ix3 (0 : Fin 1) r (0 : Fin 1))
      = k1_pay11 (F := Ideal) a1 a2 q k m (ix3 (0 : Fin 1) r (0 : Fin 1)) * l (ix3 (0 : Fin 1) r (0 : Fin 1))
        + ∑ c : Fin 512, k1_pay12 (F := Ideal) a1 a2 q k m (ix3 (0 : Fin 1) r c) := by
  unfold k1_pay13
  exact congrArg (k1_pay11 (F := Ideal) a1 a2 q k m (ix3 (0 : Fin 1) r (0 : Fin 1)) * l (ix3 (0 : Fin 1) r (0 : Fin 1)) + ·)
    ((shapeCast_ab_ab1_apply _ _ (0 : Fin 1) r (0 : Fin 1)).trans (rowsum_apply _ _ _ r))

/-- The new weighted sum: the old one rescaled plus the block's weights against its values. -/
theorem pay5_apply (v : FVec Ideal S1x512x1024 .bf16) (a : FVec Ideal S1x512x1 .f32) (p : FVec Ideal S1x512x512 .f32)
    (acc : Vec Ideal S1x512x1024 .f32) (r : Fin 512) (h : Fin 1024) :
    k1_pay5 (F := Ideal) v a p acc (ix3 (0 : Fin 1) r h)
      = a (ix3 (0 : Fin 1) r (0 : Fin 1)) * acc (ix3 (0 : Fin 1) r h)
        + ∑ c : Fin 512, p (ix3 (0 : Fin 1) r c) * v (ix3 (0 : Fin 1) c h) := by
  unfold k1_pay5
  refine (congrFun (shapeCast_self _ _) _).trans ?_
  show broadcastTo S1x512x1024 a broadcasts_S1x512x1_S1x512x1024 (ix3 (0 : Fin 1) r h) * acc (ix3 (0 : Fin 1) r h)
    + matmul Dpv none p v (constant S1x512x1024 .f32 0x00000000#32) (ix3 (0 : Fin 1) r h) = _
  rw [broadcastTo_ab1_abc_apply]
  exact congrArg (_ + ·) (pv_apply p v r h)

/-- The block written at the end: the weighted sum divided by the normaliser. -/
theorem pay7_apply (acc : Vec Ideal S1x512x1024 .f32) (l : Vec Ideal S1x512x1 .f32) (r : Fin 512) (h : Fin 1024) :
    k1_pay7 (F := Ideal) acc l (ix3 (0 : Fin 1) r h) = Ideal.div (acc (ix3 (0 : Fin 1) r h)) (l (ix3 (0 : Fin 1) r (0 : Fin 1))) := by
  unfold k1_pay7
  show Ideal.div (acc (ix3 (0 : Fin 1) r h)) (broadcastTo S1x512x1024 l broadcasts_S1x512x1_S1x512x1024 (ix3 (0 : Fin 1) r h)) = _
  rw [broadcastTo_ab1_abc_apply]

/-- The reset maximum is -∞ everywhere. -/
theorem pay1_apply (i : S1x512x1.Idx) : k1_pay1 (F := Ideal) i = (⊥ : EReal) := by
  unfold k1_pay1
  exact (congrFun (shapeCast_self _ _) _).trans negBig_eq

/-- The reset normaliser is 0 everywhere. -/
theorem pay2_apply (i : S1x512x1.Idx) : k1_pay2 (F := Ideal) i = (0 : EReal) := by
  unfold k1_pay2
  exact (congrFun (shapeCast_self _ _) _).trans Ideal.ofBits_zero_f32

/-- The reset weighted sum is 0 everywhere. -/
theorem pay3_apply (i : S1x512x1024.Idx) : k1_pay3 (F := Ideal) i = (0 : EReal) := by
  unfold k1_pay3
  exact (congrFun (shapeCast_self _ _) _).trans Ideal.ofBits_zero_f32

/-- The three casts to the same shape are the identity. -/
theorem pay4_eq (x : FVec Ideal S1x512x1 .f32) : k1_pay4 (F := Ideal) x = x := shapeCast_self _ _
theorem pay6_eq (x : FVec Ideal S1x512x1 .f32) : k1_pay6 (F := Ideal) x = x := shapeCast_self _ _
theorem pay8_eq (x : Vec Ideal S1x512x1024 .bf16) : k1_pay8 (F := Ideal) x = x := shapeCast_self _ _

/-! ## The running buffers, row by row -/

/-- After the reset: maximum -∞, normaliser 0, sum 0. -/
theorem init_m (i : S1x512x1.Idx) : (St.init (F := Ideal)).m i = (⊥ : EReal) := pay1_apply i
theorem init_l (i : S1x512x1.Idx) : (St.init (F := Ideal)).l i = (0 : EReal) := pay2_apply i
theorem init_acc (i : S1x512x1024.Idx) : (St.init (F := Ideal)).acc i = (0 : EReal) := pay3_apply i

/-- The new row maximum over the masked scaled scores. -/
theorem pay10_sc (qi ki : ℕ) (hqi : qi < 4) (hki : ki < 4) (q k : Vec Ideal S1x512x1024 .bf16) (m : Vec Ideal S1x512x1 .f32) (r : Fin 512) :
    k1_pay10 (F := Ideal) (BitVec.ofNat 32 qi) (BitVec.ofNat 32 ki) q k m (ix3 (0 : Fin 1) r (0 : Fin 1))
      = max (m (ix3 (0 : Fin 1) r (0 : Fin 1))) (Finset.univ.sup fun c : Fin 512 => sc qi ki q k r c) := by
  rw [pay10_apply]
  exact congrArg (max _) (Finset.sup_congr rfl fun c _ => pay9_apply qi ki hqi hki q k r c)

/-- One key block, the row maximum. -/
theorem upd_m (qi ki : ℕ) (hqi : qi < 4) (hki : ki < 4) (q k v : Vec Ideal S1x512x1024 .bf16) (s : St Ideal) (r : Fin 512) :
    (St.upd (BitVec.ofNat 32 qi) (BitVec.ofNat 32 ki) q k v s).m (ix3 (0 : Fin 1) r (0 : Fin 1))
      = max (s.m (ix3 (0 : Fin 1) r (0 : Fin 1))) (Finset.univ.sup fun c : Fin 512 => sc qi ki q k r c) := by
  show k1_pay6 (F := Ideal) (k1_pay10 (F := Ideal) (BitVec.ofNat 32 qi) (BitVec.ofNat 32 ki) q k s.m) (ix3 (0 : Fin 1) r (0 : Fin 1)) = _
  rw [pay6_eq, pay10_sc qi ki hqi hki]

/-- One key block, the normaliser: rescaled, plus the block's weights. -/
theorem upd_l (qi ki : ℕ) (hqi : qi < 4) (hki : ki < 4) (q k v : Vec Ideal S1x512x1024 .bf16) (s : St Ideal) (r : Fin 512) :
    (St.upd (BitVec.ofNat 32 qi) (BitVec.ofNat 32 ki) q k v s).l (ix3 (0 : Fin 1) r (0 : Fin 1))
      = Ideal.exp (s.m (ix3 (0 : Fin 1) r (0 : Fin 1))
            - max (s.m (ix3 (0 : Fin 1) r (0 : Fin 1))) (Finset.univ.sup fun c : Fin 512 => sc qi ki q k r c))
          * s.l (ix3 (0 : Fin 1) r (0 : Fin 1))
        + ∑ c : Fin 512, Ideal.exp (sc qi ki q k r c
            - max (s.m (ix3 (0 : Fin 1) r (0 : Fin 1))) (Finset.univ.sup fun c : Fin 512 => sc qi ki q k r c)) := by
  have hm' := pay10_sc qi ki hqi hki q k s.m r
  show k1_pay4 (F := Ideal) (k1_pay13 (F := Ideal) (BitVec.ofNat 32 qi) (BitVec.ofNat 32 ki) q k s.m s.l) (ix3 (0 : Fin 1) r (0 : Fin 1)) = _
  rw [pay4_eq, pay13_apply, pay11_apply, hm']
  refine congrArg (_ + ·) (Finset.sum_congr rfl fun c _ => ?_)
  rw [pay12_apply, hm', pay9_apply qi ki hqi hki]

/-- One key block, the weighted sum: rescaled, plus the block's weights against its values. -/
theorem upd_acc (qi ki : ℕ) (hqi : qi < 4) (hki : ki < 4) (q k v : Vec Ideal S1x512x1024 .bf16) (s : St Ideal) (r : Fin 512) (h : Fin 1024) :
    (St.upd (BitVec.ofNat 32 qi) (BitVec.ofNat 32 ki) q k v s).acc (ix3 (0 : Fin 1) r h)
      = Ideal.exp (s.m (ix3 (0 : Fin 1) r (0 : Fin 1))
            - max (s.m (ix3 (0 : Fin 1) r (0 : Fin 1))) (Finset.univ.sup fun c : Fin 512 => sc qi ki q k r c))
          * s.acc (ix3 (0 : Fin 1) r h)
        + ∑ c : Fin 512, Ideal.exp (sc qi ki q k r c
            - max (s.m (ix3 (0 : Fin 1) r (0 : Fin 1))) (Finset.univ.sup fun c : Fin 512 => sc qi ki q k r c))
          * v (ix3 (0 : Fin 1) c h) := by
  have hm' := pay10_sc qi ki hqi hki q k s.m r
  show k1_pay5 (F := Ideal) (k1_pay8 (F := Ideal) v) (k1_pay11 (F := Ideal) (BitVec.ofNat 32 qi) (BitVec.ofNat 32 ki) q k s.m)
    (k1_pay12 (F := Ideal) (BitVec.ofNat 32 qi) (BitVec.ofNat 32 ki) q k s.m) s.acc (ix3 (0 : Fin 1) r h) = _
  rw [pay5_apply, pay8_eq, pay11_apply, hm']
  refine congrArg (_ + ·) (Finset.sum_congr rfl fun c _ => ?_)
  rw [pay12_apply, hm', pay9_apply qi ki hqi hki]

/-- The block written at the end. -/
theorem out_apply (s : St Ideal) (r : Fin 512) (h : Fin 1024) :
    St.out s (ix3 (0 : Fin 1) r h) = Ideal.div (s.acc (ix3 (0 : Fin 1) r h)) (s.l (ix3 (0 : Fin 1) r (0 : Fin 1))) :=
  pay7_apply s.acc s.l r h

end Cert.KernelIdeal.AttValue

end
-- ==== Proof.KI.AttValueC.lean ====
/-
  One query block of the streaming attention kernel computes the specification's attention rows.

  Fix a batch, a query block and one of its 512 rows; the row's query position is `p`. The keys are the 2048 positions in
  four blocks of 512. Key block `j` is processed iff `j` is at most the query's block; then the body's masked scaled
  scores of the block are the specification's masked scores of the block's keys (a key after `p` is -∞), and one update
  of the three running buffers is one step of the streaming-softmax recurrence. So after the processed blocks the
  buffers hold the softmax sums over the keys before the end of the query's block; every new maximum is a real number,
  because key 0 is never masked and the scores of finite inputs are finite. The keys of the skipped blocks are all
  after `p`: masked, of weight `exp (-∞) = 0`, and they change neither the maximum nor the sums, so the sums are the ones
  over all 2048 keys, and the quotient written at the end is the specification's softmax-weighted mean.
-/
import proofs.«104284_j31817117729495_2_alg».proof.Proof.KI.Step
import proofs.«104284_j31817117729495_2_alg».proof.Proof.AttSpec
import proofs.«104284_j31817117729495_2_alg».proof.Proof.LibOnlineSoftmax
import proofs.«104284_j31817117729495_2_alg».proof.Proof.KI.AttValueB
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.AttValue

open LibOnlineSoftmax Idealize.ShloMosaic Idealize.ShloMosaic.ValueIdx Cert.KernelIdeal Cert.KernelIdeal.Gen Cert.KernelIdeal.Att

/-- Key `c` of key block `j` (query row `c` of query block `j`) as a position. -/
def keyOf (j : Fin 4) (c : Fin 512) : Fin 2048 := ⟨j.val * 512 + c.val, by have := j.isLt; have := c.isLt; omega⟩

/-- A block's keys, as an embedding of its 512 lanes into the positions. -/
def blkEmb (j : Fin 4) : Fin 512 ↪ Fin 2048 :=
  ⟨keyOf j, fun x y h => Fin.ext (by
    have h' : j.val * 512 + x.val = j.val * 512 + y.val := congrArg Fin.val h
    omega)⟩

/-- The keys of block `j`. -/
def blk (j : Fin 4) : Finset (Fin 2048) := Finset.univ.map (blkEmb j)

/-- The keys of the first `n` blocks. -/
def upTo (n : ℕ) : Finset (Fin 2048) := Finset.univ.filter fun k => k.val < n * 512

theorem upTo_zero : upTo 0 = ∅ := by
  ext k; simp [upTo]

theorem upTo_succ (j : Fin 4) : upTo (j.val + 1) = upTo j.val ∪ blk j := by
  ext k
  simp only [upTo, blk, Finset.mem_union, Finset.mem_filter, Finset.mem_univ, true_and, Finset.mem_map]
  constructor
  · intro hk
    by_cases h : k.val < j.val * 512
    · exact Or.inl h
    · refine Or.inr ⟨⟨k.val - j.val * 512, by omega⟩, Fin.ext ?_⟩
      show j.val * 512 + (k.val - j.val * 512) = k.val
      omega
  · rintro (h | ⟨c, rfl⟩)
    · omega
    · have := c.isLt
      show j.val * 512 + c.val < (j.val + 1) * 512
      omega

theorem upTo_disjoint (j : Fin 4) : Disjoint (upTo j.val) (blk j) := by
  rw [Finset.disjoint_left]
  intro k hk hb
  simp only [upTo, Finset.mem_filter, Finset.mem_univ, true_and] at hk
  simp only [blk, Finset.mem_map, Finset.mem_univ, true_and] at hb
  obtain ⟨c, rfl⟩ := hb
  have hk' : j.val * 512 + c.val < j.val * 512 := hk
  omega

/-- A sum over a block's keys is the sum over its 512 lanes. -/
theorem sum_blk (j : Fin 4) (f : Fin 2048 → EReal) : ∑ k ∈ blk j, f k = ∑ c : Fin 512, f (keyOf j c) :=
  Finset.sum_map _ _ _

/-- A supremum over a block's keys is the supremum over its 512 lanes. -/
theorem sup_blk (j : Fin 4) (f : Fin 2048 → EReal) : (blk j).sup f = Finset.univ.sup fun c : Fin 512 => f (keyOf j c) :=
  Finset.sup_map _ _ _

/-! ## Scores of finite inputs -/

section Spec
variable (Q K V : Fin 8 → Fin 2048 → Fin 1024 → EReal)

/-- The score of finite queries and keys is a real number. -/
theorem score_real (hQ : ∀ b n h, ∃ r : ℝ, Q b n h = (r : EReal)) (hK : ∀ b n h, ∃ r : ℝ, K b n h = (r : EReal))
    (b : Fin 8) (p k : Fin 2048) : ∃ x : ℝ, Cert.Att.score Q K b p k = (x : EReal) := by
  choose fQ hfQ using hQ
  choose fK hfK using hK
  refine ⟨(∑ h : Fin 1024, fQ b p h * fK b k h) * (1 / 32 : ℝ), ?_⟩
  unfold Cert.Att.score
  rw [EReal.coe_mul, coe_sum]
  refine congrArg (· * ((1 / 32 : ℝ) : EReal)) (Finset.sum_congr rfl fun h _ => ?_)
  rw [hfQ, hfK, EReal.coe_mul]

/-- A masked score is never +∞. -/
theorem masked_ne_top (hQ : ∀ b n h, ∃ r : ℝ, Q b n h = (r : EReal)) (hK : ∀ b n h, ∃ r : ℝ, K b n h = (r : EReal))
    (b : Fin 8) (p k : Fin 2048) : Cert.Att.masked Q K b p k ≠ ⊤ := by
  unfold Cert.Att.masked
  split
  · obtain ⟨x, hx⟩ := score_real Q K hQ hK b p k
    rw [hx]; exact EReal.coe_ne_top x
  · exact bot_ne_top

/-- Key 0 is never masked: its score is a real number. -/
theorem masked_zero_ne_bot (hQ : ∀ b n h, ∃ r : ℝ, Q b n h = (r : EReal)) (hK : ∀ b n h, ∃ r : ℝ, K b n h = (r : EReal))
    (b : Fin 8) (p : Fin 2048) : Cert.Att.masked Q K b p ⟨0, by decide⟩ ≠ ⊥ := by
  unfold Cert.Att.masked
  rw [if_pos (Nat.zero_le _)]
  obtain ⟨x, hx⟩ := score_real Q K hQ hK b p ⟨0, by decide⟩
  rw [hx]; exact EReal.coe_ne_bot x

end Spec

/-- The largest of scores that are never +∞, one of them not -∞, is a real number. -/
theorem sup_real {κ : Type} (s : κ → EReal) (K : Finset κ) (hs : ∀ k, s k ≠ ⊤) (k0 : κ) (hk0 : k0 ∈ K) (h0 : s k0 ≠ ⊥) :
    ∃ M : ℝ, K.sup s = (M : EReal) := by
  obtain ⟨k1, -, hsup⟩ := Finset.exists_mem_eq_sup K ⟨k0, hk0⟩ s
  have htop : K.sup s ≠ ⊤ := by rw [hsup]; exact hs k1
  have hbot : K.sup s ≠ ⊥ := fun hb => h0 (le_bot_iff.mp (hb ▸ Finset.le_sup hk0))
  exact ⟨(K.sup s).toReal, (EReal.coe_toReal htop hbot).symm⟩

/-- Keys whose scores are -∞ can be added to the keys seen so far without changing the state. -/
theorem inv_extend {κ : Type} [DecidableEq κ] {s : κ → EReal} {v : κ → ℝ} {K K' : Finset κ} {m l a : EReal}
    (h : Inv s v K m l a) (hsub : K ⊆ K') (hbot : ∀ k ∈ K', k ∉ K → s k = ⊥) : Inv s v K' m l a := by
  have hsup : K'.sup s = K.sup s :=
    le_antisymm (Finset.sup_le fun k hk => by
      by_cases hkK : k ∈ K
      · exact Finset.le_sup hkK
      · rw [hbot k hk hkK]; exact bot_le) (Finset.sup_mono hsub)
  refine ⟨h.max_eq.trans hsup.symm, ?_⟩
  rcases h.sums with h0 | ⟨M, hm, hl, ha⟩
  · exact Or.inl h0
  · refine Or.inr ⟨M, hm, ?_, ?_⟩
    · rw [hl]
      exact congrArg (fun x : ℝ => (x : EReal))
        (Finset.sum_subset hsub fun k hk hkK => by rw [hbot k hk hkK, wt_bot])
    · rw [ha]
      exact congrArg (fun x : ℝ => (x : EReal))
        (Finset.sum_subset hsub fun k hk hkK => by rw [hbot k hk hkK, wt_bot, zero_mul])

/-! ## One row of one query block -/

section Row
variable (Q K V : Fin 8 → Fin 2048 → Fin 1024 → EReal)

/-- The body's masked scaled scores of key block `j` for query block `qi` are the specification's masked scores. -/
theorem sc_eq (b : Fin 8) (qi j : Fin 4) (q k : Vec Ideal S1x512x1024 .bf16)
    (hq : ∀ (r : Fin 512) (h : Fin 1024), q (ix3 (0 : Fin 1) r h) = Q b (keyOf qi r) h)
    (hk : ∀ (r : Fin 512) (h : Fin 1024), k (ix3 (0 : Fin 1) r h) = K b (keyOf j r) h) (r c : Fin 512) :
    sc qi.val j.val q k r c = Cert.Att.masked Q K b (keyOf qi r) (keyOf j c) := by
  unfold sc Cert.Att.masked Cert.Att.score
  show (if j.val * 512 + c.val ≤ qi.val * 512 + r.val then _ else _)
    = (if j.val * 512 + c.val ≤ qi.val * 512 + r.val then _ else _)
  by_cases hle : j.val * 512 + c.val ≤ qi.val * 512 + r.val
  · rw [if_pos hle, if_pos hle]
    exact congrArg (· * ((1 / 32 : ℝ) : EReal)) (Finset.sum_congr rfl fun h _ => by rw [hq, hk])
  · rw [if_neg hle, if_neg hle]

/-- After the first `n` key blocks every row of the three buffers holds the softmax sums of the row over those blocks' keys. -/
def RowInv (b : Fin 8) (qi : Fin 4) (n : ℕ) (st : St Ideal) : Prop :=
  ∀ (r : Fin 512) (h : Fin 1024),
    Inv (Cert.Att.masked Q K b (keyOf qi r)) (fun k => (V b k h).toReal) (upTo n)
      (st.m (ix3 (0 : Fin 1) r (0 : Fin 1))) (st.l (ix3 (0 : Fin 1) r (0 : Fin 1))) (st.acc (ix3 (0 : Fin 1) r h))

/-- After the reset. -/
theorem rowInv_init (b : Fin 8) (qi : Fin 4) : RowInv Q K V b qi 0 (St.init (F := Ideal)) := by
  intro r h
  rw [upTo_zero, init_m, init_l, init_acc]
  exact Inv.init _ _

/-- One processed key block. -/
theorem rowInv_step (hQ : ∀ b n h, ∃ r : ℝ, Q b n h = (r : EReal)) (hK : ∀ b n h, ∃ r : ℝ, K b n h = (r : EReal))
    (hV : ∀ b n h, ∃ r : ℝ, V b n h = (r : EReal)) (b : Fin 8) (qi j : Fin 4)
    (q kj vj : Vec Ideal S1x512x1024 .bf16)
    (hq : ∀ (r : Fin 512) (h : Fin 1024), q (ix3 (0 : Fin 1) r h) = Q b (keyOf qi r) h)
    (hk : ∀ (r : Fin 512) (h : Fin 1024), kj (ix3 (0 : Fin 1) r h) = K b (keyOf j r) h)
    (hv : ∀ (r : Fin 512) (h : Fin 1024), vj (ix3 (0 : Fin 1) r h) = V b (keyOf j r) h)
    (st : St Ideal) (hst : RowInv Q K V b qi j.val st) :
    RowInv Q K V b qi (j.val + 1) (St.upd (BitVec.ofNat 32 qi.val) (BitVec.ofNat 32 j.val) q kj vj st) := by
  intro r h
  have hs : ∀ k, Cert.Att.masked Q K b (keyOf qi r) k ≠ ⊤ := masked_ne_top Q K hQ hK b (keyOf qi r)
  have hsup : (Finset.univ.sup fun c : Fin 512 => sc qi.val j.val q kj r c)
      = (blk j).sup (Cert.Att.masked Q K b (keyOf qi r)) := by
    rw [sup_blk]
    exact Finset.sup_congr rfl fun c _ => sc_eq Q K b qi j q kj hq hk r c
  have hI := hst r h
  -- the new maximum is the largest score over the keys so far, key 0 among them
  have hM : ∃ M : ℝ, max (st.m (ix3 (0 : Fin 1) r (0 : Fin 1))) ((blk j).sup (Cert.Att.masked Q K b (keyOf qi r))) = (M : EReal) := by
    rw [hI.max_eq, ← Finset.sup_union, ← upTo_succ]
    refine sup_real _ _ hs ⟨0, by decide⟩ ?_ (masked_zero_ne_bot Q K hQ hK b (keyOf qi r))
    simp only [upTo, Finset.mem_filter, Finset.mem_univ, true_and]
    show 0 < (j.val + 1) * 512
    omega
  obtain ⟨M, hM⟩ := hM
  have hstep := hI.step hs (upTo_disjoint j) hM
  rw [upTo_succ, upd_m qi.val j.val qi.isLt j.isLt, upd_l qi.val j.val qi.isLt j.isLt, upd_acc qi.val j.val qi.isLt j.isLt, hsup]
  have e1 : ∑ c : Fin 512, Ideal.exp (sc qi.val j.val q kj r c
        - max (st.m (ix3 (0 : Fin 1) r (0 : Fin 1))) ((blk j).sup (Cert.Att.masked Q K b (keyOf qi r))))
      = ∑ k ∈ blk j, Ideal.exp (Cert.Att.masked Q K b (keyOf qi r) k
        - max (st.m (ix3 (0 : Fin 1) r (0 : Fin 1))) ((blk j).sup (Cert.Att.masked Q K b (keyOf qi r)))) := by
    rw [sum_blk]
    exact Finset.sum_congr rfl fun c _ => by rw [sc_eq Q K b qi j q kj hq hk r c]
  have e2 : ∑ c : Fin 512, Ideal.exp (sc qi.val j.val q kj r c
        - max (st.m (ix3 (0 : Fin 1) r (0 : Fin 1))) ((blk j).sup (Cert.Att.masked Q K b (keyOf qi r))))
          * vj (ix3 (0 : Fin 1) c h)
      = ∑ k ∈ blk j, Ideal.exp (Cert.Att.masked Q K b (keyOf qi r) k
        - max (st.m (ix3 (0 : Fin 1) r (0 : Fin 1))) ((blk j).sup (Cert.Att.masked Q K b (keyOf qi r))))
          * (((V b k h).toReal : ℝ) : EReal) := by
    rw [sum_blk]
    refine Finset.sum_congr rfl fun c _ => ?_
    obtain ⟨x, hx⟩ := hV b (keyOf j c) h
    rw [sc_eq Q K b qi j q kj hq hk r c, hv, hx, EReal.toReal_coe]
  rw [e1, e2]
  exact hstep

/-- The quotient of the sums over all the keys is the specification's attention row. -/
theorem div_eq_attn (hQ : ∀ b n h, ∃ r : ℝ, Q b n h = (r : EReal)) (hK : ∀ b n h, ∃ r : ℝ, K b n h = (r : EReal))
    (hV : ∀ b n h, ∃ r : ℝ, V b n h = (r : EReal)) (b : Fin 8) (p : Fin 2048) (h : Fin 1024) (m l a : EReal)
    (hinv : Inv (Cert.Att.masked Q K b p) (fun k => (V b k h).toReal) Finset.univ m l a) :
    Ideal.div a l = Cert.Att.attn Q K V b p h := by
  have hs : ∀ k, Cert.Att.masked Q K b p k ≠ ⊤ := masked_ne_top Q K hQ hK b p
  obtain ⟨M, hM⟩ := sup_real _ Finset.univ hs ⟨0, by decide⟩ (Finset.mem_univ _) (masked_zero_ne_bot Q K hQ hK b p)
  rw [hinv.div_eq hs (hinv.max_eq.trans hM)]
  unfold Cert.Att.attn Cert.Att.rowMax
  rw [← hinv.max_eq]
  refine Finset.sum_congr rfl fun k _ => ?_
  obtain ⟨x, hx⟩ := hV b k h
  rw [hx, EReal.toReal_coe]

/-- Once the blocks up to the query's own are processed, the block written at the end is the specification's. -/
theorem rowInv_out (hQ : ∀ b n h, ∃ r : ℝ, Q b n h = (r : EReal)) (hK : ∀ b n h, ∃ r : ℝ, K b n h = (r : EReal))
    (hV : ∀ b n h, ∃ r : ℝ, V b n h = (r : EReal)) (b : Fin 8) (qi : Fin 4) (st : St Ideal)
    (hst : RowInv Q K V b qi (qi.val + 1) st) (r : Fin 512) (h : Fin 1024) :
    St.out st (ix3 (0 : Fin 1) r h) = Cert.Att.attn Q K V b (keyOf qi r) h := by
  rw [out_apply]
  refine div_eq_attn Q K V hQ hK hV b (keyOf qi r) h _ _ _
    (inv_extend (hst r h) (Finset.subset_univ _) fun k _ hk => ?_)
  -- a key outside the processed blocks is after the query
  simp only [upTo, Finset.mem_filter, Finset.mem_univ, true_and, not_lt] at hk
  unfold Cert.Att.masked
  have hr := r.isLt
  rw [if_neg (by show ¬ k.val ≤ qi.val * 512 + r.val; omega)]

end Row

/-- ONE QUERY BLOCK: the reset, the key blocks up to the query's own, the final quotient — the specification's rows. -/
theorem out_eq (Q K V : Fin 8 → Fin 2048 → Fin 1024 → EReal)
    (hQ : ∀ b n h, ∃ r : ℝ, Q b n h = (r : EReal)) (hK : ∀ b n h, ∃ r : ℝ, K b n h = (r : EReal))
    (hV : ∀ b n h, ∃ r : ℝ, V b n h = (r : EReal))
    (b : Fin 8) (qi : Fin 4)
    (q : Vec Ideal S1x512x1024 .bf16) (k v : Fin 4 → Vec Ideal S1x512x1024 .bf16)
    (hq : ∀ (r : Fin 512) (h : Fin 1024), q (ix3 0 r h) = Q b ⟨qi.val * 512 + r.val, by omega⟩ h)
    (hk : ∀ (j : Fin 4), j.val ≤ qi.val → ∀ (r : Fin 512) (h : Fin 1024), k j (ix3 0 r h) = K b ⟨j.val * 512 + r.val, by omega⟩ h)
    (hv : ∀ (j : Fin 4), j.val ≤ qi.val → ∀ (r : Fin 512) (h : Fin 1024), v j (ix3 0 r h) = V b ⟨j.val * 512 + r.val, by omega⟩ h) :
    let s0 := St.upd (BitVec.ofNat 32 qi.val) (BitVec.ofNat 32 0) q (k 0) (v 0) (St.init (F := Ideal))
    let s1 := if 1 ≤ qi.val then St.upd (BitVec.ofNat 32 qi.val) (BitVec.ofNat 32 1) q (k 1) (v 1) s0 else s0
    let s2 := if 2 ≤ qi.val then St.upd (BitVec.ofNat 32 qi.val) (BitVec.ofNat 32 2) q (k 2) (v 2) s1 else s1
    let s3 := if 3 ≤ qi.val then St.upd (BitVec.ofNat 32 qi.val) (BitVec.ofNat 32 3) q (k 3) (v 3) s2 else s2
    ∀ (r : Fin 512) (h : Fin 1024), St.out s3 (ix3 0 r h) = Cert.Att.attn Q K V b ⟨qi.val * 512 + r.val, by omega⟩ h := by
  intro s0 s1 s2 s3 r h
  have hq' : ∀ (r : Fin 512) (h : Fin 1024), q (ix3 (0 : Fin 1) r h) = Q b (keyOf qi r) h := hq
  have hk' : ∀ (j : Fin 4), j.val ≤ qi.val → ∀ (r : Fin 512) (h : Fin 1024), k j (ix3 (0 : Fin 1) r h) = K b (keyOf j r) h := hk
  have hv' : ∀ (j : Fin 4), j.val ≤ qi.val → ∀ (r : Fin 512) (h : Fin 1024), v j (ix3 (0 : Fin 1) r h) = V b (keyOf j r) h := hv
  have step : ∀ (j : Fin 4) (hj : j.val ≤ qi.val) (st : St Ideal), RowInv Q K V b qi j.val st →
      RowInv Q K V b qi (j.val + 1) (St.upd (BitVec.ofNat 32 qi.val) (BitVec.ofNat 32 j.val) q (k j) (v j) st) :=
    fun j hj st hst => rowInv_step Q K V hQ hK hV b qi j q (k j) (v j) hq' (hk' j hj) (hv' j hj) st hst
  have I0 : RowInv Q K V b qi (min qi.val 0 + 1) s0 := by
    have e : min qi.val 0 + 1 = (0 : Fin 4).val + 1 := by show _ = 0 + 1; omega
    rw [e]
    exact step 0 (Nat.zero_le _) _ (rowInv_init Q K V b qi)
  have I1 : RowInv Q K V b qi (min qi.val 1 + 1) s1 := by
    show RowInv Q K V b qi (min qi.val 1 + 1) (if 1 ≤ qi.val then _ else _)
    by_cases h1 : 1 ≤ qi.val
    · have e : min qi.val 1 + 1 = (1 : Fin 4).val + 1 := by show _ = 1 + 1; omega
      have e0 : min qi.val 0 + 1 = (1 : Fin 4).val := by show _ = 1; omega
      rw [if_pos h1, e]
      exact step 1 h1 _ (e0 ▸ I0)
    · have e : min qi.val 1 + 1 = min qi.val 0 + 1 := by omega
      rw [if_neg h1, e]; exact I0
  have I2 : RowInv Q K V b qi (min qi.val 2 + 1) s2 := by
    show RowInv Q K V b qi (min qi.val 2 + 1) (if 2 ≤ qi.val then _ else _)
    by_cases h2 : 2 ≤ qi.val
    · have e : min qi.val 2 + 1 = (2 : Fin 4).val + 1 := by show _ = 2 + 1; omega
      have e0 : min qi.val 1 + 1 = (2 : Fin 4).val := by show _ = 2; omega
      rw [if_pos h2, e]
      exact step 2 h2 _ (e0 ▸ I1)
    · have e : min qi.val 2 + 1 = min qi.val 1 + 1 := by omega
      rw [if_neg h2, e]; exact I1
  have I3 : RowInv Q K V b qi (min qi.val 3 + 1) s3 := by
    show RowInv Q K V b qi (min qi.val 3 + 1) (if 3 ≤ qi.val then _ else _)
    by_cases h3 : 3 ≤ qi.val
    · have e : min qi.val 3 + 1 = (3 : Fin 4).val + 1 := by show _ = 3 + 1; omega
      have e0 : min qi.val 2 + 1 = (3 : Fin 4).val := by show _ = 3; omega
      rw [if_pos h3, e]
      exact step 3 h3 _ (e0 ▸ I2)
    · have e : min qi.val 3 + 1 = min qi.val 2 + 1 := by omega
      rw [if_neg h3, e]; exact I2
  have e3 : min qi.val 3 + 1 = qi.val + 1 := by have := qi.isLt; omega
  exact rowInv_out Q K V hQ hK hV b qi s3 (e3 ▸ I3) r h

end Cert.KernelIdeal.AttValue

end
-- ==== Proof.KI.AttValue.lean ====
/-
  One query block of the streaming attention kernel computes the specification's attention rows: the statement is
  `Cert.KernelIdeal.AttValue.out_eq`, proved in three modules (the pieces read at an index; the payloads and the running
  buffers row by row; the streaming-softmax argument).
-/
import proofs.«104284_j31817117729495_2_alg».proof.Proof.KI.AttValueC
-- ==== Proof.KI.R1Value.lean ====
/-
  What each case of the attention kernel's body leaves in the three scratch buffers and in the output's buffer, as the
  terms of one query block's running state: at key block 0 the update of the reset state; at a later processed key block
  the update of what the point before left; on the diagonal's last block also the quotient of the updated state; at a
  skipped last key block the quotient of what the point before left. Each buffer is written by covering stores, so it
  ends holding the last store's value, and a load after a covering store reads that store's value.
-/
import proofs.«104284_j31817117729495_2_alg».proof.Proof.KI.R1
import proofs.«104284_j31817117729495_2_alg».proof.Proof.KI.AttValue
import Idealize.ShloMosaic.Lib.Pipeline.Value
import Idealize.ShloMosaic.Lib.Tactic

set_option maxRecDepth 16384

noncomputable section

namespace Cert.KernelIdeal.Run

open Cert.KernelIdeal Cert.KernelIdeal.Gen Cert.KernelIdeal.Att
open Idealize.ShloMosaic Idealize.ShloMosaic.TcCoe Idealize.ShloMosaic.Tactic Idealize.ShloMosaic.ValueIdx
open Idealize.SL Idealize.SL.RA Idealize.SL.BI
open Idealize.SL.Sem
open Idealize.ShloMosaic.Rounds
open Idealize.ShloMosaic.Pipeline (Dat Cfg Window BodyObligation cellOf)

variable {F : FTy → Type} [FloatOps F] [Named F]

/-- The zero offsets of a whole-buffer access. -/
theorem hz3 : (![0, 0, 0] : Fin 3 → Nat) = fun _ => 0 := funext fun a => by fin_cases a <;> rfl

/-- At key block 0 the running-maximum buffer is left holding the update's maximum of the reset buffers. -/
theorem sout1_A_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) :
    sout1_A_0 c i arg3 harg3 arg4 harg4 arg5 harg5 arg6 harg6 arg7 harg7 arg8 harg8 arg9 harg9 hc0 hc1 hc2 x0 x1 x2
      = (St.upd (BitVec.ofNat 32 (i 1).val) (BitVec.ofNat 32 (i 2).val) x0 x1 x2 (St.init (F := F))).m := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- At key block 0 the normaliser buffer is left holding the update's normaliser of the reset buffers. -/
theorem sout1_A_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) :
    sout1_A_1 c i arg3 harg3 arg4 harg4 arg5 harg5 arg6 harg6 arg7 harg7 arg8 harg8 arg9 harg9 hc0 hc1 hc2 x0 x1 x2
      = (St.upd (BitVec.ofNat 32 (i 1).val) (BitVec.ofNat 32 (i 2).val) x0 x1 x2 (St.init (F := F))).l := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- At key block 0 the weighted-sum buffer is left holding the update's weighted sum of the reset buffers. -/
theorem sout1_A_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i)
    (x0 x1 x2 : Vec F S1x512x1024 .bf16) :
    sout1_A_2 c i arg3 harg3 arg4 harg4 arg5 harg5 arg6 harg6 arg7 harg7 arg8 harg8 arg9 harg9 hc0 hc1 hc2 x0 x1 x2
      = (St.upd (BitVec.ofNat 32 (i 1).val) (BitVec.ofNat 32 (i 2).val) x0 x1 x2 (St.init (F := F))).acc := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- At a processed key block after the first the running-maximum buffer is left holding the update's maximum. -/
theorem sout1_B_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) :
    sout1_B_0 c i arg3 harg3 arg4 harg4 arg5 harg5 arg6 harg6 arg7 harg7 arg8 harg8 arg9 harg9 hc0 hc1 hc2 x0 x1 x2 xs0 xs1 xs2
      = (St.upd (BitVec.ofNat 32 (i 1).val) (BitVec.ofNat 32 (i 2).val) x0 x1 x2 ⟨xs0, xs1, xs2⟩).m := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- At a processed key block after the first the normaliser buffer is left holding the update's normaliser. -/
theorem sout1_B_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) :
    sout1_B_1 c i arg3 harg3 arg4 harg4 arg5 harg5 arg6 harg6 arg7 harg7 arg8 harg8 arg9 harg9 hc0 hc1 hc2 x0 x1 x2 xs0 xs1 xs2
      = (St.upd (BitVec.ofNat 32 (i 1).val) (BitVec.ofNat 32 (i 2).val) x0 x1 x2 ⟨xs0, xs1, xs2⟩).l := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- At a processed key block after the first the weighted-sum buffer is left holding the update's weighted sum. -/
theorem sout1_B_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i)
    (x0 x1 x2 : Vec F S1x512x1024 .bf16) (xs0 xs1 : Vec F S1x512x1 .f32) (xs2 : Vec F S1x512x1024 .f32) :
    sout1_B_2 c i arg3 harg3 arg4 harg4 arg5 harg5 arg6 harg6 arg7 harg7 arg8 harg8 arg9 harg9 hc0 hc1 hc2 x0 x1 x2 xs0 xs1 xs2
      = (St.upd (BitVec.ofNat 32 (i 1).val) (BitVec.ofNat 32 (i 2).val) x0 x1 x2 ⟨xs0, xs1, xs2⟩).acc := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- On the diagonal's last block the running-maximum buffer is left holding the update's maximum. -/
theorem sout1_C_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) :
    sout1_C_0 c i arg3 harg3 arg4 harg4 arg5 harg5 arg6 harg6 arg7 harg7 arg8 harg8 arg9 harg9 hc0 hc1 hc2 x0 x1 x2 xs0 xs1 xs2
      = (St.upd (BitVec.ofNat 32 (i 1).val) (BitVec.ofNat 32 (i 2).val) x0 x1 x2 ⟨xs0, xs1, xs2⟩).m := by
  unfold sout1_C_0
  rw [View.read_writes_eq_canon _ _ _ (scover1_C_0 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- On the diagonal's last block the normaliser buffer is left holding the update's normaliser. -/
theorem sout1_C_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) :
    sout1_C_1 c i arg3 harg3 arg4 harg4 arg5 harg5 arg6 harg6 arg7 harg7 arg8 harg8 arg9 harg9 hc0 hc1 hc2 x0 x1 x2 xs0 xs1 xs2
      = (St.upd (BitVec.ofNat 32 (i 1).val) (BitVec.ofNat 32 (i 2).val) x0 x1 x2 ⟨xs0, xs1, xs2⟩).l := by
  unfold sout1_C_1
  rw [View.read_writes_eq_canon _ _ _ (scover1_C_1 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- On the diagonal's last block the weighted-sum buffer is left holding the update's weighted sum. -/
theorem sout1_C_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) :
    sout1_C_2 c i arg3 harg3 arg4 harg4 arg5 harg5 arg6 harg6 arg7 harg7 arg8 harg8 arg9 harg9 hc0 hc1 hc2 x0 x1 x2 xs0 xs1 xs2
      = (St.upd (BitVec.ofNat 32 (i 1).val) (BitVec.ofNat 32 (i 2).val) x0 x1 x2 ⟨xs0, xs1, xs2⟩).acc := by
  unfold sout1_C_2
  rw [View.read_writes_eq_canon _ _ _ (scover1_C_2 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- On the diagonal's last block the output's buffer is left holding the quotient of the updated buffers. -/
theorem out1_C_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i)
    (x0 x1 x2 : Vec F S1x512x1024 .bf16) (xs0 xs1 : Vec F S1x512x1 .f32) (xs2 : Vec F S1x512x1024 .f32) :
    out1_C_3 c i arg3 harg3 arg4 harg4 arg5 harg5 arg6 harg6 arg7 harg7 arg8 harg8 arg9 harg9 hc0 hc1 hc2 x0 x1 x2 xs0 xs1 xs2
      = St.out (St.upd (BitVec.ofNat 32 (i 1).val) (BitVec.ofNat 32 (i 2).val) x0 x1 x2 ⟨xs0, xs1, xs2⟩) := by
  unfold out1_C_3
  rw [View.read_writes_eq_canon _ _ _ (cover1_C_3 c i arg3 harg3 arg4 harg4 arg5 harg5 arg6 harg6 arg7 harg7 arg8 harg8 arg9 harg9 hc0 hc1 hc2 x0 x1 x2 xs0 xs1 xs2)]
  unfold kernelRun1_C
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

/-- At a skipped last key block the output's buffer is left holding the quotient of what the scratch buffers held. -/
theorem out1_E_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i)
    (x0 x1 x2 : Vec F S1x512x1024 .bf16) (xs0 xs1 : Vec F S1x512x1 .f32) (xs2 : Vec F S1x512x1024 .f32) :
    out1_E_3 c i arg3 harg3 arg4 harg4 arg5 harg5 arg6 harg6 arg7 harg7 arg8 harg8 arg9 harg9 hc0 hc1 hc2 x0 x1 x2 xs0 xs1 xs2
      = St.out (⟨xs0, xs1, xs2⟩ : St F) := by
  unfold out1_E_3
  rw [View.read_writes_eq_canon _ _ _ (cover1_E_3 c i arg3 harg3 arg4 harg4 arg5 harg5 arg6 harg6 arg7 harg7 arg8 harg8 arg9 harg9 hc0 hc1 hc2 x0 x1 x2 xs0 xs1 xs2)]
  unfold kernelRun1_E
  dsimp only
  sl_unfold_words
  rw [View.canon_cons_unit_zero hz3]
  simp only [View.readCov_unit_zero (S := S1x512x1) _ hz3, View.readCov_unit_zero (S := S1x512x1024) _ hz3, View.readAt_eq_ld, harg3.read_unread, harg4.read_unread, harg5.read_unread, harg6.read_unread, harg7.read_unread, harg8.read_unread, harg9.read_unread, View.ld_unit_zero (S := S1x512x1024) hz3, View.ld_unit_zero (S := S1x512x1) hz3]
  rfl

end Cert.KernelIdeal.Run

end
-- ==== Proof.KI.R1Final.lean ====
/-
  The attention region's output array is the specification's attention of the three column blocks of the fused
  projection array.

  The 128 grid points come in 32 groups of four consecutive points, one group per (batch, query block); within a group
  the key block runs 0, 1, 2, 3. The first point of a group resets the three running buffers and processes key block 0;
  each later point processes its key block iff that block is at or before the query block, and otherwise leaves the
  buffers alone; the last point also writes the quotient. So after a group the output's staging buffer holds the
  quotient of the buffers after: the reset step, then the steps of key blocks 1, 2, 3 where they are at most the query
  block. That is one query block of the streaming recurrence, which computes the specification's attention rows; the 32
  quotients tile the output array.
-/
import proofs.«104284_j31817117729495_2_alg».proof.Proof.KI.R1
import proofs.«104284_j31817117729495_2_alg».proof.Proof.KI.R1Blocks
import proofs.«104284_j31817117729495_2_alg».proof.Proof.KI.R1Value
import proofs.«104284_j31817117729495_2_alg».proof.Proof.KI.Step
import proofs.«104284_j31817117729495_2_alg».proof.Proof.KI.AttValueC
import proofs.«104284_j31817117729495_2_alg».proof.Proof.AttSpec

set_option maxRecDepth 16384

noncomputable section

namespace Cert.KernelIdeal.Run

open Cert.KernelIdeal Cert.KernelIdeal.Gen Cert.KernelIdeal.Att
open Idealize.ShloMosaic Idealize.ShloMosaic.TcCoe Idealize.ShloMosaic.ValueIdx Idealize.SL.Sem
open Idealize.SL Idealize.SL.RA Idealize.SL.BI
open Idealize.ShloMosaic.Rounds
open Idealize.ShloMosaic.Pipeline (Dat)

variable {F : FTy → Type} [FloatOps F] [Named F]

/-- What each case of the body leaves in the three running buffers and in the output's staging buffer, as the pure
    one-key-block step and the final quotient of what the body loaded: the eleven equations between the pieces the run
    found and the payload terms. -/
structure Pieces1 (F : FTy → Type) [FloatOps F] [Named F] : Prop where
  A0 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i) (x0 x1 x2 : Vec F S1x512x1024 .bf16),
    sout1_A_0 c i arg3 harg3 arg4 harg4 arg5 harg5 arg6 harg6 arg7 harg7 arg8 harg8 arg9 harg9 hc0 hc1 hc2 x0 x1 x2 = (St.upd (BitVec.ofNat 32 (i 1).val) (BitVec.ofNat 32 (i 2).val) x0 x1 x2 (St.init (F := F))).m
  A1 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i) (x0 x1 x2 : Vec F S1x512x1024 .bf16),
    sout1_A_1 c i arg3 harg3 arg4 harg4 arg5 harg5 arg6 harg6 arg7 harg7 arg8 harg8 arg9 harg9 hc0 hc1 hc2 x0 x1 x2 = (St.upd (BitVec.ofNat 32 (i 1).val) (BitVec.ofNat 32 (i 2).val) x0 x1 x2 (St.init (F := F))).l
  A2 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : cond1_0 i) (hc1 : cond1_1 i) (hc2 : ¬cond1_2 i) (x0 x1 x2 : Vec F S1x512x1024 .bf16),
    sout1_A_2 c i arg3 harg3 arg4 harg4 arg5 harg5 arg6 harg6 arg7 harg7 arg8 harg8 arg9 harg9 hc0 hc1 hc2 x0 x1 x2 = (St.upd (BitVec.ofNat 32 (i 1).val) (BitVec.ofNat 32 (i 2).val) x0 x1 x2 (St.init (F := F))).acc
  B0 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i) (x0 x1 x2 : Vec F S1x512x1024 .bf16) (xs0 xs1 : Vec F S1x512x1 .f32) (xs2 : Vec F S1x512x1024 .f32),
    sout1_B_0 c i arg3 harg3 arg4 harg4 arg5 harg5 arg6 harg6 arg7 harg7 arg8 harg8 arg9 harg9 hc0 hc1 hc2 x0 x1 x2 xs0 xs1 xs2 = (St.upd (BitVec.ofNat 32 (i 1).val) (BitVec.ofNat 32 (i 2).val) x0 x1 x2 ⟨xs0, xs1, xs2⟩).m
  B1 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i) (x0 x1 x2 : Vec F S1x512x1024 .bf16) (xs0 xs1 : Vec F S1x512x1 .f32) (xs2 : Vec F S1x512x1024 .f32),
    sout1_B_1 c i arg3 harg3 arg4 harg4 arg5 harg5 arg6 harg6 arg7 harg7 arg8 harg8 arg9 harg9 hc0 hc1 hc2 x0 x1 x2 xs0 xs1 xs2 = (St.upd (BitVec.ofNat 32 (i 1).val) (BitVec.ofNat 32 (i 2).val) x0 x1 x2 ⟨xs0, xs1, xs2⟩).l
  B2 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : ¬cond1_2 i) (x0 x1 x2 : Vec F S1x512x1024 .bf16) (xs0 xs1 : Vec F S1x512x1 .f32) (xs2 : Vec F S1x512x1024 .f32),
    sout1_B_2 c i arg3 harg3 arg4 harg4 arg5 harg5 arg6 harg6 arg7 harg7 arg8 harg8 arg9 harg9 hc0 hc1 hc2 x0 x1 x2 xs0 xs1 xs2 = (St.upd (BitVec.ofNat 32 (i 1).val) (BitVec.ofNat 32 (i 2).val) x0 x1 x2 ⟨xs0, xs1, xs2⟩).acc
  C0 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i) (x0 x1 x2 : Vec F S1x512x1024 .bf16) (xs0 xs1 : Vec F S1x512x1 .f32) (xs2 : Vec F S1x512x1024 .f32),
    sout1_C_0 c i arg3 harg3 arg4 harg4 arg5 harg5 arg6 harg6 arg7 harg7 arg8 harg8 arg9 harg9 hc0 hc1 hc2 x0 x1 x2 xs0 xs1 xs2 = (St.upd (BitVec.ofNat 32 (i 1).val) (BitVec.ofNat 32 (i 2).val) x0 x1 x2 ⟨xs0, xs1, xs2⟩).m
  C1 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i) (x0 x1 x2 : Vec F S1x512x1024 .bf16) (xs0 xs1 : Vec F S1x512x1 .f32) (xs2 : Vec F S1x512x1024 .f32),
    sout1_C_1 c i arg3 harg3 arg4 harg4 arg5 harg5 arg6 harg6 arg7 harg7 arg8 harg8 arg9 harg9 hc0 hc1 hc2 x0 x1 x2 xs0 xs1 xs2 = (St.upd (BitVec.ofNat 32 (i 1).val) (BitVec.ofNat 32 (i 2).val) x0 x1 x2 ⟨xs0, xs1, xs2⟩).l
  C2 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i) (x0 x1 x2 : Vec F S1x512x1024 .bf16) (xs0 xs1 : Vec F S1x512x1 .f32) (xs2 : Vec F S1x512x1024 .f32),
    sout1_C_2 c i arg3 harg3 arg4 harg4 arg5 harg5 arg6 harg6 arg7 harg7 arg8 harg8 arg9 harg9 hc0 hc1 hc2 x0 x1 x2 xs0 xs1 xs2 = (St.upd (BitVec.ofNat 32 (i 1).val) (BitVec.ofNat 32 (i 2).val) x0 x1 x2 ⟨xs0, xs1, xs2⟩).acc
  C3 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : cond1_1 i) (hc2 : cond1_2 i) (x0 x1 x2 : Vec F S1x512x1024 .bf16) (xs0 xs1 : Vec F S1x512x1 .f32) (xs2 : Vec F S1x512x1024 .f32),
    out1_C_3 c i arg3 harg3 arg4 harg4 arg5 harg5 arg6 harg6 arg7 harg7 arg8 harg8 arg9 harg9 hc0 hc1 hc2 x0 x1 x2 xs0 xs1 xs2 = St.out (St.upd (BitVec.ofNat 32 (i 1).val) (BitVec.ofNat 32 (i 2).val) x0 x1 x2 ⟨xs0, xs1, xs2⟩)
  E3 : ∀ (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1 .f32) (harg7 : arg7.IsWhole) (arg8 : Memref sig .tc .vmem S1x512x1 .f32) (harg8 : arg8.IsWhole) (arg9 : Memref sig .tc .vmem S1x512x1024 .f32) (harg9 : arg9.IsWhole) (hc0 : ¬cond1_0 i) (hc1 : ¬cond1_1 i) (hc2 : cond1_2 i) (x0 x1 x2 : Vec F S1x512x1024 .bf16) (xs0 xs1 : Vec F S1x512x1 .f32) (xs2 : Vec F S1x512x1024 .f32),
    out1_E_3 c i arg3 harg3 arg4 harg4 arg5 harg5 arg6 harg6 arg7 harg7 arg8 harg8 arg9 harg9 hc0 hc1 hc2 x0 x1 x2 xs0 xs1 xs2 = St.out (⟨xs0, xs1, xs2⟩ : St F)

variable (V : VT F)

/-- The three running buffers among the four a point leaves. -/
def stOf (p : Vec F S1x512x1024 .f32 × Vec F S1x512x1 .f32 × Vec F S1x512x1 .f32 × Vec F S1x512x1024 .f32) : St F :=
  ⟨p.2.1, p.2.2.1, p.2.2.2⟩

/-- A point's query block and key block numbers, decided once over the grid. -/
theorem coords_facts1 : ∀ t : Fin cfg1.N, ((grid1.coords t) 1).val = t.val / 4 % 4 ∧ ((grid1.coords t) 2).val = t.val % 4 :=
  (by decide +kernel : ∀ t : Fin grid1.N, ((grid1.coords t) 1).val = t.val / 4 % 4 ∧ ((grid1.coords t) 2).val = t.val % 4)

/-! ## One point -/

/-- Key block 0: the buffers are reset and the block processed, whatever was there. -/
theorem stepAt1_first (H : Pieces1 F) (c : Dev nD) (t : Fin cfg1.N) (h0 : t.val % 4 = 0)
    (p : Vec F S1x512x1024 .f32 × Vec F S1x512x1 .f32 × Vec F S1x512x1 .f32 × Vec F S1x512x1024 .f32) :
    stOf (stepAt1 V c t p)
      = St.upd (BitVec.ofNat 32 (t.val / 4 % 4)) (BitVec.ofNat 32 (t.val % 4)) (iblk1 V c 0 t) (iblk1 V c 1 t) (iblk1 V c 2 t)
          (St.init (F := F)) := by
  obtain ⟨e1, e2⟩ := coords_facts1 t
  unfold stepAt1
  rw [dif_pos h0]
  unfold stOf
  dsimp only
  rw [H.A0, H.A1, H.A2, e1, e2]

/-- A later key block at or before the query block: one step from what the point before left. -/
theorem stepAt1_upd (H : Pieces1 F) (c : Dev nD) (t : Fin cfg1.N) (h0 : t.val % 4 ≠ 0) (h1 : t.val % 4 ≤ t.val / 4 % 4)
    (p : Vec F S1x512x1024 .f32 × Vec F S1x512x1 .f32 × Vec F S1x512x1 .f32 × Vec F S1x512x1024 .f32) :
    stOf (stepAt1 V c t p)
      = St.upd (BitVec.ofNat 32 (t.val / 4 % 4)) (BitVec.ofNat 32 (t.val % 4)) (iblk1 V c 0 t) (iblk1 V c 1 t) (iblk1 V c 2 t)
          (stOf p) := by
  obtain ⟨e1, e2⟩ := coords_facts1 t
  unfold stepAt1
  rw [dif_neg h0, dif_pos h1]
  by_cases h2 : t.val % 4 = 3
  · rw [dif_pos h2]
    unfold stOf
    dsimp only
    rw [H.C0, H.C1, H.C2, e1, e2]
  · rw [dif_neg h2]
    unfold stOf
    dsimp only
    rw [H.B0, H.B1, H.B2, e1, e2]

/-- A key block after the query block: the buffers are left alone. -/
theorem stepAt1_skip (c : Dev nD) (t : Fin cfg1.N) (h0 : t.val % 4 ≠ 0) (h1 : ¬ t.val % 4 ≤ t.val / 4 % 4)
    (p : Vec F S1x512x1024 .f32 × Vec F S1x512x1 .f32 × Vec F S1x512x1 .f32 × Vec F S1x512x1024 .f32) :
    stOf (stepAt1 V c t p) = stOf p := by
  unfold stepAt1
  rw [dif_neg h0, dif_neg h1]
  by_cases h2 : t.val % 4 = 3
  · rw [dif_pos h2]; unfold stOf; dsimp only
  · rw [dif_neg h2]

/-- At the last key block the output's staging buffer is the quotient of the buffers the point leaves. -/
theorem stepAt1_out (H : Pieces1 F) (c : Dev nD) (t : Fin cfg1.N) (h2 : t.val % 4 = 3)
    (p : Vec F S1x512x1024 .f32 × Vec F S1x512x1 .f32 × Vec F S1x512x1 .f32 × Vec F S1x512x1024 .f32) :
    (stepAt1 V c t p).1 = St.out (stOf (stepAt1 V c t p)) := by
  obtain ⟨e1, e2⟩ := coords_facts1 t
  have h0 : t.val % 4 ≠ 0 := by omega
  by_cases h1 : t.val % 4 ≤ t.val / 4 % 4
  · rw [stepAt1_upd V H c t h0 h1 p]
    unfold stepAt1
    rw [dif_neg h0, dif_pos h1, dif_pos h2]
    dsimp only
    rw [H.C3, e1, e2]
    rfl
  · rw [stepAt1_skip V c t h0 h1 p]
    unfold stepAt1
    rw [dif_neg h0, dif_neg h1, dif_pos h2]
    dsimp only
    rw [H.E3]
    rfl

/-! ## Along the points -/

theorem outsAt1_congr (c : Dev nD) {n n' : ℕ} (e : n = n') (hn : n < cfg1.N) (hn' : n' < cfg1.N) :
    outsAt1 V c n hn = outsAt1 V c n' hn' := by
  subst e; rfl

/-- After a point: the point's step on what the point before left. -/
theorem outsAt1_step (c : Dev nD) (t t' : Fin cfg1.N) (e : t.val = t'.val + 1) :
    outsAt1 V c t.val t.isLt = stepAt1 V c t (outsAt1 V c t'.val t'.isLt) := by
  rw [outsAt1_pos V c t (by omega)]
  exact congrArg (stepAt1 V c t) (outsAt1_congr V c (by omega) _ _)

/-- The running buffers after the first point of a group. -/
theorem st_first (H : Pieces1 F) (c : Dev nD) (t : Fin cfg1.N) (h0 : t.val % 4 = 0) :
    stOf (outsAt1 V c t.val t.isLt)
      = St.upd (BitVec.ofNat 32 (t.val / 4 % 4)) (BitVec.ofNat 32 (t.val % 4)) (iblk1 V c 0 t) (iblk1 V c 1 t) (iblk1 V c 2 t)
          (St.init (F := F)) := by
  by_cases hz : t.val = 0
  · rw [outsAt1_zero V c t hz]; exact stepAt1_first V H c t h0 _
  · rw [outsAt1_pos V c t hz]; exact stepAt1_first V H c t h0 _

/-- A later point of a group: one step if its key block is at or before the query block, else nothing. -/
def updAt (c : Dev nD) (t : Fin cfg1.N) (s : St F) : St F :=
  if t.val % 4 ≤ t.val / 4 % 4 then
    St.upd (BitVec.ofNat 32 (t.val / 4 % 4)) (BitVec.ofNat 32 (t.val % 4)) (iblk1 V c 0 t) (iblk1 V c 1 t) (iblk1 V c 2 t) s
  else s

theorem st_next (H : Pieces1 F) (c : Dev nD) (t t' : Fin cfg1.N) (e : t.val = t'.val + 1) (h0 : t.val % 4 ≠ 0) :
    stOf (outsAt1 V c t.val t.isLt) = updAt V c t (stOf (outsAt1 V c t'.val t'.isLt)) := by
  rw [outsAt1_step V c t t' e]
  unfold updAt
  by_cases h1 : t.val % 4 ≤ t.val / 4 % 4
  · rw [if_pos h1]; exact stepAt1_upd V H c t h0 h1 _
  · rw [if_neg h1]; exact stepAt1_skip V c t h0 h1 _

theorem out_last (H : Pieces1 F) (c : Dev nD) (t t' : Fin cfg1.N) (e : t.val = t'.val + 1) (h3 : t.val % 4 = 3) :
    (outsAt1 V c t.val t.isLt).1 = St.out (stOf (outsAt1 V c t.val t.isLt)) := by
  rw [outsAt1_step V c t t' e]
  exact stepAt1_out V H c t h3 _

/-- The query block is the same at every point of a group. -/
theorem iblk1_0_congr (c : Dev nD) (t t' : Fin cfg1.N) (h16 : t.val / 16 = t'.val / 16) (h4 : t.val / 4 % 4 = t'.val / 4 % 4) :
    (iblk1 V c 0 t : S1x512x1024.Idx → Elt F .bf16) = iblk1 V c 0 t' := by
  funext y
  obtain ⟨z, r, h, rfl⟩ : ∃ (z : Fin 1) (r : Fin 512) (h : Fin 1024), y = ix3 z r h :=
    ⟨y 0, y 1, y 2, @eq_ix3 1 512 1024 y⟩
  obtain rfl : z = 0 := Subsingleton.elim _ _
  refine (iblk1_0_apply V c t r h).trans
    ((congrArg (V c main_v6 : S8x2048x3072.Idx → Elt F .bf16) (funext fun a => Fin.ext ?_)).trans (iblk1_0_apply V c t' r h).symm)
  match a with
  | ⟨0, _⟩ => exact h16
  | ⟨1, _⟩ => show t.val / 4 % 4 * 512 + r.val = t'.val / 4 % 4 * 512 + r.val; rw [h4]
  | ⟨2, _⟩ => rfl

/-! ## One group of four points -/

/-- One query block of the recurrence: the reset step on key block 0, then key blocks 1, 2, 3 where at most the query block. -/
def rowSt (qi : Fin 4) (q : Vec F S1x512x1024 .bf16) (k v : Fin 4 → Vec F S1x512x1024 .bf16) : St F :=
  let s0 := St.upd (BitVec.ofNat 32 qi.val) (BitVec.ofNat 32 0) q (k 0) (v 0) (St.init (F := F))
  let s1 := if 1 ≤ qi.val then St.upd (BitVec.ofNat 32 qi.val) (BitVec.ofNat 32 1) q (k 1) (v 1) s0 else s0
  let s2 := if 2 ≤ qi.val then St.upd (BitVec.ofNat 32 qi.val) (BitVec.ofNat 32 2) q (k 2) (v 2) s1 else s1
  let s3 := if 3 ≤ qi.val then St.upd (BitVec.ofNat 32 qi.val) (BitVec.ofNat 32 3) q (k 3) (v 3) s2 else s2
  s3

/-- After the four points of a group the output's staging buffer holds the quotient of that recurrence on the group's
    query block and its four key and value blocks. -/
theorem row_out (H : Pieces1 F) (c : Dev nD) (u : Fin 4 → Fin cfg1.N) (hu : ∀ j : Fin 4, (u j).val = (u 0).val + j.val)
    (h0 : (u 0).val % 4 = 0) (qi : Fin 4) (hqi : qi.val = (u 0).val / 4 % 4) :
    (outsAt1 V c (u 3).val (u 3).isLt).1
      = St.out (rowSt qi (iblk1 V c 0 (u 0)) (fun j => iblk1 V c 1 (u j)) (fun j => iblk1 V c 2 (u j))) := by
  have e1 : (u 1).val = (u 0).val + 1 := hu 1
  have e2 : (u 2).val = (u 0).val + 2 := hu 2
  have e3 : (u 3).val = (u 0).val + 3 := hu 3
  rw [out_last V H c (u 3) (u 2) (by omega) (by omega)]
  refine congrArg St.out ?_
  rw [st_next V H c (u 3) (u 2) (by omega) (by omega), st_next V H c (u 2) (u 1) (by omega) (by omega),
    st_next V H c (u 1) (u 0) (by omega) (by omega), st_first V H c (u 0) h0]
  unfold rowSt updAt
  dsimp only
  rw [iblk1_0_congr V c (u 3) (u 0) (by omega) (by omega), iblk1_0_congr V c (u 2) (u 0) (by omega) (by omega),
    iblk1_0_congr V c (u 1) (u 0) (by omega) (by omega)]
  rw [show (u 3).val % 4 = 3 by omega, show (u 2).val % 4 = 2 by omega, show (u 1).val % 4 = 1 by omega, h0,
    show (u 3).val / 4 % 4 = qi.val by omega, show (u 2).val / 4 % 4 = qi.val by omega,
    show (u 1).val / 4 % 4 = qi.val by omega, ← hqi]

/-! ## The region's result -/

/-- The eleven equations between the found pieces and the payload terms hold. -/
theorem pieces1 : Pieces1 F :=
  ⟨sout1_A_0_eq, sout1_A_1_eq, sout1_A_2_eq, sout1_B_0_eq, sout1_B_1_eq, sout1_B_2_eq, sout1_C_0_eq, sout1_C_1_eq,
    sout1_C_2_eq, out1_C_3_eq, out1_E_3_eq⟩

/-- THE RESULT of the attention region, at the ideal values: if the fused projection array it reads holds real numbers,
    its output array ends holding the specification's attention of the array's three column blocks (queries: columns
    0 … 1023, keys: 1024 … 2047, values: 2048 … 3071). -/
theorem final1 (V : VT Ideal) (c : Dev nD) (hfin : ∀ i, ∃ x : ℝ, V c main_v6 i = (x : EReal)) :
    (dat1 (F := Ideal) V c).arrAt 3 cfg1.N
      = fun i : S8x2048x1024.Idx => Cert.Att.attn (fun b n h => (V c main_v6 : S8x2048x3072.Idx → EReal) (ix3 b n (⟨h.val, by omega⟩ : Fin 3072)))
          (fun b n h => (V c main_v6 : S8x2048x3072.Idx → EReal) (ix3 b n (⟨1024 + h.val, by omega⟩ : Fin 3072)))
          (fun b n h => (V c main_v6 : S8x2048x3072.Idx → EReal) (ix3 b n (⟨2048 + h.val, by omega⟩ : Fin 3072)))
          (i 0) (i 1) (i 2) := by
  refine final1_of (dat1 (F := Ideal) V c) _ fun t ht r h => ?_
  have hN := lt128 t
  rw [after1_3 V c t]
  -- the four points of t's group
  have hb : ∀ j : Fin 4, t.val - 3 + j.val < cfg1.N := fun j =>
    lt_of_lt_of_eq (by have := j.isLt; omega : t.val - 3 + j.val < 128) N_1.symm
  have e3 : outsAt1 V c t.val t.isLt = outsAt1 V c (t.val - 3 + (3 : Fin 4).val) (hb 3) :=
    outsAt1_congr V c (by show t.val = t.val - 3 + 3; omega) _ _
  rw [e3]
  refine (congrFun (row_out V pieces1 c (fun j : Fin 4 => (⟨t.val - 3 + j.val, hb j⟩ : Fin cfg1.N))
    (fun j => by show t.val - 3 + j.val = t.val - 3 + 0 + j.val; omega)
    (by show (t.val - 3 + 0) % 4 = 0; omega) ⟨t.val / 4 % 4, by omega⟩
    (by show t.val / 4 % 4 = (t.val - 3 + 0) / 4 % 4; omega)) (ix3 (0 : Fin 1) r h)).trans ?_
  -- the group's query block, and its key and value blocks up to the query block, are rows of the three column blocks
  have hq : ∀ (r : Fin 512) (h : Fin 1024),
      (iblk1 V c 0 (⟨t.val - 3 + (0 : Fin 4).val, hb 0⟩ : Fin cfg1.N) : S1x512x1024.Idx → EReal) (ix3 (0 : Fin 1) r h)
        = (V c main_v6 : S8x2048x3072.Idx → EReal)
            (ix3 (⟨t.val / 16, by omega⟩ : Fin 8) (⟨t.val / 4 % 4 * 512 + r.val, by have := r.isLt; omega⟩ : Fin 2048)
              (⟨h.val, by omega⟩ : Fin 3072)) := fun r h => by
    refine (iblk1_0_apply V c ⟨t.val - 3 + (0 : Fin 4).val, hb 0⟩ r h).trans
      (congrArg (V c main_v6 : S8x2048x3072.Idx → EReal) (funext fun a => Fin.ext ?_))
    match a with
    | ⟨0, _⟩ => show (t.val - 3 + 0) / 16 = t.val / 16; omega
    | ⟨1, _⟩ => show (t.val - 3 + 0) / 4 % 4 * 512 + r.val = t.val / 4 % 4 * 512 + r.val; omega
    | ⟨2, _⟩ => rfl
  have hk : ∀ (j : Fin 4), j.val ≤ t.val / 4 % 4 → ∀ (r : Fin 512) (h : Fin 1024),
      (iblk1 V c 1 (⟨t.val - 3 + j.val, hb j⟩ : Fin cfg1.N) : S1x512x1024.Idx → EReal) (ix3 (0 : Fin 1) r h)
        = (V c main_v6 : S8x2048x3072.Idx → EReal)
            (ix3 (⟨t.val / 16, by omega⟩ : Fin 8) (⟨j.val * 512 + r.val, by have := r.isLt; have := j.isLt; omega⟩ : Fin 2048)
              (⟨1024 + h.val, by omega⟩ : Fin 3072)) := fun j hj r h => by
    have hjl := j.isLt
    refine (iblk1_1_apply V c ⟨t.val - 3 + j.val, hb j⟩ r h).trans
      (congrArg (V c main_v6 : S8x2048x3072.Idx → EReal) (funext fun a => Fin.ext ?_))
    match a with
    | ⟨0, _⟩ => show (t.val - 3 + j.val) / 16 = t.val / 16; omega
    | ⟨1, _⟩ =>
      show min ((t.val - 3 + j.val) % 4) ((t.val - 3 + j.val) / 4 % 4) * 512 + r.val = j.val * 512 + r.val
      rw [show (t.val - 3 + j.val) % 4 = j.val by omega, show (t.val - 3 + j.val) / 4 % 4 = t.val / 4 % 4 by omega,
        Nat.min_eq_left hj]
    | ⟨2, _⟩ => rfl
  have hv : ∀ (j : Fin 4), j.val ≤ t.val / 4 % 4 → ∀ (r : Fin 512) (h : Fin 1024),
      (iblk1 V c 2 (⟨t.val - 3 + j.val, hb j⟩ : Fin cfg1.N) : S1x512x1024.Idx → EReal) (ix3 (0 : Fin 1) r h)
        = (V c main_v6 : S8x2048x3072.Idx → EReal)
            (ix3 (⟨t.val / 16, by omega⟩ : Fin 8) (⟨j.val * 512 + r.val, by have := r.isLt; have := j.isLt; omega⟩ : Fin 2048)
              (⟨2048 + h.val, by omega⟩ : Fin 3072)) := fun j hj r h => by
    have hjl := j.isLt
    refine (iblk1_2_apply V c ⟨t.val - 3 + j.val, hb j⟩ r h).trans
      (congrArg (V c main_v6 : S8x2048x3072.Idx → EReal) (funext fun a => Fin.ext ?_))
    match a with
    | ⟨0, _⟩ => show (t.val - 3 + j.val) / 16 = t.val / 16; omega
    | ⟨1, _⟩ =>
      show min ((t.val - 3 + j.val) % 4) ((t.val - 3 + j.val) / 4 % 4) * 512 + r.val = j.val * 512 + r.val
      rw [show (t.val - 3 + j.val) % 4 = j.val by omega, show (t.val - 3 + j.val) / 4 % 4 = t.val / 4 % 4 by omega,
        Nat.min_eq_left hj]
    | ⟨2, _⟩ => rfl
  exact Cert.KernelIdeal.AttValue.out_eq
    (fun b n h => (V c main_v6 : S8x2048x3072.Idx → EReal) (ix3 b n (⟨h.val, by omega⟩ : Fin 3072)))
    (fun b n h => (V c main_v6 : S8x2048x3072.Idx → EReal) (ix3 b n (⟨1024 + h.val, by omega⟩ : Fin 3072)))
    (fun b n h => (V c main_v6 : S8x2048x3072.Idx → EReal) (ix3 b n (⟨2048 + h.val, by omega⟩ : Fin 3072)))
    (fun b n h => hfin _) (fun b n h => hfin _) (fun b n h => hfin _)
    (⟨t.val / 16, by omega⟩ : Fin 8) (⟨t.val / 4 % 4, by omega⟩ : Fin 4)
    (iblk1 V c 0 (⟨t.val - 3 + (0 : Fin 4).val, hb 0⟩ : Fin cfg1.N))
    (fun j : Fin 4 => iblk1 V c 1 (⟨t.val - 3 + j.val, hb j⟩ : Fin cfg1.N))
    (fun j : Fin 4 => iblk1 V c 2 (⟨t.val - 3 + j.val, hb j⟩ : Fin cfg1.N))
    hq hk hv r h

end Cert.KernelIdeal.Run

end
-- ==== Proof.KI.KernelValue.lean ====
/- The kernel's value: the array the attention region leaves is the specification's attention of the three projections
   of the arguments. The projection region's result, regrouped as 8 batches of 2048 rows, holds the query, key and value
   projections side by side along its last axis: column h, 1024 + h, 2048 + h of row (b, n) is the query, key, value
   projection of x at (b, n, h). Each is a sum of products of real numbers plus a real number, so every entry the
   attention region reads is a real number, which is what the attention region's value needs. -/
import proofs.«104284_j31817117729495_2_alg».proof.Proof.KI.R0Value
import proofs.«104284_j31817117729495_2_alg».proof.Proof.KI.R1
import proofs.«104284_j31817117729495_2_alg».proof.Proof.AttFinite
import proofs.«104284_j31817117729495_2_alg».proof.Proof.KI.Run
import proofs.«104284_j31817117729495_2_alg».proof.Proof.KI.R1Final

noncomputable section

namespace Cert.KernelIdeal.Run

open Cert.KernelIdeal Cert.KernelIdeal.Gen
open Idealize.ShloMosaic Idealize.ShloMosaic.TcCoe Idealize.SL.Sem Idealize.ShloMosaic.ValueIdx

/-- The attention of the three column bands of an [8, 2048, 3072] array: columns h, 1024 + h, 2048 + h of row (b, n) as
    the query, key and value at (b, n, h). -/
def kv_attn (A : S8x2048x3072.Idx → EReal) : S8x2048x1024.Idx → EReal :=
  fun i => Cert.Att.attn (fun b n h => A (ix3 b n ⟨h.val, by omega⟩)) (fun b n h => A (ix3 b n ⟨1024 + h.val, by omega⟩))
    (fun b n h => A (ix3 b n ⟨2048 + h.val, by omega⟩)) (i 0) (i 1) (i 2)

section Bands

/- A6 is the [8, 2048, 3072] array the attention region reads, A5 the projection region's [16384, 3072] result: A6 is A5
   with its rows regrouped (hA6), and A5's three column bands are the three projections (hq, hk, hv). -/
variable (A6 : S8x2048x3072.Idx → EReal) (A5 : S16384x3072.Idx → EReal)
variable (Pq Pk Pv : Fin 8 → Fin 2048 → Fin 1024 → EReal)
variable (hA6 : ∀ (b : Fin 8) (n : Fin 2048) (col : Fin 3072),
    A6 (ix3 b n col) = A5 (ix2 ⟨b.val * 2048 + n.val, by have := b.isLt; have := n.isLt; omega⟩ col))
variable (hq : ∀ (b : Fin 8) (n : Fin 2048) (h : Fin 1024) (hr : b.val * 2048 + n.val < 16384) (hc : 0 * 1024 + h.val < 3072),
    A5 (ix2 ⟨b.val * 2048 + n.val, hr⟩ ⟨0 * 1024 + h.val, hc⟩) = Pq b n h)
variable (hk : ∀ (b : Fin 8) (n : Fin 2048) (h : Fin 1024) (hr : b.val * 2048 + n.val < 16384) (hc : 1 * 1024 + h.val < 3072),
    A5 (ix2 ⟨b.val * 2048 + n.val, hr⟩ ⟨1 * 1024 + h.val, hc⟩) = Pk b n h)
variable (hv : ∀ (b : Fin 8) (n : Fin 2048) (h : Fin 1024) (hr : b.val * 2048 + n.val < 16384) (hc : 2 * 1024 + h.val < 3072),
    A5 (ix2 ⟨b.val * 2048 + n.val, hr⟩ ⟨2 * 1024 + h.val, hc⟩) = Pv b n h)

include hA6 hq in
/-- Column h of row (b, n) is the first band's entry. -/
theorem kv_q (b : Fin 8) (n : Fin 2048) (h : Fin 1024) : A6 (ix3 b n ⟨h.val, by omega⟩) = Pq b n h := by
  have hr : b.val * 2048 + n.val < 16384 := by have := b.isLt; have := n.isLt; omega
  have hh := h.isLt
  have hc : 0 * 1024 + h.val < 3072 := by rw [Nat.zero_mul, Nat.zero_add]; omega
  have e : (⟨h.val, by omega⟩ : Fin 3072) = ⟨0 * 1024 + h.val, hc⟩ := Fin.ext (by show h.val = 0 * 1024 + h.val; rw [Nat.zero_mul, Nat.zero_add])
  rw [hA6, e]
  exact hq b n h hr hc

include hA6 hk in
/-- Column 1024 + h is the second band's. -/
theorem kv_k (b : Fin 8) (n : Fin 2048) (h : Fin 1024) : A6 (ix3 b n ⟨1024 + h.val, by omega⟩) = Pk b n h := by
  have hr : b.val * 2048 + n.val < 16384 := by have := b.isLt; have := n.isLt; omega
  have e : (⟨1024 + h.val, by omega⟩ : Fin 3072) = ⟨1 * 1024 + h.val, by omega⟩ := Fin.ext (by show 1024 + h.val = 1 * 1024 + h.val; omega)
  rw [hA6, e]
  exact hk b n h hr _

include hA6 hv in
/-- Column 2048 + h is the third band's. -/
theorem kv_v (b : Fin 8) (n : Fin 2048) (h : Fin 1024) : A6 (ix3 b n ⟨2048 + h.val, by omega⟩) = Pv b n h := by
  have hr : b.val * 2048 + n.val < 16384 := by have := b.isLt; have := n.isLt; omega
  have e : (⟨2048 + h.val, by omega⟩ : Fin 3072) = ⟨2 * 1024 + h.val, by omega⟩ := Fin.ext (by show 2048 + h.val = 2 * 1024 + h.val; omega)
  rw [hA6, e]
  exact hv b n h hr _

include hA6 hq hk hv in
/-- Every entry of A6 is a real number when the three bands' entries are. -/
theorem kv_real (rq : ∀ b n h, ∃ r : ℝ, Pq b n h = (r : EReal)) (rk : ∀ b n h, ∃ r : ℝ, Pk b n h = (r : EReal))
    (rv : ∀ b n h, ∃ r : ℝ, Pv b n h = (r : EReal)) (i : S8x2048x3072.Idx) : ∃ x : ℝ, A6 i = (x : EReal) := by
  obtain ⟨b, n, col, rfl⟩ : ∃ (b : Fin 8) (n : Fin 2048) (col : Fin 3072), i = ix3 b n col := ⟨i 0, i 1, i 2, eq_ix3 i⟩
  have hcol := col.isLt
  by_cases h1 : col.val < 1024
  · rw [show col = ⟨(⟨col.val, h1⟩ : Fin 1024).val, by omega⟩ from Fin.ext rfl, kv_q A6 A5 Pq hA6 hq]
    exact rq b n _
  by_cases h2 : col.val < 2048
  · rw [show col = ⟨1024 + (⟨col.val - 1024, by omega⟩ : Fin 1024).val, by omega⟩ from Fin.ext (by show col.val = 1024 + (col.val - 1024); omega), kv_k A6 A5 Pk hA6 hk]
    exact rk b n _
  · rw [show col = ⟨2048 + (⟨col.val - 2048, by omega⟩ : Fin 1024).val, by omega⟩ from Fin.ext (by show col.val = 2048 + (col.val - 2048); omega), kv_v A6 A5 Pv hA6 hv]
    exact rv b n _

include hA6 hq hk hv in
/-- The attention of A6's bands is the attention of the three projections. -/
theorem kv_attn_eq (i : S8x2048x1024.Idx) : kv_attn A6 i = Cert.Att.attn Pq Pk Pv (i 0) (i 1) (i 2) := by
  have eQ : (fun (b : Fin 8) (n : Fin 2048) (h : Fin 1024) => A6 (ix3 b n ⟨h.val, by omega⟩)) = Pq :=
    funext fun b => funext fun n => funext fun h => kv_q A6 A5 Pq hA6 hq b n h
  have eK : (fun (b : Fin 8) (n : Fin 2048) (h : Fin 1024) => A6 (ix3 b n ⟨1024 + h.val, by omega⟩)) = Pk :=
    funext fun b => funext fun n => funext fun h => kv_k A6 A5 Pk hA6 hk b n h
  have eV : (fun (b : Fin 8) (n : Fin 2048) (h : Fin 1024) => A6 (ix3 b n ⟨2048 + h.val, by omega⟩)) = Pv :=
    funext fun b => funext fun n => funext fun h => kv_v A6 A5 Pv hA6 hv b n h
  unfold kv_attn
  rw [eQ, eK, eV]

end Bands

/-! ## The bands of the array between the regions -/

/-- The [16384, 3072] result regrouped as 8 batches of 2048 rows: entry (b, n, col) is row b · 2048 + n, column col. -/
theorem kv_regroup (A5 : S16384x3072.Idx → EReal) (b : Fin 8) (n : Fin 2048) (col : Fin 3072) :
    shapeCast S8x2048x3072 A5 shapeCasts_S16384x3072_S8x2048x3072 (ix3 b n col)
      = A5 (ix2 ⟨b.val * 2048 + n.val, by have := b.isLt; have := n.isLt; omega⟩ col) := by
  refine shapeCast_apply A5 _ _ _ ?_
  rw [Shape.rowMajor_val_two, Shape.rowMajor_val_three]
  rfl

section Final

variable (m : (ℓ : Loc nD τ sig) → Buf (Elt Ideal) ℓ) (c : Dev nD)

/-- The array the attention region reads is the projection region's result, its rows regrouped. -/
theorem kv_A6 (b : Fin 8) (n : Fin 2048) (col : Fin 3072) :
    (U3 (F := Ideal) dat0 m c main_v6 : S8x2048x3072.Idx → EReal) (ix3 b n col)
      = ((dat0 (F := Ideal) (U1 m) c).arrAt 3 cfg0.N : S16384x3072.Idx → EReal) (ix2 ⟨b.val * 2048 + n.val, by have := b.isLt; have := n.isLt; omega⟩ col) :=
  (congrFun (U3_v6 (F := Ideal) dat0 m c) (ix3 b n col)).trans (kv_regroup _ b n col)

/-- THE KERNEL'S VALUE, given the attention region's value at the contents it is entered with: the attention of the
    query, key and value projections of the arguments. -/
theorem kernel_value_of
    (hfinal1 : (∀ i, ∃ x : ℝ, (U3 (F := Ideal) dat0 m c main_v6 : S8x2048x3072.Idx → EReal) i = (x : EReal)) →
      (dat1 (F := Ideal) (U3 dat0 m) c).arrAt 3 cfg1.N = kv_attn (U3 (F := Ideal) dat0 m c main_v6))
    (hfin : (∀ i, ∃ r : ℝ, m ((c.tc : Thread nD τ).loc main_arg0) i = (r : EReal)) ∧ (∀ i, ∃ r : ℝ, m ((c.tc : Thread nD τ).loc main_arg1) i = (r : EReal))
      ∧ (∀ i, ∃ r : ℝ, m ((c.tc : Thread nD τ).loc main_arg2) i = (r : EReal)) ∧ (∀ i, ∃ r : ℝ, m ((c.tc : Thread nD τ).loc main_arg3) i = (r : EReal))
      ∧ (∀ i, ∃ r : ℝ, m ((c.tc : Thread nD τ).loc main_arg4) i = (r : EReal)) ∧ (∀ i, ∃ r : ℝ, m ((c.tc : Thread nD τ).loc main_arg5) i = (r : EReal))
      ∧ (∀ i, ∃ r : ℝ, m ((c.tc : Thread nD τ).loc main_arg6) i = (r : EReal))) :
    (dat1 (F := Ideal) (U3 dat0 m) c).arrAt 3 cfg1.N
      = Cert.Att.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  obtain ⟨f0, f1, f2, f3, f4, f5, f6⟩ := hfin
  have hq := qkv_eq_q m c
  have hk := qkv_eq_k m c
  have hv := qkv_eq_v m c
  rw [hfinal1 (kv_real _ _ _ _ _ (kv_A6 m c) hq hk hv (Cert.Att.proj_real f0 f1 f2) (Cert.Att.proj_real f0 f3 f4) (Cert.Att.proj_real f0 f5 f6))]
  funext i
  exact kv_attn_eq _ _ _ _ _ (kv_A6 m c) hq hk hv i

/-- THE KERNEL'S VALUE: when every entry of the seven arguments is a real number, the array the attention region leaves is
    the specification's result — the attention of the query, key and value projections of x. -/
theorem kernel_value
    (hfin : (∀ i, ∃ r : ℝ, m ((c.tc : Thread nD τ).loc main_arg0) i = (r : EReal)) ∧ (∀ i, ∃ r : ℝ, m ((c.tc : Thread nD τ).loc main_arg1) i = (r : EReal))
      ∧ (∀ i, ∃ r : ℝ, m ((c.tc : Thread nD τ).loc main_arg2) i = (r : EReal)) ∧ (∀ i, ∃ r : ℝ, m ((c.tc : Thread nD τ).loc main_arg3) i = (r : EReal))
      ∧ (∀ i, ∃ r : ℝ, m ((c.tc : Thread nD τ).loc main_arg4) i = (r : EReal)) ∧ (∀ i, ∃ r : ℝ, m ((c.tc : Thread nD τ).loc main_arg5) i = (r : EReal))
      ∧ (∀ i, ∃ r : ℝ, m ((c.tc : Thread nD τ).loc main_arg6) i = (r : EReal))) :
    (dat1 (F := Ideal) (U3 dat0 m) c).arrAt 3 cfg1.N
      = Cert.Att.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) :=
  kernel_value_of m c (fun h => final1 (U3 dat0 m) c h) hfin

end Final

end Cert.KernelIdeal.Run

end
-- ==== Proof.Claims.lean ====
/-
  The three claims about the kernel's program, assembled.

  Both forms of the kernel's program (as printed, and idealized) run to the end without a fault and leave the seven
  arguments as launched: that is the run of the program — two host stretches and the two regions — with the result
  dropped. At the extended reals, from memories that agree on the arguments and under the finiteness precondition, the
  kernel's result and the reference's are one array: the attention region leaves the specification's attention of the
  three projections of the arguments (the kernel's value, which needs every argument entry to be a real number: the
  precondition says so), and the reference's composed term, read index by index, is the same function of the same
  arguments.
-/
import proofs.«104284_j31817117729495_2_alg».proof.Defs
import proofs.«104284_j31817117729495_2_alg».proof.Proof.Gen.Kernel
import proofs.«104284_j31817117729495_2_alg».proof.Proof.Gen.KernelIdeal
import proofs.«104284_j31817117729495_2_alg».proof.Proof.Gen.ReferenceIdeal
import proofs.«104284_j31817117729495_2_alg».proof.Proof.Gen.Pre_finite_inputs
import proofs.«104284_j31817117729495_2_alg».proof.Proof.Gen.ReferenceIdeal.Run
import proofs.«104284_j31817117729495_2_alg».proof.Proof.Gen.ReferenceIdeal.Read
import proofs.«104284_j31817117729495_2_alg».proof.Proof.RefValue
import proofs.«104284_j31817117729495_2_alg».proof.Proof.PreFinite
import proofs.«104284_j31817117729495_2_alg».proof.Proof.AttSpec
import proofs.«104284_j31817117729495_2_alg».proof.Proof.KI.RunInst
import proofs.«104284_j31817117729495_2_alg».proof.Proof.K.RunInst
import proofs.«104284_j31817117729495_2_alg».proof.Proof.KI.KernelValue

noncomputable section

namespace Cert.Proof.Claims

open Idealize.ShloMosaic Idealize.SL.Sem

/-- The kernel's program ends, faults nowhere and leaves the arguments as launched: its run with the result dropped. -/
theorem frame_k : Cert.frame_Kernel := fun m ρ _ =>
  (θ_run Cert.Kernel.defs _ _).mono (fun _ h c => (h c).2) (Cert.Kernel.Run.run_main (F := Bits) m ρ)

/-- The same of the idealized kernel's program. -/
theorem frame_ki : Cert.frame_KernelIdeal := fun m ρ _ =>
  (θ_run Cert.KernelIdeal.defs _ _).mono (fun _ h c => (h c).2) (Cert.KernelIdeal.Run.run_main (F := Ideal) m ρ)

/-- At the extended reals, from memories that agree on finite arguments, both programs end with the specification's
    attention of the three projections in the result — the kernel by its value (`Kv`), the reference read index by
    index. -/
theorem algebraic_of
    (Kv : ∀ (m : (ℓ : Loc Cert.KernelIdeal.nD Cert.KernelIdeal.τ Cert.KernelIdeal.sig) → Buf (Elt Ideal) ℓ) (c : Dev Cert.KernelIdeal.nD),
      ((∀ i, ∃ r : ℝ, m ((c.tc : Thread Cert.KernelIdeal.nD Cert.KernelIdeal.τ).loc Cert.KernelIdeal.main_arg0) i = (r : EReal)) ∧ (∀ i, ∃ r : ℝ, m ((c.tc : Thread Cert.KernelIdeal.nD Cert.KernelIdeal.τ).loc Cert.KernelIdeal.main_arg1) i = (r : EReal)) ∧ (∀ i, ∃ r : ℝ, m ((c.tc : Thread Cert.KernelIdeal.nD Cert.KernelIdeal.τ).loc Cert.KernelIdeal.main_arg2) i = (r : EReal)) ∧ (∀ i, ∃ r : ℝ, m ((c.tc : Thread Cert.KernelIdeal.nD Cert.KernelIdeal.τ).loc Cert.KernelIdeal.main_arg3) i = (r : EReal)) ∧ (∀ i, ∃ r : ℝ, m ((c.tc : Thread Cert.KernelIdeal.nD Cert.KernelIdeal.τ).loc Cert.KernelIdeal.main_arg4) i = (r : EReal)) ∧ (∀ i, ∃ r : ℝ, m ((c.tc : Thread Cert.KernelIdeal.nD Cert.KernelIdeal.τ).loc Cert.KernelIdeal.main_arg5) i = (r : EReal)) ∧ (∀ i, ∃ r : ℝ, m ((c.tc : Thread Cert.KernelIdeal.nD Cert.KernelIdeal.τ).loc Cert.KernelIdeal.main_arg6) i = (r : EReal))) →
      (Cert.KernelIdeal.Run.dat1 (F := Ideal) (Cert.KernelIdeal.Run.U3 Cert.KernelIdeal.Run.dat0 m) c).arrAt 3 Cert.KernelIdeal.cfg1.N = Cert.Att.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) :
    Cert.algebraic_KernelIdeal_ReferenceIdeal := by
  intro m ρ m' ρ' hpre hagree
  refine ⟨fun c => (Cert.KernelIdeal.Run.dat1 (F := Ideal) (Cert.KernelIdeal.Run.U3 Cert.KernelIdeal.Run.dat0 m) c).arrAt 3 Cert.KernelIdeal.cfg1.N,
    Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2]
  exact (Kv m c (Cert.Pre_finite_inputs.Finite.finite_of_pre _ _ _ _ _ _ _ (hpre c))).symm

/-- The kernel's result and the reference's agree at the extended reals. -/
theorem algebraic : Cert.algebraic_KernelIdeal_ReferenceIdeal :=
  algebraic_of fun m c hfin => Cert.KernelIdeal.Run.kernel_value m c hfin

end Cert.Proof.Claims

end
-- ==== Proof.lean ====
/-
  Causal attention over a fused projection, against its unblocked form.

  The kernel's program computes q, k, v as ONE product x · [Wq | Wk | Wv] + [bq | bk | bv] (32 row blocks of 512), then, per
  batch and per block of 512 queries, walks the key blocks ki ≤ qi carrying a running row maximum m, a normaliser l and a
  weighted sum acc: with s = q·kᵀ / 32 on the block, masked to -∞ above the diagonal,
      m' = max m (rowmax s),  l' = exp (m - m') · l + rowsum exp (s - m'),  acc' = exp (m - m') · acc + exp (s - m') · v,
  from (-∞, 0, 0) at ki = 0, and writes acc / l at the last key block. The reference forms the full 2048 × 2048 score
  matrix s = q·kᵀ · (1 / √1024), masks it to -∞ above the diagonal, and returns softmax(s) · v.

  At the extended reals the two agree for finite inputs: √1024 = 32 and 1/32 is the kernel's literal; every query sees key 0,
  so every running maximum after the first block is a real number; a masked key weighs exp (-∞) = 0 against any level, the key
  blocks above the diagonal that the kernel skips hold masked keys only; rescaling by exp (m - m') turns the weights against
  m into the weights against m' (Proof/LibOnlineSoftmax.lean: `Inv.step`), and dividing the weighted sum by the normaliser
  — a real number ≥ 1 — is dividing each weight (`Inv.div_eq`).

  The modules: Proof/AttSpec.lean states the result as one function `G` of the seven argument arrays; Proof/RefValue.lean reads
  the reference's operations to `G`, Proof/PreFinite.lean reads the precondition as "every entry is a real number";
  Proof/KI/R0*.lean and R1*.lean are the two kernel regions (what each grid point leaves in the buffers, the body's run at every
  point, the regions' arrays after them), Proof/KI/Run*.lean runs @main's four segments, Proof/KI/AttValue*.lean is one query
  block's arithmetic, Proof/KI/KernelValue.lean joins them into the kernel's value, and Proof/K/ holds the same run for the
  word-level program; Proof/Claims.lean assembles the two kernel frames and the value equation.
-/
import proofs.«104284_j31817117729495_2_alg».proof.Defs
import proofs.«104284_j31817117729495_2_alg».proof.Proof.Gen.Kernel
import proofs.«104284_j31817117729495_2_alg».proof.Proof.Gen.Kernel.Skeleton
import proofs.«104284_j31817117729495_2_alg».proof.Proof.Gen.Kernel.Launch
import proofs.«104284_j31817117729495_2_alg».proof.Proof.Gen.Kernel.Regions
import proofs.«104284_j31817117729495_2_alg».proof.Proof.Gen.Kernel.Points
import proofs.«104284_j31817117729495_2_alg».proof.Proof.Gen.KernelIdeal
import proofs.«104284_j31817117729495_2_alg».proof.Proof.Gen.KernelIdeal.Skeleton
import proofs.«104284_j31817117729495_2_alg».proof.Proof.Gen.KernelIdeal.Launch
import proofs.«104284_j31817117729495_2_alg».proof.Proof.Gen.KernelIdeal.Regions
import proofs.«104284_j31817117729495_2_alg».proof.Proof.Gen.KernelIdeal.Points
import proofs.«104284_j31817117729495_2_alg».proof.Proof.Gen.ReferenceIdeal
import proofs.«104284_j31817117729495_2_alg».proof.Proof.Gen.Pre_finite_inputs
import proofs.«104284_j31817117729495_2_alg».proof.Proof.Gen.ReferenceIdeal.Run
import proofs.«104284_j31817117729495_2_alg».proof.Proof.Gen.ReferenceIdeal.Read
import proofs.«104284_j31817117729495_2_alg».proof.Proof.LibOnlineSoftmax
import proofs.«104284_j31817117729495_2_alg».proof.Proof.Claims
import Idealize.ShloMosaic.Adequacy
import Idealize.ShloMosaic.Init

noncomputable section

namespace Cert.Proof

open Idealize.ShloMosaic Idealize.SL.Sem Cert.Kernel

/-- The reference is a host program: its generated run ends, faults nowhere and leaves the arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- Both rewritten literals are the table's `"neg_big"`, which the table reads as `-∞`. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, frame_ri, preserves, Cert.Proof.Claims.algebraic⟩

end Cert.Proof

end
